-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v167)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v167) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v213) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128x40 : Shape := ⟨2, ![128, 40]⟩
abbrev S128 : Shape := ⟨1, ![128]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S128 : S_.BroadcastsInDim S128 (![] : Fin 0 → Fin S128.rank)
  reducesTo_S128_S_d0 : S128.ReducesTo [0] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128 .f32) (main_arg9 : FVec F S40 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128x40 .f32) (main_arg6 : FVec F S128 .f32) (main_arg7 : FVec F S128 .f32) (main_arg8 : FVec F S128 .f32) (main_arg9 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x40 .f32 := Host.absf main_arg5
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128x128 .f32) (main_arg5 : FVec F S128x40 .f32) (main_arg6 : FVec F S128 .f32) (main_arg7 : FVec F S128 .f32) (main_arg8 : FVec F S128 .f32) (main_arg9 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128x40 : Shape := ⟨2, ![128, 40]⟩
abbrev S128 : Shape := ⟨1, ![128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S10000x128 : Shape := ⟨2, ![10000, 128]⟩
abbrev S1600000x128 : Shape := ⟨2, ![1600000, 128]⟩
abbrev S1x128 : Shape := ⟨2, ![1, 128]⟩
abbrev S1x1 : Shape := ⟨2, ![1, 1]⟩
abbrev S1700000 : Shape := ⟨1, ![1700000]⟩
abbrev S1700000x1 : Shape := ⟨2, ![1700000, 1]⟩
abbrev S100000x40 : Shape := ⟨2, ![100000, 40]⟩
abbrev S10000x40 : Shape := ⟨2, ![10000, 40]⟩
abbrev S1700000x40 : Shape := ⟨2, ![1700000, 40]⟩
abbrev S1x40 : Shape := ⟨2, ![1, 40]⟩

abbrev nBuf : Space → Nat
  | .hbm => 231
  | .vmem => 38
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128x128, .f32⟩
  | 4 => ⟨S128x128, .f32⟩
  | 5 => ⟨S128x40, .f32⟩
  | 6 => ⟨S128, .f32⟩
  | 7 => ⟨S128, .f32⟩
  | 8 => ⟨S128, .f32⟩
  | 9 => ⟨S40, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S1600000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S1600000, .f32⟩
  | 48 => ⟨S100000x128, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x128, .f32⟩
  | 58 => ⟨S1600000x1, .f32⟩
  | 59 => ⟨S1600000x128, .f32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S128, .f32⟩
  | 70 => ⟨S1x128, .f32⟩
  | 71 => ⟨S_, .f32⟩
  | 72 => ⟨S1x128, .f32⟩
  | 73 => ⟨S1x128, .f32⟩
  | 74 => ⟨S100000x128, .f32⟩
  | 75 => ⟨S100000x128, .f32⟩
  | 76 => ⟨S100000x128, .f32⟩
  | 77 => ⟨S_, .f32⟩
  | 78 => ⟨S100000, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S1x1, .f32⟩
  | 89 => ⟨S100000x128, .f32⟩
  | 90 => ⟨S100000x128, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S1600000x1, .f32⟩
  | 101 => ⟨S1600000x128, .f32⟩
  | 102 => ⟨S1600000x128, .f32⟩
  | 103 => ⟨S_, .f32⟩
  | 104 => ⟨S100000x128, .f32⟩
  | 105 => ⟨S1600000x1, .i32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S128, .f32⟩
  | 112 => ⟨S1x128, .f32⟩
  | 113 => ⟨S_, .f32⟩
  | 114 => ⟨S1x128, .f32⟩
  | 115 => ⟨S1x128, .f32⟩
  | 116 => ⟨S100000x128, .f32⟩
  | 117 => ⟨S100000x128, .f32⟩
  | 118 => ⟨S100000x128, .f32⟩
  | 119 => ⟨S_, .f32⟩
  | 120 => ⟨S100000, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S100000x128, .f32⟩

abbrev hbmTy0_1 (i : Nat) : BufTy := match i % 128 with
  | 0 => ⟨S_, .f32⟩
  | 1 => ⟨S_, .f32⟩
  | 2 => ⟨S1x1, .f32⟩
  | 3 => ⟨S100000x128, .f32⟩
  | 4 => ⟨S100000x128, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x128, .f32⟩
  | 14 => ⟨S1600000x1, .f32⟩
  | 15 => ⟨S1600000x128, .f32⟩
  | 16 => ⟨S1600000x128, .f32⟩
  | 17 => ⟨S_, .f32⟩
  | 18 => ⟨S100000x128, .f32⟩
  | 19 => ⟨S1600000x1, .i32⟩
  | 20 => ⟨S100000x128, .f32⟩
  | 21 => ⟨S1x128, .f32⟩
  | 22 => ⟨S100000x128, .f32⟩
  | 23 => ⟨S100000x128, .f32⟩
  | 24 => ⟨S_, .f32⟩
  | 25 => ⟨S128, .f32⟩
  | 26 => ⟨S1x128, .f32⟩
  | 27 => ⟨S_, .f32⟩
  | 28 => ⟨S1x128, .f32⟩
  | 29 => ⟨S1x128, .f32⟩
  | 30 => ⟨S100000x128, .f32⟩
  | 31 => ⟨S100000x128, .f32⟩
  | 32 => ⟨S100000x128, .f32⟩
  | 33 => ⟨S_, .f32⟩
  | 34 => ⟨S100000, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S1x1, .f32⟩
  | 45 => ⟨S100000x128, .f32⟩
  | 46 => ⟨S100000, .i32⟩
  | 47 => ⟨S1700000, .i32⟩
  | 48 => ⟨S1700000, .i32⟩
  | 49 => ⟨S_, .f32⟩
  | 50 => ⟨S1700000, .f32⟩
  | 51 => ⟨S_, .f32⟩
  | 52 => ⟨S100000, .f32⟩
  | 53 => ⟨S1700000x1, .i32⟩
  | 54 => ⟨S100000, .f32⟩
  | 55 => ⟨S_, .f32⟩
  | 56 => ⟨S100000, .f32⟩
  | 57 => ⟨S100000, .i1⟩
  | 58 => ⟨S100000, .f32⟩
  | 59 => ⟨S_, .f32⟩
  | 60 => ⟨S_, .f32⟩
  | 61 => ⟨S100000, .f32⟩
  | 62 => ⟨S100000, .f32⟩
  | 63 => ⟨S_, .i32⟩
  | 64 => ⟨S1700000, .i32⟩
  | 65 => ⟨S1700000, .i1⟩
  | 66 => ⟨S_, .i32⟩
  | 67 => ⟨S1700000, .i32⟩
  | 68 => ⟨S1700000, .i32⟩
  | 69 => ⟨S1700000, .i32⟩
  | 70 => ⟨S1700000x1, .i32⟩
  | 71 => ⟨S1700000, .f32⟩
  | 72 => ⟨S1700000, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000, .f32⟩
  | 82 => ⟨S1700000, .f32⟩
  | 83 => ⟨S100000x40, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000x40, .f32⟩
  | 93 => ⟨S1700000x1, .f32⟩
  | 94 => ⟨S1700000x40, .f32⟩
  | 95 => ⟨S1700000x40, .f32⟩
  | 96 => ⟨S_, .f32⟩
  | 97 => ⟨S100000x40, .f32⟩
  | 98 => ⟨S1700000x1, .i32⟩
  | 99 => ⟨S100000x40, .f32⟩
  | 100 => ⟨S1x40, .f32⟩
  | 101 => ⟨S100000x40, .f32⟩
  | 102 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S1x1, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S1x128, .f32⟩
  | .local _ .vmem, ⟨19, _⟩ => ⟨S1x1, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S128x128, .f32⟩
  | .local _ .vmem, ⟨25, _⟩ => ⟨S10000x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S1x128, .f32⟩
  | .local _ .vmem, ⟨30, _⟩ => ⟨S1x1, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S10000x128, .f32⟩
  | .local _ .vmem, ⟨35, _⟩ => ⟨S128x40, .f32⟩
  | .local _ .vmem, ⟨36, _⟩ => ⟨S10000x40, .f32⟩
  | .local _ .vmem, ⟨37, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_cst_13 : Ref sig .tc := ⟨.hbm, 81, rfl⟩
abbrev main_v54 : Ref sig .tc := ⟨.hbm, 82, rfl⟩
abbrev main_cst_14 : Ref sig .tc := ⟨.hbm, 83, rfl⟩
abbrev main_v55 : Ref sig .tc := ⟨.hbm, 84, rfl⟩
abbrev main_v56 : Ref sig .tc := ⟨.hbm, 85, rfl⟩
abbrev main_cst_15 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_16 : Ref sig .tc := ⟨.hbm, 91, rfl⟩
abbrev main_v61 : Ref sig .tc := ⟨.hbm, 92, rfl⟩
abbrev main_v62 : Ref sig .tc := ⟨.hbm, 93, rfl⟩
abbrev main_c_17 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_18 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_19 : Ref sig .tc := ⟨.hbm, 110, rfl⟩
abbrev main_v77 : Ref sig .tc := ⟨.hbm, 111, rfl⟩
abbrev main_v78 : Ref sig .tc := ⟨.hbm, 112, rfl⟩
abbrev main_cst_20 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_21 : Ref sig .tc := ⟨.hbm, 119, rfl⟩
abbrev main_v84 : Ref sig .tc := ⟨.hbm, 120, rfl⟩
abbrev main_cst_22 : Ref sig .tc := ⟨.hbm, 121, rfl⟩
abbrev main_v85 : Ref sig .tc := ⟨.hbm, 122, rfl⟩
abbrev main_cst_23 : Ref sig .tc := ⟨.hbm, 123, rfl⟩
abbrev main_v86 : Ref sig .tc := ⟨.hbm, 124, rfl⟩
abbrev main_cst_24 : Ref sig .tc := ⟨.hbm, 125, rfl⟩
abbrev main_v87 : Ref sig .tc := ⟨.hbm, 126, rfl⟩
abbrev main_v88 : Ref sig .tc := ⟨.hbm, 127, rfl⟩
abbrev main_cst_25 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_c_26 : Ref sig .tc := ⟨.hbm, 133, rfl⟩
abbrev main_v93 : Ref sig .tc := ⟨.hbm, 134, rfl⟩
abbrev main_v94 : Ref sig .tc := ⟨.hbm, 135, rfl⟩
abbrev main_c_27 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_28 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_29 : Ref sig .tc := ⟨.hbm, 152, rfl⟩
abbrev main_v109 : Ref sig .tc := ⟨.hbm, 153, rfl⟩
abbrev main_v110 : Ref sig .tc := ⟨.hbm, 154, rfl⟩
abbrev main_cst_30 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_cst_31 : Ref sig .tc := ⟨.hbm, 161, rfl⟩
abbrev main_v116 : Ref sig .tc := ⟨.hbm, 162, rfl⟩
abbrev main_cst_32 : Ref sig .tc := ⟨.hbm, 163, rfl⟩
abbrev main_v117 : Ref sig .tc := ⟨.hbm, 164, rfl⟩
abbrev main_cst_33 : Ref sig .tc := ⟨.hbm, 165, rfl⟩
abbrev main_v118 : Ref sig .tc := ⟨.hbm, 166, rfl⟩
abbrev main_cst_34 : Ref sig .tc := ⟨.hbm, 167, rfl⟩
abbrev main_v119 : Ref sig .tc := ⟨.hbm, 168, rfl⟩
abbrev main_v120 : Ref sig .tc := ⟨.hbm, 169, rfl⟩
abbrev main_cst_35 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_cst_36 : Ref sig .tc := ⟨.hbm, 177, rfl⟩
abbrev main_v127 : Ref sig .tc := ⟨.hbm, 178, rfl⟩
abbrev main_cst_37 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_cst_38 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_cst_39 : Ref sig .tc := ⟨.hbm, 187, rfl⟩
abbrev main_call1_v0 : Ref sig .tc := ⟨.hbm, 188, rfl⟩
abbrev main_call1_v1 : Ref sig .tc := ⟨.hbm, 189, rfl⟩
abbrev main_v134 : Ref sig .tc := ⟨.hbm, 190, rfl⟩
abbrev main_c_40 : Ref sig .tc := ⟨.hbm, 191, rfl⟩
abbrev main_v135 : Ref sig .tc := ⟨.hbm, 192, rfl⟩
abbrev main_v136 : Ref sig .tc := ⟨.hbm, 193, rfl⟩
abbrev main_c_41 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_c_42 : Ref sig .tc := ⟨.hbm, 201, rfl⟩
abbrev main_v143 : Ref sig .tc := ⟨.hbm, 202, rfl⟩
abbrev main_v144 : Ref sig .tc := ⟨.hbm, 203, rfl⟩
abbrev main_c_43 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_c_44 : Ref sig .tc := ⟨.hbm, 212, rfl⟩
abbrev main_v152 : Ref sig .tc := ⟨.hbm, 213, rfl⟩
abbrev main_v153 : Ref sig .tc := ⟨.hbm, 214, rfl⟩
abbrev main_c_45 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_cst_46 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg3_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg2_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem3_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem2_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x40 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x40 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S1x128 : S_.BroadcastsInDim S1x128 (![] : Fin 0 → Fin S1x128.rank)
  reducesTo_S100000x128_S100000_d1 : S100000x128.ReducesTo [1] S100000
  reducesTo_S100000_S_d0 : S100000.ReducesTo [0] S_
  shapeCasts_S_S1x1 : S_.ShapeCasts S1x1
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x128 : S1x1.Broadcasts S10000x128
  concatenates_S1600000_S100000_S1700000_d0 : Shape.Concatenates [S1600000, S100000] S1700000 0
  bcast_S_S1700000 : S_.BroadcastsInDim S1700000 (![] : Fin 0 → Fin S1700000.rank)
  bcast_S1700000_S1700000x1_0 : S1700000.BroadcastsInDim S1700000x1 (![0] : Fin 1 → Fin S1700000x1.rank)
  inb_S128x40_S128x40_0_0 : ∀ a, (![0, 0] : Fin 2 → Nat) a + S128x40.size a ≤ S128x40.size a
  h_S128x40 : 0 < S128x40.numel
  inb_S10000x40_S10000x40_0_0 : ∀ a, (![0, 0] : Fin 2 → Nat) a + S10000x40.size a ≤ S10000x40.size a
  h_S10000x40 : 0 < S10000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x40_S10000x40_1_0_0_1_n_n_wf : DotDims.WF S10000x128 S128x40 S10000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S100000x128.size a
  hwx3_3 : ∀ i : grid3.Coords, EltTy.bits .f32 = 32 ∨ (Rect.block (s := S100000x128) S10000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x128.size a ≤ S100000x128.size a
  hwx5_3 : ∀ i : grid5.Coords, EltTy.bits .f32 = 32 ∨ (Rect.block (s := S100000x128) S10000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x40.size a ≤ S128x40.size a
  hwx6_1 : ∀ i : grid6.Coords, EltTy.bits .f32 = 32 ∨ (Rect.block (s := S128x40) S128x40.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x40.size a ≤ S100000x40.size a
  hwx6_2 : ∀ i : grid6.Coords, EltTy.bits .f32 = 32 ∨ (Rect.block (s := S100000x40) S10000x40.size (cc6_transform_2 i) (hinb6_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v76) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v90) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v91) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v91) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg4) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v92) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v108) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v112) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v122) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v123) S10000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v123) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg5) S128x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v151) S10000x40.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128x40 : Shape := ⟨2, ![128, 40]⟩
abbrev S128 : Shape := ⟨1, ![128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩
abbrev S1700000 : Shape := ⟨1, ![1700000]⟩
abbrev S1700000x1 : Shape := ⟨2, ![1700000, 1]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 298
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128x128, .f32⟩
  | 4 => ⟨S128x128, .f32⟩
  | 5 => ⟨S128x40, .f32⟩
  | 6 => ⟨S128, .f32⟩
  | 7 => ⟨S128, .f32⟩
  | 8 => ⟨S128, .f32⟩
  | 9 => ⟨S40, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S1600000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S1600000, .f32⟩
  | 48 => ⟨S100000x128, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x128, .f32⟩
  | 58 => ⟨S1600000x1, .f32⟩
  | 59 => ⟨S1600000x128, .f32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S128, .f32⟩
  | 70 => ⟨S_, .f32⟩
  | 71 => ⟨S128, .f32⟩
  | 72 => ⟨S128, .f32⟩
  | 73 => ⟨S1x128, .f32⟩
  | 74 => ⟨S100000x128, .f32⟩
  | 75 => ⟨S100000x128, .f32⟩
  | 76 => ⟨S100000x128, .f32⟩
  | 77 => ⟨S_, .f32⟩
  | 78 => ⟨S100000, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S_, .f32⟩
  | 92 => ⟨S100000, .f32⟩
  | 93 => ⟨S1600000x1, .i32⟩
  | 94 => ⟨S100000, .f32⟩
  | 95 => ⟨S_, .f32⟩
  | 96 => ⟨S100000, .f32⟩
  | 97 => ⟨S100000, .i1⟩
  | 98 => ⟨S100000, .f32⟩
  | 99 => ⟨S_, .f32⟩
  | 100 => ⟨S_, .f32⟩
  | 101 => ⟨S100000, .f32⟩
  | 102 => ⟨S100000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S1600000, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000, .f32⟩
  | 122 => ⟨S1600000, .f32⟩
  | 123 => ⟨S100000x128, .f32⟩
  | 124 => ⟨S_, .i32⟩
  | 125 => ⟨S1600000, .i32⟩
  | 126 => ⟨S1600000, .i1⟩
  | 127 => ⟨S_, .i32⟩
  | _ => ⟨S100000x128, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x128, .f32⟩
  | 5 => ⟨S1600000x1, .f32⟩
  | 6 => ⟨S1600000x128, .f32⟩
  | 7 => ⟨S1600000x128, .f32⟩
  | 8 => ⟨S_, .f32⟩
  | 9 => ⟨S100000x128, .f32⟩
  | 10 => ⟨S1600000x1, .i32⟩
  | 11 => ⟨S100000x128, .f32⟩
  | 12 => ⟨S1x128, .f32⟩
  | 13 => ⟨S100000x128, .f32⟩
  | 14 => ⟨S100000x128, .f32⟩
  | 15 => ⟨S_, .f32⟩
  | 16 => ⟨S128, .f32⟩
  | 17 => ⟨S_, .f32⟩
  | 18 => ⟨S128, .f32⟩
  | 19 => ⟨S128, .f32⟩
  | 20 => ⟨S1x128, .f32⟩
  | 21 => ⟨S100000x128, .f32⟩
  | 22 => ⟨S100000x128, .f32⟩
  | 23 => ⟨S100000x128, .f32⟩
  | 24 => ⟨S_, .f32⟩
  | 25 => ⟨S100000, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S100000x128, .f32⟩
  | 34 => ⟨S100000x128, .f32⟩
  | 35 => ⟨S_, .f32⟩
  | 36 => ⟨S100000x128, .f32⟩
  | 37 => ⟨S100000x128, .f32⟩
  | 38 => ⟨S_, .f32⟩
  | 39 => ⟨S100000, .f32⟩
  | 40 => ⟨S1600000x1, .i32⟩
  | 41 => ⟨S100000, .f32⟩
  | 42 => ⟨S_, .f32⟩
  | 43 => ⟨S100000, .f32⟩
  | 44 => ⟨S100000, .i1⟩
  | 45 => ⟨S100000, .f32⟩
  | 46 => ⟨S_, .f32⟩
  | 47 => ⟨S_, .f32⟩
  | 48 => ⟨S100000, .f32⟩
  | 49 => ⟨S100000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000, .f32⟩
  | 59 => ⟨S1600000, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000, .f32⟩
  | 69 => ⟨S1600000, .f32⟩
  | 70 => ⟨S100000x128, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x128, .f32⟩
  | 80 => ⟨S1600000x1, .f32⟩
  | 81 => ⟨S1600000x128, .f32⟩
  | 82 => ⟨S1600000x128, .f32⟩
  | 83 => ⟨S_, .f32⟩
  | 84 => ⟨S100000x128, .f32⟩
  | 85 => ⟨S1600000x1, .i32⟩
  | 86 => ⟨S100000x128, .f32⟩
  | 87 => ⟨S1x128, .f32⟩
  | 88 => ⟨S100000x128, .f32⟩
  | 89 => ⟨S100000x128, .f32⟩
  | 90 => ⟨S_, .f32⟩
  | 91 => ⟨S128, .f32⟩
  | 92 => ⟨S_, .f32⟩
  | 93 => ⟨S128, .f32⟩
  | 94 => ⟨S128, .f32⟩
  | 95 => ⟨S1x128, .f32⟩
  | 96 => ⟨S100000x128, .f32⟩
  | 97 => ⟨S100000x128, .f32⟩
  | 98 => ⟨S100000x128, .f32⟩
  | 99 => ⟨S_, .f32⟩
  | 100 => ⟨S100000, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S100000, .i32⟩
  | 114 => ⟨S1700000, .i32⟩
  | 115 => ⟨S1700000, .i32⟩
  | 116 => ⟨S_, .f32⟩
  | 117 => ⟨S1700000, .f32⟩
  | 118 => ⟨S_, .f32⟩
  | 119 => ⟨S100000, .f32⟩
  | 120 => ⟨S1700000x1, .i32⟩
  | 121 => ⟨S100000, .f32⟩
  | 122 => ⟨S_, .f32⟩
  | 123 => ⟨S100000, .f32⟩
  | 124 => ⟨S100000, .i1⟩
  | 125 => ⟨S100000, .f32⟩
  | 126 => ⟨S_, .f32⟩
  | 127 => ⟨S_, .f32⟩
  | _ => ⟨S100000x128, .f32⟩

abbrev hbmTy0_2 (i : Nat) : BufTy := match i % 128 with
  | 0 => ⟨S100000, .f32⟩
  | 1 => ⟨S100000, .f32⟩
  | 2 => ⟨S_, .i32⟩
  | 3 => ⟨S1700000, .i32⟩
  | 4 => ⟨S1700000, .i1⟩
  | 5 => ⟨S_, .i32⟩
  | 6 => ⟨S1700000, .i32⟩
  | 7 => ⟨S1700000, .i32⟩
  | 8 => ⟨S1700000, .i32⟩
  | 9 => ⟨S1700000x1, .i32⟩
  | 10 => ⟨S1700000, .f32⟩
  | 11 => ⟨S1700000, .f32⟩
  | 12 => ⟨S_, .i32⟩
  | 13 => ⟨S1700000, .i32⟩
  | 14 => ⟨S1700000, .i1⟩
  | 15 => ⟨S_, .i32⟩
  | 16 => ⟨S1700000, .i32⟩
  | 17 => ⟨S1700000, .i32⟩
  | 18 => ⟨S1700000, .i32⟩
  | 19 => ⟨S1700000x1, .i32⟩
  | 20 => ⟨S1700000, .f32⟩
  | 21 => ⟨S1700000, .f32⟩
  | 22 => ⟨S100000x40, .f32⟩
  | 23 => ⟨S_, .i32⟩
  | 24 => ⟨S1700000, .i32⟩
  | 25 => ⟨S1700000, .i1⟩
  | 26 => ⟨S_, .i32⟩
  | 27 => ⟨S1700000, .i32⟩
  | 28 => ⟨S1700000, .i32⟩
  | 29 => ⟨S1700000, .i32⟩
  | 30 => ⟨S1700000x1, .i32⟩
  | 31 => ⟨S1700000x40, .f32⟩
  | 32 => ⟨S1700000x1, .f32⟩
  | 33 => ⟨S1700000x40, .f32⟩
  | 34 => ⟨S1700000x40, .f32⟩
  | 35 => ⟨S_, .f32⟩
  | 36 => ⟨S100000x40, .f32⟩
  | 37 => ⟨S1700000x1, .i32⟩
  | 38 => ⟨S100000x40, .f32⟩
  | 39 => ⟨S1x40, .f32⟩
  | 40 => ⟨S100000x40, .f32⟩
  | 41 => ⟨S100000x40, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_cst_13 : Ref sig .tc := ⟨.hbm, 81, rfl⟩
abbrev main_v54 : Ref sig .tc := ⟨.hbm, 82, rfl⟩
abbrev main_cst_14 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_call1_cst : Ref sig .tc := ⟨.hbm, 88, rfl⟩
abbrev main_call1_v0 : Ref sig .tc := ⟨.hbm, 89, rfl⟩
abbrev main_v59 : Ref sig .tc := ⟨.hbm, 90, rfl⟩
abbrev main_cst_15 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_16 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_17 : Ref sig .tc := ⟨.hbm, 99, rfl⟩
abbrev main_call2_v0 : Ref sig .tc := ⟨.hbm, 100, rfl⟩
abbrev main_call2_v1 : Ref sig .tc := ⟨.hbm, 101, rfl⟩
abbrev main_v66 : Ref sig .tc := ⟨.hbm, 102, rfl⟩
abbrev main_c_18 : Ref sig .tc := ⟨.hbm, 103, rfl⟩
abbrev main_v67 : Ref sig .tc := ⟨.hbm, 104, rfl⟩
abbrev main_v68 : Ref sig .tc := ⟨.hbm, 105, rfl⟩
abbrev main_c_19 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_20 : Ref sig .tc := ⟨.hbm, 113, rfl⟩
abbrev main_v75 : Ref sig .tc := ⟨.hbm, 114, rfl⟩
abbrev main_v76 : Ref sig .tc := ⟨.hbm, 115, rfl⟩
abbrev main_c_21 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_c_22 : Ref sig .tc := ⟨.hbm, 124, rfl⟩
abbrev main_v84 : Ref sig .tc := ⟨.hbm, 125, rfl⟩
abbrev main_v85 : Ref sig .tc := ⟨.hbm, 126, rfl⟩
abbrev main_c_23 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_24 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_25 : Ref sig .tc := ⟨.hbm, 143, rfl⟩
abbrev main_v100 : Ref sig .tc := ⟨.hbm, 144, rfl⟩
abbrev main_cst_26 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_27 : Ref sig .tc := ⟨.hbm, 152, rfl⟩
abbrev main_v107 : Ref sig .tc := ⟨.hbm, 153, rfl⟩
abbrev main_cst_28 : Ref sig .tc := ⟨.hbm, 154, rfl⟩
abbrev main_v108 : Ref sig .tc := ⟨.hbm, 155, rfl⟩
abbrev main_cst_29 : Ref sig .tc := ⟨.hbm, 156, rfl⟩
abbrev main_v109 : Ref sig .tc := ⟨.hbm, 157, rfl⟩
abbrev main_cst_30 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_call3_cst : Ref sig .tc := ⟨.hbm, 163, rfl⟩
abbrev main_call3_v0 : Ref sig .tc := ⟨.hbm, 164, rfl⟩
abbrev main_v114 : Ref sig .tc := ⟨.hbm, 165, rfl⟩
abbrev main_cst_31 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_cst_32 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_cst_33 : Ref sig .tc := ⟨.hbm, 174, rfl⟩
abbrev main_call4_v0 : Ref sig .tc := ⟨.hbm, 175, rfl⟩
abbrev main_call4_v1 : Ref sig .tc := ⟨.hbm, 176, rfl⟩
abbrev main_v121 : Ref sig .tc := ⟨.hbm, 177, rfl⟩
abbrev main_c_34 : Ref sig .tc := ⟨.hbm, 178, rfl⟩
abbrev main_v122 : Ref sig .tc := ⟨.hbm, 179, rfl⟩
abbrev main_v123 : Ref sig .tc := ⟨.hbm, 180, rfl⟩
abbrev main_c_35 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_c_36 : Ref sig .tc := ⟨.hbm, 188, rfl⟩
abbrev main_v130 : Ref sig .tc := ⟨.hbm, 189, rfl⟩
abbrev main_v131 : Ref sig .tc := ⟨.hbm, 190, rfl⟩
abbrev main_c_37 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_c_38 : Ref sig .tc := ⟨.hbm, 199, rfl⟩
abbrev main_v139 : Ref sig .tc := ⟨.hbm, 200, rfl⟩
abbrev main_v140 : Ref sig .tc := ⟨.hbm, 201, rfl⟩
abbrev main_c_39 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_cst_40 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_cst_41 : Ref sig .tc := ⟨.hbm, 218, rfl⟩
abbrev main_v155 : Ref sig .tc := ⟨.hbm, 219, rfl⟩
abbrev main_cst_42 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_cst_43 : Ref sig .tc := ⟨.hbm, 227, rfl⟩
abbrev main_v162 : Ref sig .tc := ⟨.hbm, 228, rfl⟩
abbrev main_cst_44 : Ref sig .tc := ⟨.hbm, 229, rfl⟩
abbrev main_v163 : Ref sig .tc := ⟨.hbm, 230, rfl⟩
abbrev main_cst_45 : Ref sig .tc := ⟨.hbm, 231, rfl⟩
abbrev main_v164 : Ref sig .tc := ⟨.hbm, 232, rfl⟩
abbrev main_cst_46 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_call5_cst : Ref sig .tc := ⟨.hbm, 238, rfl⟩
abbrev main_call5_v0 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_cst_47 : Ref sig .tc := ⟨.hbm, 244, rfl⟩
abbrev main_v173 : Ref sig .tc := ⟨.hbm, 245, rfl⟩
abbrev main_cst_48 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_cst_49 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_cst_50 : Ref sig .tc := ⟨.hbm, 254, rfl⟩
abbrev main_call6_v0 : Ref sig .tc := ⟨.hbm, 255, rfl⟩
abbrev main_call6_v1 : Ref sig .tc := ⟨.hbm, 256, rfl⟩
abbrev main_v180 : Ref sig .tc := ⟨.hbm, 257, rfl⟩
abbrev main_c_51 : Ref sig .tc := ⟨.hbm, 258, rfl⟩
abbrev main_v181 : Ref sig .tc := ⟨.hbm, 259, rfl⟩
abbrev main_v182 : Ref sig .tc := ⟨.hbm, 260, rfl⟩
abbrev main_c_52 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_c_53 : Ref sig .tc := ⟨.hbm, 268, rfl⟩
abbrev main_v189 : Ref sig .tc := ⟨.hbm, 269, rfl⟩
abbrev main_v190 : Ref sig .tc := ⟨.hbm, 270, rfl⟩
abbrev main_c_54 : Ref sig .tc := ⟨.hbm, 271, rfl⟩
abbrev main_v191 : Ref sig .tc := ⟨.hbm, 272, rfl⟩
abbrev main_v192 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩
abbrev main_v197 : Ref sig .tc := ⟨.hbm, 278, rfl⟩
abbrev main_c_55 : Ref sig .tc := ⟨.hbm, 279, rfl⟩
abbrev main_v198 : Ref sig .tc := ⟨.hbm, 280, rfl⟩
abbrev main_v199 : Ref sig .tc := ⟨.hbm, 281, rfl⟩
abbrev main_c_56 : Ref sig .tc := ⟨.hbm, 282, rfl⟩
abbrev main_v200 : Ref sig .tc := ⟨.hbm, 283, rfl⟩
abbrev main_v201 : Ref sig .tc := ⟨.hbm, 284, rfl⟩
abbrev main_v202 : Ref sig .tc := ⟨.hbm, 285, rfl⟩
abbrev main_v203 : Ref sig .tc := ⟨.hbm, 286, rfl⟩
abbrev main_v204 : Ref sig .tc := ⟨.hbm, 287, rfl⟩
abbrev main_v205 : Ref sig .tc := ⟨.hbm, 288, rfl⟩
abbrev main_v206 : Ref sig .tc := ⟨.hbm, 289, rfl⟩
abbrev main_v207 : Ref sig .tc := ⟨.hbm, 290, rfl⟩
abbrev main_cst_57 : Ref sig .tc := ⟨.hbm, 291, rfl⟩
abbrev main_v208 : Ref sig .tc := ⟨.hbm, 292, rfl⟩
abbrev main_v209 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  reducesTo_S100000x128_S100000_d1 : S100000x128.ReducesTo [1] S100000
  reducesTo_S100000_S_d0 : S100000.ReducesTo [0] S_
  concatenates_S1600000_S100000_S1700000_d0 : Shape.Concatenates [S1600000, S100000] S1700000 0
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel program's run, with its result named.

  The program is seventeen segments in a row: stretches of host operations and seven kernel launches.  The buffer
  contents at each boundary are a fold from the launch memory: a host stretch applies its operations to the
  contents it finds, and a kernel launch replaces its arrays by what its grid points write back and leaves every
  other buffer alone.  Every weakly fair execution terminates without a fault in a state whose unscoped buffers hold
  the last boundary's contents; read at the result buffer this gives the result, and read at an argument buffer it
  gives the launch contents back, since no segment writes an argument.
-/
import proofs.«163474_j52115133170062_1_alg».proof.Proof.Gen.KernelIdeal.Frame

set_option maxRecDepth 16384

noncomputable section

namespace Cert.KernelIdeal.RunVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and every argument array as launched. -/
theorem run : θ_run defs (onTc (τ := τ) (main (F := F))) ⟨m, fun _ => 0, ρ⟩ (fun r => ∀ c : Dev nD,
      r.2.mem ((c.tc : Thread nD τ).loc main_v167) = W17 m ρ c (Proc.devRef .tc main_v167)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v167 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c)⟩)

end Cert.KernelIdeal.RunVal

end
-- ==== Proof.GcnSpec.lean ====
/-
  The two array functions a graph-convolution layer's dense passes compute, stated once over the extended reals,
  entry by entry, for any extents.

  * `matProd x w`: the matrix product of an `M × K` array with a `K × N` array; entry `(p, q)` is the sum over
    `k` of `x[p, k] · w[k, q]`.
  * `centreScaleClamp x μ s`: every row of `x` has the row vector `μ` (a `1 × N` array) subtracted, the result is
    multiplied by the single number `s` (a `1 × 1` array) and clamped below at zero; entry `(p, q)` is
    `max ((x[p, q] - μ[0, q]) · s[0, 0]) 0`.

  Also the one law of the extended reals that joins "multiply by the reciprocal" to "divide", after the clamp:
  `max (a · (1 / r)) 0 = max (a / r) 0` for every `a` and `r`, with the division that sends `a / 0` to the infinity of
  `a`'s sign (and `0 / 0` to the bottom).  For `r ≠ 0` the two quotients are the same product with `r⁻¹`; for `r = 0`
  they differ only at `a = 0` (`0 · ⊤ = 0` against `0 / 0 = ⊥`), and clamping at zero removes that difference.
-/
import Idealize.ShloMosaic.PureOps.Ideal
import Idealize.ShloMosaic.Lib.ValueIdx

noncomputable section

open scoped BigOperators

namespace GcnSpec

open Idealize.ShloMosaic Idealize.ShloMosaic.ValueIdx

/-- Entry `(p, q)` of the product of `x : M × K` and `w : K × N` is `∑ k, x[p, k] · w[k, q]`. -/
def matProd (M K N : Nat) (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (M K N : Nat) (x : (⟨2, ![M, K]⟩ : Shape).Idx → EReal) (w : (⟨2, ![K, N]⟩ : Shape).Idx → EReal)
    (p : Fin M) (q : Fin N) : matProd M K N x w (ix2 p q) = ∑ k : Fin K, x (ix2 p k) * w (ix2 k q) := rfl

/-- Entry `(p, q)` of the centred, scaled and clamped array is `max ((x[p, q] - μ[0, q]) · s[0, 0]) 0`. -/
def centreScaleClamp (M N : Nat) (x : (⟨2, ![M, N]⟩ : Shape).Idx → EReal) (μ : (⟨2, ![1, N]⟩ : Shape).Idx → EReal)
    (s : (⟨2, ![1, 1]⟩ : Shape).Idx → EReal) : (⟨2, ![M, N]⟩ : Shape).Idx → EReal :=
  fun i => max ((x i - μ (ix2 0 (i 1))) * s (ix2 0 0)) 0

theorem centreScaleClamp_apply (M N : Nat) (x : (⟨2, ![M, N]⟩ : Shape).Idx → EReal) (μ : (⟨2, ![1, N]⟩ : Shape).Idx → EReal)
    (s : (⟨2, ![1, 1]⟩ : Shape).Idx → EReal) (p : Fin M) (q : Fin N) :
    centreScaleClamp M N x μ s (ix2 p q) = max ((x (ix2 p q) - μ (ix2 0 q)) * s (ix2 0 0)) 0 := rfl

/-- Multiplying by the reciprocal and dividing agree after clamping at zero, for every pair of extended reals. -/
theorem max_mul_recip_eq_max_div (a r : EReal) : max (a * Ideal.div 1 r) 0 = max (Ideal.div a r) 0 := by
  unfold Ideal.div
  by_cases hr : r = 0
  · rw [if_pos hr, if_pos hr, if_pos (by norm_num : (0 : EReal) < 1)]
    rcases lt_trichotomy 0 a with h | h | h
    · rw [if_pos h, EReal.mul_top_of_pos h]
    · subst h
      rw [zero_mul, if_neg (lt_irrefl _), max_self, max_eq_right bot_le]
    · rw [if_neg (not_lt.mpr h.le), EReal.mul_top_of_neg h]
  · rw [if_neg hr, if_neg hr, one_mul]

end GcnSpec

end
-- ==== Proof.PairNorm.lean ====
/-
  Pair normalisation followed by the clamp at zero, computed two ways from the same array `out` of
  100000 rows and 128 columns, and the proof that the two ways give the same array of extended reals.

  Both ways subtract from every row the row vector of column means (the column sums divided by 100000), and both
  take as scale the number `r = sqrt (c + (sum of all squared centred entries) / 100000)`, `c` a fixed positive word.
  * The first way keeps the means as a `1 × 128` row `μ`, forms `1 / r` as a `1 × 1` array, and computes
    `max ((out[p, q] - μ[0, q]) · (1 / r)) 0`  (`GcnSpec.centreScaleClamp`).
  * The second way keeps the means as a vector, and computes `max ((out[p, q] - mean[q]) / r) 0`.
  The centred arrays agree entry by entry (a mean read through either arrangement of broadcasts is the same quotient),
  so the two scales `r` are the same number, and then the one law `max (a · (1 / r)) 0 = max (a / r) 0`
  (`GcnSpec.max_mul_recip_eq_max_div`) finishes: no finiteness is used anywhere.
-/
import proofs.«163474_j52115133170062_1_alg».proof.KernelIdeal
import proofs.«163474_j52115133170062_1_alg».proof.ReferenceIdeal
import proofs.«163474_j52115133170062_1_alg».proof.Proof.GcnSpec
import Idealize.ShloMosaic.Lib.Pipeline.Value
import Idealize.ShloMosaic.Lib.ValueIdx
import Idealize.ShloMosaic.Lib.IdealHost
import Idealize.ShloMosaic.PureOps.Ideal.Laws

noncomputable section

namespace GcnBridge

open Idealize.ShloMosaic Idealize.ShloMosaic.ValueIdx

/-! ## The first way: means kept as a row, the reciprocal scale as a one-entry array -/
namespace Ker

open Cert.KernelIdeal Cert.KernelIdeal.Facts₀

variable [Cert.KernelIdeal.Facts]

abbrev Arr := FVec Ideal S100000x128 .f32

/-- The column sums. -/
def colSum (out : Arr) : FVec Ideal S128 .f32 :=
  Host.reduceAdd out (constant (F := Ideal) S_ .f32 0x00000000#32) reducesTo_S100000x128_S128_d0 h_S_

/-- The column means as a `1 × 128` row. -/
def mean (out : Arr) : FVec Ideal S1x128 .f32 :=
  Host.divf (F := Ideal) (broadcastInDim S1x128 ![1] bcast_S128_S1x128_1 (colSum out))
    (broadcastInDim S1x128 ![] bcast_S_S1x128 (constant (F := Ideal) S_ .f32 0x47C35000#32))

/-- Every row minus the row of means. -/
def centred (out : Arr) : Arr :=
  subf (F := Ideal) out (broadcastInDim S100000x128 ![0, 1] bcast_S1x128_S100000x128_0_1 (mean out))

/-- `sqrt (c + (sum of all squares) / 100000)`. -/
def norm (cen : Arr) : FVec Ideal S_ .f32 :=
  Host.sqrt (F := Ideal) (addf (constant (F := Ideal) S_ .f32 0x358637BD#32)
    (Host.divf (F := Ideal)
      (Host.reduceAdd
        (Host.reduceAdd (mulf cen cen) (constant (F := Ideal) S_ .f32 0x00000000#32) reducesTo_S100000x128_S100000_d1 h_S_)
        (constant (F := Ideal) S_ .f32 0x00000000#32) reducesTo_S100000_S_d0 h_S_)
      (constant (F := Ideal) S_ .f32 0x47C35000#32)))

/-- `1 / r` as a `1 × 1` array. -/
def scale (out : Arr) : FVec Ideal S1x1 .f32 :=
  shapeCast S1x1 (Host.divf (F := Ideal) (constant (F := Ideal) S_ .f32 0x3F800000#32) (norm (centred out))) shapeCasts_S_S1x1

end Ker

/-! ## The second way: means kept as a vector, division by the scale, then the clamp -/
namespace Ref

open Cert.ReferenceIdeal Cert.ReferenceIdeal.Facts₀

variable [Cert.ReferenceIdeal.Facts]

abbrev Arr := FVec Ideal S100000x128 .f32

def colSum (out : Arr) : FVec Ideal S128 .f32 :=
  Host.reduceAdd out (constant (F := Ideal) S_ .f32 0x00000000#32) reducesTo_S100000x128_S128_d0 h_S_

/-- The column means as a vector. -/
def mean (out : Arr) : FVec Ideal S128 .f32 :=
  Host.divf (F := Ideal) (colSum out) (broadcastInDim S128 ![] bcast_S_S128 (constant (F := Ideal) S_ .f32 0x47C35000#32))

def centred (out : Arr) : Arr :=
  subf (F := Ideal) out (broadcastInDim S100000x128 ![0, 1] bcast_S1x128_S100000x128_0_1
    (broadcastInDim S1x128 ![1] bcast_S128_S1x128_1 (mean out)))

def norm (cen : Arr) : FVec Ideal S_ .f32 :=
  Host.sqrt (F := Ideal) (addf (constant (F := Ideal) S_ .f32 0x358637BD#32)
    (Host.divf (F := Ideal)
      (Host.reduceAdd
        (Host.reduceAdd (mulf cen cen) (constant (F := Ideal) S_ .f32 0x00000000#32) reducesTo_S100000x128_S100000_d1 h_S_)
        (constant (F := Ideal) S_ .f32 0x00000000#32) reducesTo_S100000_S_d0 h_S_)
      (constant (F := Ideal) S_ .f32 0x47C35000#32)))

/-- The centred array divided by the scale: `(out - mean) / r`, entry by entry. -/
def scaled (out : Arr) : Arr :=
  Host.divf (F := Ideal) (centred out) (broadcastInDim S100000x128 ![] bcast_S_S100000x128 (norm (centred out)))

/-- The clamp at zero: `max y 0`, entry by entry. -/
def reluOf (y : Arr) : Arr :=
  maximumf y (broadcastInDim S100000x128 ![] bcast_S_S100000x128 (constant (F := Ideal) S_ .f32 0x00000000#32))

/-- `max ((out - mean) / r) 0`, entry by entry. -/
def pairNormRelu (out : Arr) : Arr := reluOf (scaled out)

end Ref

/-! ## The two ways agree -/

variable [Cert.KernelIdeal.Facts] [Cert.ReferenceIdeal.Facts]

theorem colSum_eq (out : Ker.Arr) : Ker.colSum out = Ref.colSum out := by rfl
theorem norm_eq (cen : Ker.Arr) : Ker.norm cen = Ref.norm cen := by rfl

/-- The row of means at column `q` is the column sum at `q` over the word for 100000. -/
theorem ker_mean_apply (out : Ker.Arr) (q : Fin 128) :
    Ker.mean out (ix2 0 q) = Ideal.div (Ker.colSum out (ix1 q)) (Ideal.ofBits .f32 0x47C35000#32) := by
  unfold Ker.mean
  show FloatOps.hostDivf (F := Ideal) _ _ = _
  rw [broadcastInDim_apply _ Cert.KernelIdeal.Facts₀.bcast_S128_S1x128_1 (Ker.colSum out) (ix2 0 q) (ix1 q)
        (fun a => match a with | ⟨0, _⟩ => by show q.val = if (128 : Nat) = 1 then 0 else q.val; rw [if_neg (by decide)]),
      broadcastInDim_apply _ Cert.KernelIdeal.Facts₀.bcast_S_S1x128 _ (ix2 0 q) ix0 (fun a => a.elim0)]
  rfl

/-- The vector of means at `q` is the same quotient. -/
theorem ref_mean_apply (out : Ref.Arr) (q : Fin 128) :
    Ref.mean out (ix1 q) = Ideal.div (Ref.colSum out (ix1 q)) (Ideal.ofBits .f32 0x47C35000#32) := by
  unfold Ref.mean
  show FloatOps.hostDivf (F := Ideal) _ _ = _
  rw [broadcastInDim_apply _ Cert.ReferenceIdeal.Facts₀.bcast_S_S128 _ (ix1 q) ix0 (fun a => a.elim0)]
  rfl

theorem ker_centred_apply (out : Ker.Arr) (p : Fin 100000) (q : Fin 128) :
    Ker.centred out (ix2 p q) = out (ix2 p q) - Ker.mean out (ix2 0 q) := by
  unfold Ker.centred
  show FloatOps.subf (F := Ideal) _ _ = _
  rw [broadcastInDim_apply _ Cert.KernelIdeal.Facts₀.bcast_S1x128_S100000x128_0_1 (Ker.mean out) (ix2 p q) (ix2 0 q)
        (fun a => match a with
          | ⟨0, _⟩ => by show 0 = if (1 : Nat) = 1 then 0 else p.val; rw [if_pos rfl]
          | ⟨1, _⟩ => by show q.val = if (128 : Nat) = 1 then 0 else q.val; rw [if_neg (by decide)])]
  rfl

theorem ref_centred_apply (out : Ref.Arr) (p : Fin 100000) (q : Fin 128) :
    Ref.centred out (ix2 p q) = out (ix2 p q) - Ref.mean out (ix1 q) := by
  unfold Ref.centred
  show FloatOps.subf (F := Ideal) _ _ = _
  rw [broadcastInDim_apply _ Cert.ReferenceIdeal.Facts₀.bcast_S1x128_S100000x128_0_1 _ (ix2 p q) (ix2 0 q)
        (fun a => match a with
          | ⟨0, _⟩ => by show 0 = if (1 : Nat) = 1 then 0 else p.val; rw [if_pos rfl]
          | ⟨1, _⟩ => by show q.val = if (128 : Nat) = 1 then 0 else q.val; rw [if_neg (by decide)]),
      broadcastInDim_apply _ Cert.ReferenceIdeal.Facts₀.bcast_S128_S1x128_1 (Ref.mean out) (ix2 0 q) (ix1 q)
        (fun a => match a with | ⟨0, _⟩ => by show q.val = if (128 : Nat) = 1 then 0 else q.val; rw [if_neg (by decide)])]
  rfl

/-- The centred arrays are one array. -/
theorem centred_eq (out : Ker.Arr) : Ker.centred out = Ref.centred out := by
  funext j
  obtain ⟨p, q, rfl⟩ : ∃ (p : Fin 100000) (q : Fin 128), j = ix2 p q := ⟨j 0, j 1, eq_ix2 j⟩
  rw [ker_centred_apply, ref_centred_apply, ker_mean_apply, ref_mean_apply, colSum_eq]

/-- The one entry of the reciprocal scale is `1 / r`. -/
theorem ker_scale_apply (out : Ker.Arr) :
    Ker.scale out (ix2 0 0) = Ideal.div 1 (Ker.norm (Ker.centred out) ix0) := by
  unfold Ker.scale
  rw [shapeCast_apply _ Cert.KernelIdeal.Facts₀.shapeCasts_S_S1x1 (ix2 0 0) ix0 (by rfl)]
  show FloatOps.hostDivf (F := Ideal) _ _ = _
  show Ideal.div (Ideal.ofBits .f32 0x3F800000#32) _ = _
  rw [Ideal.ofBits_one_f32]

/-- Centring by the row of means, scaling by `1 / r` and clamping at zero is the second way's array. -/
theorem centreScaleClamp_eq (out : Ker.Arr) :
    GcnSpec.centreScaleClamp 100000 128 out (Ker.mean out) (Ker.scale out) = Ref.pairNormRelu out := by
  funext j
  obtain ⟨p, q, rfl⟩ : ∃ (p : Fin 100000) (q : Fin 128), j = ix2 p q := ⟨j 0, j 1, eq_ix2 j⟩
  rw [GcnSpec.centreScaleClamp_apply, ker_scale_apply, ← ker_centred_apply]
  unfold Ref.pairNormRelu Ref.reluOf Ref.scaled
  show _ = FloatOps.maximumf (F := Ideal) (FloatOps.hostDivf (F := Ideal) _ _) _
  rw [broadcastInDim_apply _ Cert.ReferenceIdeal.Facts₀.bcast_S_S100000x128 (Ref.norm (Ref.centred out)) (ix2 p q) ix0 (fun a => a.elim0),
      broadcastInDim_apply _ Cert.ReferenceIdeal.Facts₀.bcast_S_S100000x128 _ (ix2 p q) ix0 (fun a => a.elim0)]
  show _ = max (Ideal.div _ _) (Ideal.ofBits .f32 0x00000000#32)
  rw [Ideal.ofBits_zero_f32, ← centred_eq, ← norm_eq]
  exact GcnSpec.max_mul_recip_eq_max_div _ _

end GcnBridge

end
-- ==== Proof.GcnLayers.lean ====
/-
  A four-layer graph convolution network as one pure function of its arguments, over the extended reals.

  The graph has 100000 nodes and 1600000 directed edges `(src, dst)`, given as the two rows of an integer array.
  * `wrap` turns an index vector into a column, adding 100000 to a negative index (how an index is read).
  * `deg d` counts, as a sum of ones scattered onto the destination nodes, the edges arriving at each node;
    `dinv d` is `1 / sqrt (deg)` where the degree is positive and zero elsewhere; `norm s d` is, per edge, the product
    `dinv[src] · 1 · dinv[dst]`.
  * `conv h s d nrm b` gathers the rows `h[src]`, scales each by its edge's `nrm`, adds them up at the destination
    nodes, and adds the bias row `b`.
  * A hidden layer is `x ↦ pairNormRelu (conv (x · W) …)` (the dense product `dense`, then the convolution, then
    GcnBridge.Ref.pairNormRelu: centre the columns, divide by the root mean squared row norm, clamp at zero).
  * The last layer adds a self loop at every node: `srcL`, `dstL` append the node numbers `0 … 99999` to the two index
    vectors, and `degL`, `dinvL`, `normL`, `convL` are the same operations over the 1700000 extended edges, with 40
    output columns.
  `gcn` is three hidden layers followed by the last layer.
-/
import proofs.«163474_j52115133170062_1_alg».proof.ReferenceIdeal
import proofs.«163474_j52115133170062_1_alg».proof.Proof.PairNorm

noncomputable section

namespace GcnLayers

open Idealize.ShloMosaic Cert.ReferenceIdeal Cert.ReferenceIdeal.Facts₀

variable [Cert.ReferenceIdeal.Facts]

/-- Integer and float arrays of a literal shape, at the extended reals. -/
abbrev I (S : Shape) := (⟨S, .i32⟩ : BufTy).Contents (Elt Ideal)
abbrev R (S : Shape) := FVec Ideal S .f32

/-! ## The edges -/

def src (e : I S2x1600000) : I S1600000 :=
  shapeCast _ (extractStridedSlice S1x1600000 ![0, 0] e slices_S2x1600000_S1x1600000_0_0) shapeCasts_S1x1600000_S1600000
def dst (e : I S2x1600000) : I S1600000 :=
  shapeCast _ (extractStridedSlice S1x1600000 ![1, 0] e slices_S2x1600000_S1x1600000_1_0) shapeCasts_S1x1600000_S1600000

def ones : R S1600000 := broadcastInDim S1600000 ![] bcast_S_S1600000 (constant (F := Ideal) S_ .f32 0x3F800000#32)
def zeros : R S100000 := broadcastInDim S100000 ![] bcast_S_S100000 (constant (F := Ideal) S_ .f32 0x00000000#32)

def wrap (i : I S1600000) : I S1600000x1 :=
  broadcastInDim S1600000x1 ![0] bcast_S1600000_S1600000x1_0
    (select (cmpi .slt i (broadcastInDim S1600000 ![] bcast_S_S1600000 (constantI S_ 32 0#32)))
      (addi i (broadcastInDim S1600000 ![] bcast_S_S1600000 (constantI S_ 32 100000#32))) i)

def deg (d : I S1600000) : R S100000 :=
  Host.scatterAdd scatter_S100000_S1600000x1_S1600000_n_0_0_1 zeros
    (broadcastInDim S1600000x1 ![0] bcast_S1600000_S1600000x1_0 d) ones

/-- `a` where the mask `c` holds and the number `z` elsewhere, per node. -/
def whereSel (c : (⟨S100000, .i1⟩ : BufTy).Contents (Elt Ideal)) (a : R S100000) (z : R S_) : R S100000 :=
  select c a (broadcastInDim S100000 ![] bcast_S_S100000 z)

def dinv (d : I S1600000) : R S100000 :=
  whereSel (cmpf .ogt (deg d) zeros) (Host.rsqrt (F := Ideal) (deg d)) (constant (F := Ideal) S_ .f32 0x00000000#32)

/-- Per edge, `dv[src] · w · dv[dst]`. -/
def edgeNorm (dv : R S100000) (s d : I S1600000) (w : R S1600000) : R S1600000 :=
  mulf (mulf (Host.gather gather_S100000_S1600000x1_S1600000_n_0_n_n_0_1_1 dv (wrap s)) w)
    (Host.gather gather_S100000_S1600000x1_S1600000_n_0_n_n_0_1_1 dv (wrap d))

def norm (s d : I S1600000) : R S1600000 := edgeNorm (dinv d) s d ones

/-! ## A hidden layer -/

def dense (x : R S100000x128) (w : R S128x128) : R S100000x128 :=
  Host.dotGeneral dot_S100000x128_S128x128_S100000x128_1_0_0_1_n_n none x w

def conv (h : R S100000x128) (s d : I S1600000) (nrm : R S1600000) (b : R S128) : R S100000x128 :=
  addf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 d)
      (mulf (Host.gather gather_S100000x128_S1600000x1_S1600000x128_1_0_n_n_0_1_1128 h (wrap s))
        (broadcastInDim S1600000x128 ![0, 1] bcast_S1600000x1_S1600000x128_0_1
          (broadcastInDim S1600000x1 ![0] bcast_S1600000_S1600000x1_0 nrm))))
    (broadcastInDim S100000x128 ![0, 1] bcast_S1x128_S100000x128_0_1 (broadcastInDim S1x128 ![1] bcast_S128_S1x128_1 b))

def layer (x : R S100000x128) (w : R S128x128) (b : R S128) (e : I S2x1600000) : R S100000x128 :=
  GcnBridge.Ref.pairNormRelu (conv (dense x w) (src e) (dst e) (norm (src e) (dst e)) b)

/-! ## The last layer, with a self loop at every node -/

def srcL (s : I S1600000) : I S1700000 :=
  concatenate S1700000 0 [⟨S1600000, s⟩, ⟨S100000, (iotaInDim S100000 32 0 : I S100000)⟩] concatenates_S1600000_S100000_S1700000_d0

def onesL : R S1700000 := broadcastInDim S1700000 ![] bcast_S_S1700000 (constant (F := Ideal) S_ .f32 0x3F800000#32)

def wrapL (i : I S1700000) : I S1700000x1 :=
  broadcastInDim S1700000x1 ![0] bcast_S1700000_S1700000x1_0
    (select (cmpi .slt i (broadcastInDim S1700000 ![] bcast_S_S1700000 (constantI S_ 32 0#32)))
      (addi i (broadcastInDim S1700000 ![] bcast_S_S1700000 (constantI S_ 32 100000#32))) i)

def degL (d : I S1700000) : R S100000 :=
  Host.scatterAdd scatter_S100000_S1700000x1_S1700000_n_0_0_1 zeros
    (broadcastInDim S1700000x1 ![0] bcast_S1700000_S1700000x1_0 d) onesL

def dinvL (d : I S1700000) : R S100000 :=
  whereSel (cmpf .ogt (degL d) zeros) (Host.rsqrt (F := Ideal) (degL d)) (constant (F := Ideal) S_ .f32 0x00000000#32)

def edgeNormL (dv : R S100000) (s d : I S1700000) (w : R S1700000) : R S1700000 :=
  mulf (mulf (Host.gather gather_S100000_S1700000x1_S1700000_n_0_n_n_0_1_1 dv (wrapL s)) w)
    (Host.gather gather_S100000_S1700000x1_S1700000_n_0_n_n_0_1_1 dv (wrapL d))

def normL (s d : I S1700000) : R S1700000 := edgeNormL (dinvL d) s d onesL

def denseL (x : R S100000x128) (w : R S128x40) : R S100000x40 :=
  Host.dotGeneral dot_S100000x128_S128x40_S100000x40_1_0_0_1_n_n none x w

def convL (h : R S100000x40) (s d : I S1700000) (nrm : R S1700000) (b : R S40) : R S100000x40 :=
  addf
    (Host.scatterAdd scatter_S100000x40_S1700000x1_S1700000x40_1_0_0_1
      (broadcastInDim S100000x40 ![] bcast_S_S100000x40 (constant (F := Ideal) S_ .f32 0x00000000#32))
      (broadcastInDim S1700000x1 ![0] bcast_S1700000_S1700000x1_0 d)
      (mulf (Host.gather gather_S100000x40_S1700000x1_S1700000x40_1_0_n_n_0_1_140 h (wrapL s))
        (broadcastInDim S1700000x40 ![0, 1] bcast_S1700000x1_S1700000x40_0_1
          (broadcastInDim S1700000x1 ![0] bcast_S1700000_S1700000x1_0 nrm))))
    (broadcastInDim S100000x40 ![0, 1] bcast_S1x40_S100000x40_0_1 (broadcastInDim S1x40 ![1] bcast_S40_S1x40_1 b))

/-! ## The network -/

def gcn (x : R S100000x128) (e : I S2x1600000) (w0 w1 w2 : R S128x128) (w3 : R S128x40) (b0 b1 b2 : R S128) (b3 : R S40) :
    R S100000x40 :=
  convL (denseL (layer (layer (layer x w0 b0 e) w1 b1 e) w2 b2 e) w3)
    (srcL (src e)) (srcL (dst e)) (normL (srcL (src e)) (srcL (dst e))) b3

end GcnLayers

end
-- ==== Proof.KernelStretches.lean ====
/-
  The host stretches of the idealized kernel program, one at a time, over an arbitrary valuation `W` of the buffers
  (the contents the stretch finds).

  For each stretch: the list of the buffers its operations write, and so that every other buffer comes out as it went in
  (`keep…`); and what it leaves in the buffers that later code reads, as a function of what it found in the buffers it
  reads, named by the layer specification (GcnLayers, GcnBridge.Ker):
  the edge endpoints, the degree mask and reciprocal root, the per-edge normaliser, a layer's convolution output with
  its row of column means and its reciprocal scale, and for the last layer the self-loop variants.
  The three operations of the select that zeroes isolated nodes are kept as stretches of their own.
-/
import proofs.«163474_j52115133170062_1_alg».proof.Proof.Gen.KernelIdeal.Launch
import proofs.«163474_j52115133170062_1_alg».proof.Proof.Gen.KernelIdeal
import proofs.«163474_j52115133170062_1_alg».proof.Proof.Gen.ReferenceIdeal
import proofs.«163474_j52115133170062_1_alg».proof.Proof.GcnLayers

set_option maxRecDepth 16384

noncomputable section

namespace Cert.KernelIdeal.ChainVal

open Cert.KernelIdeal Cert.KernelIdeal.Gen
open Idealize.ShloMosaic Idealize.ShloMosaic.TcCoe Idealize.ShloMosaic.StableHlo Idealize.SL.Sem

variable (W : Valuation τ sig (Elt Ideal))

/-! ## The buffers each stretch writes, and the buffers it leaves alone -/

abbrev wr0 : List (Ref sig .tc) := [main_v0, main_v1, main_v2, main_v3, main_cst, main_v4, main_cst_0, main_v5, main_v6, main_v7, main_cst_1, main_v8, main_v9, main_v10, main_cst_2]
theorem wr0_sub : (hostOps0 : List (HloOp τ sig (Elt Ideal))).Forall fun op => op.writes ⊆ (wr0.map (Proc.devRef (τ := τ) .tc)).toFinset := by
  simp only [hostOps0, List.Forall]
  repeat' apply And.intro
  all_goals (simp only [nullary_writes, unary_writes, binary_writes, ternary_writes, quaternary_writes, reshape_writes, Finset.singleton_subset_iff, List.mem_toFinset]; exact List.mem_map_of_mem (by decide))
theorem keep0 (r : Ref sig .tc) (h : r ∉ wr0) : after hostOps0 W (Proc.devRef .tc r) = W (Proc.devRef .tc r) :=
  after_of_writes_sub hostOps0 W wr0_sub h

abbrev wr01 : List (Ref sig .tc) := [main_call0_v0, main_call0_v1, main_v11]
theorem wr01_sub : (hostOps0_1 : List (HloOp τ sig (Elt Ideal))).Forall fun op => op.writes ⊆ (wr01.map (Proc.devRef (τ := τ) .tc)).toFinset := by
  simp only [hostOps0_1, List.Forall]
  repeat' apply And.intro
  all_goals (simp only [nullary_writes, unary_writes, binary_writes, ternary_writes, quaternary_writes, reshape_writes, Finset.singleton_subset_iff, List.mem_toFinset]; exact List.mem_map_of_mem (by decide))
theorem keep01 (r : Ref sig .tc) (h : r ∉ wr01) : after hostOps0_1 W (Proc.devRef .tc r) = W (Proc.devRef .tc r) :=
  after_of_writes_sub hostOps0_1 W wr01_sub h

abbrev wr02 : List (Ref sig .tc) := [main_c, main_v12, main_v13, main_c_3, main_v14, main_v15, main_v16, main_v17, main_v18, main_v19, main_c_4, main_v20, main_v21, main_c_5, main_v22, main_v23, main_v24, main_v25, main_v26, main_v27]
theorem wr02_sub : (hostOps0_2 : List (HloOp τ sig (Elt Ideal))).Forall fun op => op.writes ⊆ (wr02.map (Proc.devRef (τ := τ) .tc)).toFinset := by
  simp only [hostOps0_2, List.Forall]
  repeat' apply And.intro
  all_goals (simp only [nullary_writes, unary_writes, binary_writes, ternary_writes, quaternary_writes, reshape_writes, Finset.singleton_subset_iff, List.mem_toFinset]; exact List.mem_map_of_mem (by decide))
theorem keep02 (r : Ref sig .tc) (h : r ∉ wr02) : after hostOps0_2 W (Proc.devRef .tc r) = W (Proc.devRef .tc r) :=
  after_of_writes_sub hostOps0_2 W wr02_sub h

abbrev wr1 : List (Ref sig .tc) := [main_c_6, main_v29, main_v30, main_c_7, main_v31, main_v32, main_v33, main_v34, main_v35, main_v36, main_v37, main_v38, main_cst_8, main_v39, main_v40, main_v41, main_v42, main_v43, main_v44, main_cst_9, main_v45, main_v46, main_cst_10, main_v47, main_v48, main_v49, main_v50, main_v51, main_cst_11, main_v52, main_cst_12, main_v53, main_cst_13, main_v54, main_cst_14, main_v55, main_v56, main_cst_15, main_v57, main_v58]
theorem wr1_sub : (hostOps1 : List (HloOp τ sig (Elt Ideal))).Forall fun op => op.writes ⊆ (wr1.map (Proc.devRef (τ := τ) .tc)).toFinset := by
  simp only [hostOps1, List.Forall]
  repeat' apply And.intro
  all_goals (simp only [nullary_writes, unary_writes, binary_writes, ternary_writes, quaternary_writes, reshape_writes, Finset.singleton_subset_iff, List.mem_toFinset]; exact List.mem_map_of_mem (by decide))
theorem keep1 (r : Ref sig .tc) (h : r ∉ wr1) : after hostOps1 W (Proc.devRef .tc r) = W (Proc.devRef .tc r) :=
  after_of_writes_sub hostOps1 W wr1_sub h

abbrev wr3 : List (Ref sig .tc) := [main_c_16, main_v61, main_v62, main_c_17, main_v63, main_v64, main_v65, main_v66, main_v67, main_v68, main_v69, main_v70, main_cst_18, main_v71, main_v72, main_v73, main_v74, main_v75, main_v76, main_cst_19, main_v77, main_v78, main_cst_20, main_v79, main_v80, main_v81, main_v82, main_v83, main_cst_21, main_v84, main_cst_22, main_v85, main_cst_23, main_v86, main_cst_24, main_v87, main_v88, main_cst_25, main_v89, main_v90]
theorem wr3_sub : (hostOps3 : List (HloOp τ sig (Elt Ideal))).Forall fun op => op.writes ⊆ (wr3.map (Proc.devRef (τ := τ) .tc)).toFinset := by
  simp only [hostOps3, List.Forall]
  repeat' apply And.intro
  all_goals (simp only [nullary_writes, unary_writes, binary_writes, ternary_writes, quaternary_writes, reshape_writes, Finset.singleton_subset_iff, List.mem_toFinset]; exact List.mem_map_of_mem (by decide))
theorem keep3 (r : Ref sig .tc) (h : r ∉ wr3) : after hostOps3 W (Proc.devRef .tc r) = W (Proc.devRef .tc r) :=
  after_of_writes_sub hostOps3 W wr3_sub h

abbrev wr5 : List (Ref sig .tc) := [main_c_26, main_v93, main_v94, main_c_27, main_v95, main_v96, main_v97, main_v98, main_v99, main_v100, main_v101, main_v102, main_cst_28, main_v103, main_v104, main_v105, main_v106, main_v107, main_v108, main_cst_29, main_v109, main_v110, main_cst_30, main_v111, main_v112, main_v113, main_v114, main_v115, main_cst_31, main_v116, main_cst_32, main_v117, main_cst_33, main_v118, main_cst_34, main_v119, main_v120, main_cst_35, main_v121, main_v122]
theorem wr5_sub : (hostOps5 : List (HloOp τ sig (Elt Ideal))).Forall fun op => op.writes ⊆ (wr5.map (Proc.devRef (τ := τ) .tc)).toFinset := by
  simp only [hostOps5, List.Forall]
  repeat' apply And.intro
  all_goals (simp only [nullary_writes, unary_writes, binary_writes, ternary_writes, quaternary_writes, reshape_writes, Finset.singleton_subset_iff, List.mem_toFinset]; exact List.mem_map_of_mem (by decide))
theorem keep5 (r : Ref sig .tc) (h : r ∉ wr5) : after hostOps5 W (Proc.devRef .tc r) = W (Proc.devRef .tc r) :=
  after_of_writes_sub hostOps5 W wr5_sub h

abbrev wr6 : List (Ref sig .tc) := [main_v124, main_v125, main_v126, main_cst_36, main_v127, main_cst_37, main_v128, main_v129, main_v130, main_cst_38, main_v131, main_v132, main_v133, main_cst_39]
theorem wr6_sub : (hostOps6 : List (HloOp τ sig (Elt Ideal))).Forall fun op => op.writes ⊆ (wr6.map (Proc.devRef (τ := τ) .tc)).toFinset := by
  simp only [hostOps6, List.Forall]
  repeat' apply And.intro
  all_goals (simp only [nullary_writes, unary_writes, binary_writes, ternary_writes, quaternary_writes, reshape_writes, Finset.singleton_subset_iff, List.mem_toFinset]; exact List.mem_map_of_mem (by decide))
theorem keep6 (r : Ref sig .tc) (h : r ∉ wr6) : after hostOps6 W (Proc.devRef .tc r) = W (Proc.devRef .tc r) :=
  after_of_writes_sub hostOps6 W wr6_sub h

abbrev wr61 : List (Ref sig .tc) := [main_call1_v0, main_call1_v1, main_v134]
theorem wr61_sub : (hostOps6_1 : List (HloOp τ sig (Elt Ideal))).Forall fun op => op.writes ⊆ (wr61.map (Proc.devRef (τ := τ) .tc)).toFinset := by
  simp only [hostOps6_1, List.Forall]
  repeat' apply And.intro
  all_goals (simp only [nullary_writes, unary_writes, binary_writes, ternary_writes, quaternary_writes, reshape_writes, Finset.singleton_subset_iff, List.mem_toFinset]; exact List.mem_map_of_mem (by decide))
theorem keep61 (r : Ref sig .tc) (h : r ∉ wr61) : after hostOps6_1 W (Proc.devRef .tc r) = W (Proc.devRef .tc r) :=
  after_of_writes_sub hostOps6_1 W wr61_sub h

abbrev wr62 : List (Ref sig .tc) := [main_c_40, main_v135, main_v136, main_c_41, main_v137, main_v138, main_v139, main_v140, main_v141, main_v142, main_c_42, main_v143, main_v144, main_c_43, main_v145, main_v146, main_v147, main_v148, main_v149, main_v150]
theorem wr62_sub : (hostOps6_2 : List (HloOp τ sig (Elt Ideal))).Forall fun op => op.writes ⊆ (wr62.map (Proc.devRef (τ := τ) .tc)).toFinset := by
  simp only [hostOps6_2, List.Forall]
  repeat' apply And.intro
  all_goals (simp only [nullary_writes, unary_writes, binary_writes, ternary_writes, quaternary_writes, reshape_writes, Finset.singleton_subset_iff, List.mem_toFinset]; exact List.mem_map_of_mem (by decide))
theorem keep62 (r : Ref sig .tc) (h : r ∉ wr62) : after hostOps6_2 W (Proc.devRef .tc r) = W (Proc.devRef .tc r) :=
  after_of_writes_sub hostOps6_2 W wr62_sub h

abbrev wr7 : List (Ref sig .tc) := [main_c_44, main_v152, main_v153, main_c_45, main_v154, main_v155, main_v156, main_v157, main_v158, main_v159, main_v160, main_v161, main_cst_46, main_v162, main_v163, main_v164, main_v165, main_v166, main_v167]
theorem wr7_sub : (hostOps7 : List (HloOp τ sig (Elt Ideal))).Forall fun op => op.writes ⊆ (wr7.map (Proc.devRef (τ := τ) .tc)).toFinset := by
  simp only [hostOps7, List.Forall]
  repeat' apply And.intro
  all_goals (simp only [nullary_writes, unary_writes, binary_writes, ternary_writes, quaternary_writes, reshape_writes, Finset.singleton_subset_iff, List.mem_toFinset]; exact List.mem_map_of_mem (by decide))
theorem keep7 (r : Ref sig .tc) (h : r ∉ wr7) : after hostOps7 W (Proc.devRef .tc r) = W (Proc.devRef .tc r) :=
  after_of_writes_sub hostOps7 W wr7_sub h

/-! ## The edges, the degrees, the per-edge normaliser -/

theorem s0_v1 : after hostOps0 W (Proc.devRef .tc main_v1) = GcnLayers.src (W (Proc.devRef .tc main_arg1)) := by
  dsimp only [hostOps0]
  after_results_simp
  rfl

theorem s0_v3 : after hostOps0 W (Proc.devRef .tc main_v3) = GcnLayers.dst (W (Proc.devRef .tc main_arg1)) := by
  dsimp only [hostOps0]
  after_results_simp
  rfl

theorem s0_v4 : after hostOps0 W (Proc.devRef .tc main_v4) = GcnLayers.ones := by
  dsimp only [hostOps0]
  after_results_simp
  rfl

theorem s0_v9 : after hostOps0 W (Proc.devRef .tc main_v9) = cmpf .ogt (GcnLayers.deg (GcnLayers.dst (W (Proc.devRef .tc main_arg1)))) GcnLayers.zeros := by
  dsimp only [hostOps0]
  after_results_simp
  rfl

theorem s0_v10 : after hostOps0 W (Proc.devRef .tc main_v10) = Host.rsqrt (F := Ideal) (GcnLayers.deg (GcnLayers.dst (W (Proc.devRef .tc main_arg1)))) := by
  dsimp only [hostOps0]
  after_results_simp
  rfl

theorem s0_cst2 : after hostOps0 W (Proc.devRef .tc main_cst_2) = constant (F := Ideal) Cert.ReferenceIdeal.S_ .f32 0x00000000#32 := by
  dsimp only [hostOps0]
  after_results_simp

theorem s01_v11 : after hostOps0_1 W (Proc.devRef .tc main_v11) = GcnLayers.whereSel (W (Proc.devRef .tc main_v9)) (W (Proc.devRef .tc main_v10)) (W (Proc.devRef .tc main_cst_2)) := by
  dsimp only [hostOps0_1]
  after_results_simp
  rfl

theorem s02_v27 : after hostOps0_2 W (Proc.devRef .tc main_v27) = GcnLayers.edgeNorm (W (Proc.devRef .tc main_v11)) (W (Proc.devRef .tc main_v1)) (W (Proc.devRef .tc main_v3)) (W (Proc.devRef .tc main_v4)) := by
  dsimp only [hostOps0_2]
  after_results_simp
  rfl

/-! ## A hidden layer's host part: the convolution output, its row of means, its reciprocal scale -/

theorem s1_out : after hostOps1 W (Proc.devRef .tc main_v44) = GcnLayers.conv (W (Proc.devRef .tc main_v28)) (W (Proc.devRef .tc main_v1)) (W (Proc.devRef .tc main_v3)) (W (Proc.devRef .tc main_v27)) (W (Proc.devRef .tc main_arg6)) := by
  dsimp only [hostOps1]
  after_results_simp
  rfl

theorem s1_mean : after hostOps1 W (Proc.devRef .tc main_v48) = GcnBridge.Ker.mean (GcnLayers.conv (W (Proc.devRef .tc main_v28)) (W (Proc.devRef .tc main_v1)) (W (Proc.devRef .tc main_v3)) (W (Proc.devRef .tc main_v27)) (W (Proc.devRef .tc main_arg6))) := by
  dsimp only [hostOps1]
  after_results_simp
  rfl

theorem s1_scale : after hostOps1 W (Proc.devRef .tc main_v58) = GcnBridge.Ker.scale (GcnLayers.conv (W (Proc.devRef .tc main_v28)) (W (Proc.devRef .tc main_v1)) (W (Proc.devRef .tc main_v3)) (W (Proc.devRef .tc main_v27)) (W (Proc.devRef .tc main_arg6))) := by
  dsimp only [hostOps1]
  after_results_simp
  rfl

theorem s3_out : after hostOps3 W (Proc.devRef .tc main_v76) = GcnLayers.conv (W (Proc.devRef .tc main_v60)) (W (Proc.devRef .tc main_v1)) (W (Proc.devRef .tc main_v3)) (W (Proc.devRef .tc main_v27)) (W (Proc.devRef .tc main_arg7)) := by
  dsimp only [hostOps3]
  after_results_simp
  rfl

theorem s3_mean : after hostOps3 W (Proc.devRef .tc main_v80) = GcnBridge.Ker.mean (GcnLayers.conv (W (Proc.devRef .tc main_v60)) (W (Proc.devRef .tc main_v1)) (W (Proc.devRef .tc main_v3)) (W (Proc.devRef .tc main_v27)) (W (Proc.devRef .tc main_arg7))) := by
  dsimp only [hostOps3]
  after_results_simp
  rfl

theorem s3_scale : after hostOps3 W (Proc.devRef .tc main_v90) = GcnBridge.Ker.scale (GcnLayers.conv (W (Proc.devRef .tc main_v60)) (W (Proc.devRef .tc main_v1)) (W (Proc.devRef .tc main_v3)) (W (Proc.devRef .tc main_v27)) (W (Proc.devRef .tc main_arg7))) := by
  dsimp only [hostOps3]
  after_results_simp
  rfl

theorem s5_out : after hostOps5 W (Proc.devRef .tc main_v108) = GcnLayers.conv (W (Proc.devRef .tc main_v92)) (W (Proc.devRef .tc main_v1)) (W (Proc.devRef .tc main_v3)) (W (Proc.devRef .tc main_v27)) (W (Proc.devRef .tc main_arg8)) := by
  dsimp only [hostOps5]
  after_results_simp
  rfl

theorem s5_mean : after hostOps5 W (Proc.devRef .tc main_v112) = GcnBridge.Ker.mean (GcnLayers.conv (W (Proc.devRef .tc main_v92)) (W (Proc.devRef .tc main_v1)) (W (Proc.devRef .tc main_v3)) (W (Proc.devRef .tc main_v27)) (W (Proc.devRef .tc main_arg8))) := by
  dsimp only [hostOps5]
  after_results_simp
  rfl

theorem s5_scale : after hostOps5 W (Proc.devRef .tc main_v122) = GcnBridge.Ker.scale (GcnLayers.conv (W (Proc.devRef .tc main_v92)) (W (Proc.devRef .tc main_v1)) (W (Proc.devRef .tc main_v3)) (W (Proc.devRef .tc main_v27)) (W (Proc.devRef .tc main_arg8))) := by
  dsimp only [hostOps5]
  after_results_simp
  rfl

/-! ## The last layer: self loops appended, degrees, normaliser, convolution -/

theorem s6_v125 : after hostOps6 W (Proc.devRef .tc main_v125) = GcnLayers.srcL (W (Proc.devRef .tc main_v1)) := by
  dsimp only [hostOps6]
  after_results_simp
  rfl

theorem s6_v126 : after hostOps6 W (Proc.devRef .tc main_v126) = GcnLayers.srcL (W (Proc.devRef .tc main_v3)) := by
  dsimp only [hostOps6]
  after_results_simp
  rfl

theorem s6_v127 : after hostOps6 W (Proc.devRef .tc main_v127) = GcnLayers.onesL := by
  dsimp only [hostOps6]
  after_results_simp
  rfl

theorem s6_v132 : after hostOps6 W (Proc.devRef .tc main_v132) = cmpf .ogt (GcnLayers.degL (GcnLayers.srcL (W (Proc.devRef .tc main_v3)))) GcnLayers.zeros := by
  dsimp only [hostOps6]
  after_results_simp
  rfl

theorem s6_v133 : after hostOps6 W (Proc.devRef .tc main_v133) = Host.rsqrt (F := Ideal) (GcnLayers.degL (GcnLayers.srcL (W (Proc.devRef .tc main_v3)))) := by
  dsimp only [hostOps6]
  after_results_simp
  rfl

theorem s6_cst39 : after hostOps6 W (Proc.devRef .tc main_cst_39) = constant (F := Ideal) Cert.ReferenceIdeal.S_ .f32 0x00000000#32 := by
  dsimp only [hostOps6]
  after_results_simp

theorem s61_v134 : after hostOps6_1 W (Proc.devRef .tc main_v134) = GcnLayers.whereSel (W (Proc.devRef .tc main_v132)) (W (Proc.devRef .tc main_v133)) (W (Proc.devRef .tc main_cst_39)) := by
  dsimp only [hostOps6_1]
  after_results_simp
  rfl

theorem s62_v150 : after hostOps6_2 W (Proc.devRef .tc main_v150) = GcnLayers.edgeNormL (W (Proc.devRef .tc main_v134)) (W (Proc.devRef .tc main_v125)) (W (Proc.devRef .tc main_v126)) (W (Proc.devRef .tc main_v127)) := by
  dsimp only [hostOps6_2]
  after_results_simp
  rfl

theorem s7_v167 : after hostOps7 W (Proc.devRef .tc main_v167) = GcnLayers.convL (W (Proc.devRef .tc main_v151)) (W (Proc.devRef .tc main_v125)) (W (Proc.devRef .tc main_v126)) (W (Proc.devRef .tc main_v150)) (W (Proc.devRef .tc main_arg9)) := by
  dsimp only [hostOps7]
  after_results_simp
  rfl

end Cert.KernelIdeal.ChainVal

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibDotGeneralNN.lean ====
/-
  jnp's `dot_general` on the host of a row-major `M × K` array against a `K × N` array (the right operand NOT
  transposed: the left operand's axis 1 is contracted with the right operand's axis 0), read at the extended reals:
  entry `(p, q)` of the result is the sum over `k` of `x[p, k] · w[k, q]`, whatever the schedule key and the precision.
  It is the same sum, over the same index set `Fin K` and in the same form, as the matrix unit's product into a zero
  accumulator (LibMatmulNN.matmul_zero_apply), so a kernel's `tpu.matmul` and a reference's `dot_general` of equal
  operands are equal entry by entry.  General in the three extents and in the operands' float formats.
-/
import Idealize.ShloMosaic.PureOps.Ideal.Laws
import Idealize.ShloMosaic.Lib.ValueIdx
import proofs.«163474_j52115133170062_1_alg».proof.Proof.LibMatmulNN

noncomputable section

open scoped BigOperators

namespace LibDotGeneralNN

open Idealize.ShloMosaic Idealize.ShloMosaic.ValueIdx

variable (M K N : Nat)

/-- Entry `(p, q)` of the host's `dot_general` of `x` and `w` is `∑ k, x[p, k] · w[k, q]` on the extended reals. -/
theorem dotGeneral_apply {φ₁ φ₂ : FTy} (prec : Option ContractPrecision) (sched : HostSchedule)
    (x : FVec Ideal ⟨2, ![M, K]⟩ φ₁) (w : FVec Ideal ⟨2, ![K, N]⟩ φ₂) (p : Fin M) (q : Fin N) :
    FloatOps.dotGeneral (DotDims.plain M K N) prec sched x w (ix2 p q)
      = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [LibMatmulNN.lhsIdx_eq, LibMatmulNN.rhsIdx_eq]

end LibDotGeneralNN

end
-- ==== Proof.DenseBridge.lean ====
/-
  The matrix product a linear kernel computes block by block, `GcnSpec.matProd` (entry `(p, q)` is the sum over `k` of
  `x[p, k] · w[k, q]`), is the dense product the layer specification names, `GcnLayers.dense` / `GcnLayers.denseL` (the
  host's general dot product contracting the left array's second axis with the right array's first): at the extended
  reals each entry of the general dot product is that same sum over the same 128 indices.
-/
import proofs.«163474_j52115133170062_1_alg».proof.Proof.GcnLayers
import proofs.«163474_j52115133170062_1_alg».proof.Proof.LibDotGeneralNN

noncomputable section

namespace GcnBridge

open Idealize.ShloMosaic Idealize.ShloMosaic.ValueIdx

variable [Cert.ReferenceIdeal.Facts]

/-- A `100000 × 128` array times a `128 × 128` array. -/
theorem matProd_eq_dense (x : FVec Ideal Cert.ReferenceIdeal.S100000x128 .f32) (w : FVec Ideal Cert.ReferenceIdeal.S128x128 .f32) :
    GcnSpec.matProd 100000 128 128 x w = GcnLayers.dense x w := by
  funext j
  obtain ⟨p, q, rfl⟩ : ∃ (p : Fin 100000) (q : Fin 128), j = ix2 p q := ⟨j 0, j 1, eq_ix2 j⟩
  rw [GcnSpec.matProd_apply]
  exact (LibDotGeneralNN.dotGeneral_apply 100000 128 128 none .single x w p q).symm

/-- A `100000 × 128` array times a `128 × 40` array. -/
theorem matProd_eq_denseL (x : FVec Ideal Cert.ReferenceIdeal.S100000x128 .f32) (w : FVec Ideal Cert.ReferenceIdeal.S128x40 .f32) :
    GcnSpec.matProd 100000 128 40 x w = GcnLayers.denseL x w := by
  funext j
  obtain ⟨p, q, rfl⟩ : ∃ (p : Fin 100000) (q : Fin 40), j = ix2 p q := ⟨j 0, j 1, eq_ix2 j⟩
  rw [GcnSpec.matProd_apply]
  exact (LibDotGeneralNN.dotGeneral_apply 100000 128 40 none .single x w p q).symm

end GcnBridge

end
-- ==== Proof.RegionLin0.lean ====
/-
  Region 0: a dense layer's matrix product, one block of rows at a time.

  The input array has 100000 rows of 128 entries and the weight array is 128 × 128.  The run visits ten points; at
  point t the body sees rows 10000·t … 10000·t + 9999 of the input (all 128 columns) and the whole weight array,
  and leaves in the output's block the product of the two: entry (p, q) of the block is the sum over k of
  input[10000·t + p, k] · weight[k, q] (the change of float format in front of the product is the identity on the
  extended reals, and the accumulator starts at zero).  That block is written back to rows
  10000·t … 10000·t + 9999 of the output array, all 128 columns.  Row r of the output lies in the block of point
  r / 10000, so the ten blocks fill the whole 100000 × 128 array, and every entry (r, q) ends as the sum over k of
  input[r, k] · weight[k, q]: the matrix product of the two arrays as the region finds them.
-/
import proofs.«163474_j52115133170062_1_alg».proof.Proof.Gen.KernelIdeal.Frame
import proofs.«163474_j52115133170062_1_alg».proof.Proof.GcnSpec
import proofs.«163474_j52115133170062_1_alg».proof.Proof.LibMatmulNN
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.RegionVal

open Cert.KernelIdeal Cert.KernelIdeal.Gen

variable (V : (c : Dev nD) → (b : Ref sig .tc) → Buf (Elt Ideal) ((c : Thread nD τ).loc b))

/-- The body's whole-buffer accesses start at offset zero on both axes. -/
theorem zero_offsets0 : (![0, 0] : Fin 2 → Nat) = fun _ => 0 := funext fun a => by fin_cases a <;> rfl

/-- Where the blocks sit, decided over the ten points: the input block and the output block of a point have the same
    row-block index and column-block index 0, the weight block is always block (0, 0), and row-block indices stay
    below 10. -/
theorem block_indices0 : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Each of the ten row blocks of the output is some point's. -/
theorem row_block_onto0 : ∀ b : Fin 10, ∃ t : Fin cfg0.N, win0_2.index t (0 : Fin 2) = b.val :=
  (by decide +kernel : ∀ b : Fin 10, ∃ t : Fin grid0.N, win0_2.index t (0 : Fin 2) = b.val)

/-- Entry (p, q) of what the body computes from an input block and the weight block: the sum over k of
    input[p, k] · weight[k, q]. -/
theorem product_entry0 (x0 : Vec Ideal S10000x128 .f32) (x1 : Vec Ideal S128x128 .f32) (p : Fin 10000) (q : Fin 128) :
    k0_pay1 x0 x1 (ix2 p q) = ∑ k : Fin 128, x0 (ix2 p k) * x1 (ix2 k q) := by
  unfold k0_pay1
  exact LibMatmulNN.matmul_zero_apply 10000 128 128 none
    (truncf .bf16 x0 bitsLt_bf16_f32) (truncf .bf16 x1 bitsLt_bf16_f32) p q

/-- If row p of the input block is row (i 0) of the array A and column q of the weight block is column (i 1) of the
    array W, the body's entry (p, q) is entry i of the product of A and W. -/
theorem block_entry0 (A : S100000x128.Idx → EReal) (W : S128x128.Idx → EReal)
    (x0 : Vec Ideal S10000x128 .f32) (x1 : Vec Ideal S128x128 .f32) (p : Fin 10000) (q : Fin 128) (i : S100000x128.Idx)
    (h0 : ∀ k : Fin 128, x0 (ix2 p k) = A (ix2 (i 0) k))
    (h1 : ∀ k : Fin 128, x1 (ix2 k q) = W (ix2 k (i 1))) :
    k0_pay1 x0 x1 (ix2 p q) = GcnSpec.matProd 100000 128 128 A W i := by
  refine (product_entry0 x0 x1 p q).trans ?_
  show _ = ∑ k : Fin 128, A (ix2 (i 0) k) * W (ix2 k (i 1))
  exact Finset.sum_congr rfl fun k _ => by rw [h0 k, h1 k]

/-- What point t writes back is block t of the product of the two arrays as the region finds them. -/
theorem lin0_flushed (c : Dev nD) (t : Fin cfg0.N) :
    (Gen.dat0 (F := Ideal) V c).flushed 2 t
      = ((cfg0.win 2).blk t).view.read (Elt Ideal)
          (GcnSpec.matProd 100000 128 128 (V c (Pipeline.arrRef spec0 0)) (V c (Pipeline.arrRef spec0 1))) := by
  show (cfg0.win 2).cut (grid0.coords t) ((Gen.dat0 (F := Ideal) V c).after 2 t) = _
  rw [after0_2]
  unfold out0_2
  rw [View.canon_unit_zero zero_offsets0]
  simp only [View.ld_unit_zero (S := S10000x128) zero_offsets0, View.ld_unit_zero (S := S128x128) zero_offsets0]
  obtain ⟨e0, e1, e2, e3, e4, e5⟩ := block_indices0 t
  funext j
  obtain ⟨p, q, rfl⟩ : ∃ (p : Fin 10000) (q : Fin 128), j = ix2 p q := ⟨j 0, j 1, eq_ix2 j⟩
  show k0_pay1 (iblk0 V c 0 t) (iblk0 V c 1 t) (ix2 p q)
    = GcnSpec.matProd 100000 128 128 (V c (Pipeline.arrRef spec0 0)) (V c (Pipeline.arrRef spec0 1))
        (((cfg0.win 2).blk t).view.emb (ix2 p q))
  refine block_entry0 (V c (Pipeline.arrRef spec0 0)) (V c (Pipeline.arrRef spec0 1))
    (iblk0 V c 0 t) (iblk0 V c 1 t) p q (((cfg0.win 2).blk t).view.emb (ix2 p q)) (fun k => ?_) (fun k => ?_)
  · show V c (Pipeline.arrRef spec0 0) (((cfg0.win 0).blk t).view.emb (ix2 p k)) = _
    refine congrArg (V c (Pipeline.arrRef spec0 0)) (funext fun a => Fin.ext ?_)
    match a with
    | ⟨0, _⟩ =>
      show win0_0.index t (0 : Fin 2) * 10000 + 1 * p.val = win0_2.index t (0 : Fin 2) * 10000 + 1 * p.val
      omega
    | ⟨1, _⟩ =>
      show win0_0.index t (1 : Fin 2) * 128 + 1 * k.val = k.val
      omega
  · show V c (Pipeline.arrRef spec0 1) (((cfg0.win 1).blk t).view.emb (ix2 k q)) = _
    refine congrArg (V c (Pipeline.arrRef spec0 1)) (funext fun a => Fin.ext ?_)
    match a with
    | ⟨0, _⟩ =>
      show win0_1.index t (0 : Fin 2) * 128 + 1 * k.val = k.val
      omega
    | ⟨1, _⟩ =>
      show win0_1.index t (1 : Fin 2) * 128 + 1 * q.val = win0_2.index t (1 : Fin 2) * 128 + 1 * q.val
      omega

/-- An index of the output array is in point t's block exactly when, on each axis, it lies in the block's range. -/
theorem lin0_mem_block (t : Fin cfg0.N) (i : S100000x128.Idx) :
    i ∈ ((cfg0.win 2).blk t).view.set
      ↔ ∀ a : Fin 2, win0_2.index t a * S10000x128.size a ≤ (i a).val
          ∧ (i a).val < win0_2.index t a * S10000x128.size a + S10000x128.size a := by
  show i ∈ ((View.whole main_v28).slice (win0_2.rect t)).set ↔ _
  rw [View.set_slice_whole, Rect.mem_set_unit]
  exact Iff.rfl

/-- Every index of the output array is in the block of the point whose row-block index is (row / 10000), and every
    point writes its block back. -/
theorem lin0_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := row_block_onto0 ⟨(i 0).val / 10000, by omega⟩
  have hrow : win0_2.index t (0 : Fin 2) = (i 0).val / 10000 := ht
  obtain ⟨e0, e1, e2, e3, e4, e5⟩ := block_indices0 t
  refine ⟨t, flush0_2 t, ?_⟩
  rw [lin0_mem_block]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- The output array after the region: the matrix product of the input array and the weight array as the region
    finds them. -/
theorem lin0_arr (c : Dev nD) :
    (Gen.dat0 (F := Ideal) V c).arrAt 2 cfg0.N
      = GcnSpec.matProd 100000 128 128 (V c (Pipeline.arrRef spec0 0)) (V c (Pipeline.arrRef spec0 1)) :=
  (Gen.dat0 (F := Ideal) V c).arrAt_eq_of_cover 2 _ (fun t _ => lin0_flushed V c t) (lin0_cover)

end Cert.KernelIdeal.RegionVal

end
-- ==== Proof.RegionPn1.lean ====
/-
  Region 1: centre every row, scale, and clamp at zero, one block of rows at a time.

  The input array has 100000 rows of 128 entries; beside it the region reads one row vector of 128 entries (a
  1 × 128 array) and a single number (a 1 × 1 array).  The run visits ten points; at point t the body sees rows
  10000·t … 10000·t + 9999 of the input (all 128 columns), the whole row vector and the single number, and leaves
  in the output's block, at (p, q), the larger of 0 and (input[10000·t + p, q] − row[0, q]) · number[0, 0]: the row
  vector is repeated down the rows, the number is repeated everywhere, and the casts to the same shape change
  nothing.  That block is written back to rows 10000·t … 10000·t + 9999 of the output array, all 128 columns.  Row
  r of the output lies in the block of point r / 10000, so the ten blocks fill the whole 100000 × 128 array, and
  every entry (r, q) ends as max ((input[r, q] − row[0, q]) · number[0, 0]) 0 of the three arrays as the region
  finds them.
-/
import proofs.«163474_j52115133170062_1_alg».proof.Proof.Gen.KernelIdeal.Frame
import proofs.«163474_j52115133170062_1_alg».proof.Proof.GcnSpec
import Idealize.ShloMosaic.PureOps.Ideal.Laws
import Idealize.ShloMosaic.Lib.Pipeline.Value
import Idealize.ShloMosaic.Lib.ValueIdx
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.KernelIdeal.RegionVal

open Cert.KernelIdeal Cert.KernelIdeal.Gen

variable (V : (c : Dev nD) → (b : Ref sig .tc) → Buf (Elt Ideal) ((c : Thread nD τ).loc b))

/-- The body's whole-buffer accesses start at offset zero on both axes. -/
theorem zero_offsets1 : (![0, 0] : Fin 2 → Nat) = fun _ => 0 := funext fun a => by fin_cases a <;> rfl

/-- Where the blocks sit, decided over the ten points: the input block and the output block of a point have the same
    row-block index and column-block index 0, the row vector's and the single number's blocks are always block
    (0, 0), and row-block indices stay below 10. -/
theorem block_indices1 : ∀ t : Fin cfg1.N,
    win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 9 :=
  (by decide +kernel : ∀ t : Fin grid1.N, _)

/-- Each of the ten row blocks of the output is some point's. -/
theorem row_block_onto1 : ∀ b : Fin 10, ∃ t : Fin cfg1.N, win1_3.index t (0 : Fin 2) = b.val :=
  (by decide +kernel : ∀ b : Fin 10, ∃ t : Fin grid1.N, win1_3.index t (0 : Fin 2) = b.val)

/-- Entry (p, q) of what the body computes from an input block, the row vector and the single number:
    the larger of 0 and (input[p, q] − row[0, q]) · number[0, 0]. -/
theorem clamp_entry1 (x0 : Vec Ideal S10000x128 .f32) (x1 : Vec Ideal S1x128 .f32) (x2 : Vec Ideal S1x1 .f32)
    (p : Fin 10000) (q : Fin 128) :
    k1_pay1 x0 x1 x2 (ix2 p q) = max ((x0 (ix2 p q) - x1 (ix2 0 q)) * x2 (ix2 0 0)) 0 := by
  have hx : shapeCast S10000x128 x0 shapeCasts_S10000x128_S10000x128 (ix2 p q) = x0 (ix2 p q) := by
    rw [shapeCast_self]
  have hrow : broadcastTo S10000x128 (shapeCast S1x128 x1 shapeCasts_S1x128_S1x128) broadcasts_S1x128_S10000x128 (ix2 p q)
      = x1 (ix2 0 q) := by
    rw [shapeCast_self]
    exact broadcastTo_1b_ab_apply x1 broadcasts_S1x128_S10000x128 p q
  have hone : broadcastTo S10000x128 (shapeCast S1x1 x2 shapeCasts_S1x1_S1x1) broadcasts_S1x1_S10000x128 (ix2 p q)
      = x2 (ix2 0 0) := by
    rw [shapeCast_self]
    exact broadcastTo_apply x2 broadcasts_S1x1_S10000x128 (ix2 p q) (ix2 (0 : Fin 1) (0 : Fin 1)) fun ax => by
      match ax with
      | ⟨0, _⟩ => rfl
      | ⟨1, _⟩ => rfl
  unfold k1_pay1
  show max ((shapeCast S10000x128 x0 shapeCasts_S10000x128_S10000x128 (ix2 p q)
        - broadcastTo S10000x128 (shapeCast S1x128 x1 shapeCasts_S1x128_S1x128) broadcasts_S1x128_S10000x128 (ix2 p q))
      * broadcastTo S10000x128 (shapeCast S1x1 x2 shapeCasts_S1x1_S1x1) broadcasts_S1x1_S10000x128 (ix2 p q))
      (Ideal.ofBits .f32 0x00000000#32) = _
  rw [hx, hrow, hone, Ideal.ofBits_zero_f32]

/-- If entry (p, q) of the input block is entry i of the array A, and the row vector's and the single number's blocks
    are the arrays M and S themselves, the body's entry (p, q) is entry i of A centred by M, scaled by S and
    clamped at zero. -/
theorem block_entry1 (A : S100000x128.Idx → EReal) (M : S1x128.Idx → EReal) (S : S1x1.Idx → EReal)
    (x0 : Vec Ideal S10000x128 .f32) (x1 : Vec Ideal S1x128 .f32) (x2 : Vec Ideal S1x1 .f32)
    (p : Fin 10000) (q : Fin 128) (i : S100000x128.Idx)
    (h0 : x0 (ix2 p q) = A i) (h1 : x1 (ix2 0 q) = M (ix2 0 (i 1))) (h2 : x2 (ix2 0 0) = S (ix2 0 0)) :
    k1_pay1 x0 x1 x2 (ix2 p q) = GcnSpec.centreScaleClamp 100000 128 A M S i := by
  refine (clamp_entry1 x0 x1 x2 p q).trans ?_
  show _ = max ((A i - M (ix2 0 (i 1))) * S (ix2 0 0)) 0
  rw [h0, h1, h2]

/-- Entry (p, q) of the input block of point t is the input array's entry under entry (p, q) of the output block:
    the two blocks sit at the same rows and columns. -/
theorem pn1_input_block (c : Dev nD) (t : Fin cfg1.N) (p : Fin 10000) (q : Fin 128) :
    iblk1 V c 0 t (ix2 p q)
      = V c (Pipeline.arrRef spec1 0) (((cfg1.win 3).blk t).view.emb (ix2 p q)) := by
  obtain ⟨e0, e1, e2, e3, e4, e5, e6, e7⟩ := block_indices1 t
  show V c (Pipeline.arrRef spec1 0) (((cfg1.win 0).blk t).view.emb (ix2 p q)) = _
  refine congrArg (V c (Pipeline.arrRef spec1 0)) (funext fun a => Fin.ext ?_)
  match a with
  | ⟨0, _⟩ =>
    show win1_0.index t (0 : Fin 2) * 10000 + 1 * p.val = win1_3.index t (0 : Fin 2) * 10000 + 1 * p.val
    omega
  | ⟨1, _⟩ =>
    show win1_0.index t (1 : Fin 2) * 128 + 1 * q.val = win1_3.index t (1 : Fin 2) * 128 + 1 * q.val
    omega

/-- The row vector's block at any point is the whole 1 × 128 array: its entry (0, q) is the array's entry (0, q'),
    q' the column of entry (p, q) of the output block. -/
theorem pn1_row_block (c : Dev nD) (t : Fin cfg1.N) (p : Fin 10000) (q : Fin 128) :
    iblk1 V c 1 t (ix2 (0 : Fin 1) q)
      = V c (Pipeline.arrRef spec1 1) (ix2 (0 : Fin 1) ((((cfg1.win 3).blk t).view.emb (ix2 p q)) 1)) := by
  obtain ⟨e0, e1, e2, e3, e4, e5, e6, e7⟩ := block_indices1 t
  show V c (Pipeline.arrRef spec1 1) (((cfg1.win 1).blk t).view.emb (ix2 (0 : Fin 1) q)) = _
  refine congrArg (V c (Pipeline.arrRef spec1 1)) (funext fun a => Fin.ext ?_)
  match a with
  | ⟨0, _⟩ =>
    show win1_1.index t (0 : Fin 2) * 1 + 1 * 0 = 0
    omega
  | ⟨1, _⟩ =>
    show win1_1.index t (1 : Fin 2) * 128 + 1 * q.val = win1_3.index t (1 : Fin 2) * 128 + 1 * q.val
    omega

/-- The single number's block at any point is the whole 1 × 1 array. -/
theorem pn1_number_block (c : Dev nD) (t : Fin cfg1.N) :
    iblk1 V c 2 t (ix2 (0 : Fin 1) (0 : Fin 1))
      = V c (Pipeline.arrRef spec1 2) (ix2 (0 : Fin 1) (0 : Fin 1)) := by
  obtain ⟨e0, e1, e2, e3, e4, e5, e6, e7⟩ := block_indices1 t
  show V c (Pipeline.arrRef spec1 2) (((cfg1.win 2).blk t).view.emb (ix2 (0 : Fin 1) (0 : Fin 1))) = _
  refine congrArg (V c (Pipeline.arrRef spec1 2)) (funext fun a => Fin.ext ?_)
  match a with
  | ⟨0, _⟩ =>
    show win1_2.index t (0 : Fin 2) * 1 + 1 * 0 = 0
    omega
  | ⟨1, _⟩ =>
    show win1_2.index t (1 : Fin 2) * 1 + 1 * 0 = 0
    omega

/-- What point t writes back is block t of the centred, scaled and clamped array of the three arrays as the region
    finds them. -/
theorem pn1_flushed (c : Dev nD) (t : Fin cfg1.N) :
    (Gen.dat1 (F := Ideal) V c).flushed 3 t
      = ((cfg1.win 3).blk t).view.read (Elt Ideal)
          (GcnSpec.centreScaleClamp 100000 128 (V c (Pipeline.arrRef spec1 0)) (V c (Pipeline.arrRef spec1 1))
            (V c (Pipeline.arrRef spec1 2))) := by
  show (cfg1.win 3).cut (grid1.coords t) ((Gen.dat1 (F := Ideal) V c).after 3 t) = _
  rw [after1_3]
  unfold out1_3
  rw [View.canon_unit_zero zero_offsets1]
  simp only [View.ld_unit_zero (S := S10000x128) zero_offsets1, View.ld_unit_zero (S := S1x128) zero_offsets1,
    View.ld_unit_zero (S := S1x1) zero_offsets1]
  funext j
  obtain ⟨p, q, rfl⟩ : ∃ (p : Fin 10000) (q : Fin 128), j = ix2 p q := ⟨j 0, j 1, eq_ix2 j⟩
  exact block_entry1 (V c (Pipeline.arrRef spec1 0)) (V c (Pipeline.arrRef spec1 1)) (V c (Pipeline.arrRef spec1 2))
    (iblk1 V c 0 t) (iblk1 V c 1 t) (iblk1 V c 2 t) p q (((cfg1.win 3).blk t).view.emb (ix2 p q))
    (pn1_input_block V c t p q) (pn1_row_block V c t p q) (pn1_number_block V c t)

/-- An index of the output array is in point t's block exactly when, on each axis, it lies in the block's range. -/
theorem pn1_mem_block (t : Fin cfg1.N) (i : S100000x128.Idx) :
    i ∈ ((cfg1.win 3).blk t).view.set
      ↔ ∀ a : Fin 2, win1_3.index t a * S10000x128.size a ≤ (i a).val
          ∧ (i a).val < win1_3.index t a * S10000x128.size a + S10000x128.size a := by
  show i ∈ ((View.whole main_v59).slice (win1_3.rect t)).set ↔ _
  rw [View.set_slice_whole, Rect.mem_set_unit]
  exact Iff.rfl

/-- Every index of the output array is in the block of the point whose row-block index is (row / 10000), and every
    point writes its block back. -/
theorem pn1_cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := row_block_onto1 ⟨(i 0).val / 10000, by omega⟩
  have hrow : win1_3.index t (0 : Fin 2) = (i 0).val / 10000 := ht
  obtain ⟨e0, e1, e2, e3, e4, e5, e6, e7⟩ := block_indices1 t
  refine ⟨t, flush1_3 t, ?_⟩
  rw [pn1_mem_block]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 128 ≤ (i 1).val ∧ (i 1).val < win1_3.index t (1 : Fin 2) * 128 + 128
    omega

/-- The output array after the region: the input array centred by the row vector, scaled by the single number and
    clamped at zero, of the three arrays as the region finds them. -/
theorem pn1_arr (c : Dev nD) :
    (Gen.dat1 (F := Ideal) V c).arrAt 3 cfg1.N
      = GcnSpec.centreScaleClamp 100000 128 (V c (Pipeline.arrRef spec1 0)) (V c (Pipeline.arrRef spec1 1))
          (V c (Pipeline.arrRef spec1 2)) :=
  (Gen.dat1 (F := Ideal) V c).arrAt_eq_of_cover 3 _ (fun t _ => pn1_flushed V c t) (pn1_cover)

end Cert.KernelIdeal.RegionVal

end
-- ==== Proof.RegionLin2.lean ====
/-
  Region 2: a dense layer's matrix product, one block of rows at a time.

  The input array has 100000 rows of 128 entries and the weight array is 128 × 128.  The run visits ten points; at
  point t the body sees rows 10000·t … 10000·t + 9999 of the input (all 128 columns) and the whole weight array,
  and leaves in the output's block the product of the two: entry (p, q) of the block is the sum over k of
  input[10000·t + p, k] · weight[k, q] (the cast to the same shape and the change of float format in front of the
  product are the identity on the extended reals, and the accumulator starts at zero).  That block is written back to rows
  10000·t … 10000·t + 9999 of the output array, all 128 columns.  Row r of the output lies in the block of point
  r / 10000, so the ten blocks fill the whole 100000 × 128 array, and every entry (r, q) ends as the sum over k of
  input[r, k] · weight[k, q]: the matrix product of the two arrays as the region finds them.
-/
import proofs.«163474_j52115133170062_1_alg».proof.Proof.Gen.KernelIdeal.Frame
import proofs.«163474_j52115133170062_1_alg».proof.Proof.GcnSpec
import proofs.«163474_j52115133170062_1_alg».proof.Proof.LibMatmulNN
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.RegionVal

open Cert.KernelIdeal Cert.KernelIdeal.Gen

variable (V : (c : Dev nD) → (b : Ref sig .tc) → Buf (Elt Ideal) ((c : Thread nD τ).loc b))

/-- The body's whole-buffer accesses start at offset zero on both axes. -/
theorem zero_offsets2 : (![0, 0] : Fin 2 → Nat) = fun _ => 0 := funext fun a => by fin_cases a <;> rfl

/-- Where the blocks sit, decided over the ten points: the input block and the output block of a point have the same
    row-block index and column-block index 0, the weight block is always block (0, 0), and row-block indices stay
    below 10. -/
theorem block_indices2 : ∀ t : Fin cfg2.N,
    win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Each of the ten row blocks of the output is some point's. -/
theorem row_block_onto2 : ∀ b : Fin 10, ∃ t : Fin cfg2.N, win2_2.index t (0 : Fin 2) = b.val :=
  (by decide +kernel : ∀ b : Fin 10, ∃ t : Fin grid2.N, win2_2.index t (0 : Fin 2) = b.val)

/-- Entry (p, q) of what the body computes from an input block and the weight block: the sum over k of
    input[p, k] · weight[k, q]. -/
theorem product_entry2 (x0 : Vec Ideal S10000x128 .f32) (x1 : Vec Ideal S128x128 .f32) (p : Fin 10000) (q : Fin 128) :
    k2_pay1 x0 x1 (ix2 p q) = ∑ k : Fin 128, x0 (ix2 p k) * x1 (ix2 k q) := by
  have hx : shapeCast S10000x128 x0 shapeCasts_S10000x128_S10000x128 = x0 := shapeCast_self x0 _
  unfold k2_pay1
  refine (LibMatmulNN.matmul_zero_apply 10000 128 128 none
    (truncf .bf16 (shapeCast S10000x128 x0 shapeCasts_S10000x128_S10000x128) bitsLt_bf16_f32)
    (truncf .bf16 x1 bitsLt_bf16_f32) p q).trans ?_
  exact Finset.sum_congr rfl fun k _ =>
    congrArg (fun v : Vec Ideal S10000x128 .f32 => v (ix2 p k) * x1 (ix2 k q)) hx

/-- If row p of the input block is row (i 0) of the array A and column q of the weight block is column (i 1) of the
    array W, the body's entry (p, q) is entry i of the product of A and W. -/
theorem block_entry2 (A : S100000x128.Idx → EReal) (W : S128x128.Idx → EReal)
    (x0 : Vec Ideal S10000x128 .f32) (x1 : Vec Ideal S128x128 .f32) (p : Fin 10000) (q : Fin 128) (i : S100000x128.Idx)
    (h0 : ∀ k : Fin 128, x0 (ix2 p k) = A (ix2 (i 0) k))
    (h1 : ∀ k : Fin 128, x1 (ix2 k q) = W (ix2 k (i 1))) :
    k2_pay1 x0 x1 (ix2 p q) = GcnSpec.matProd 100000 128 128 A W i := by
  refine (product_entry2 x0 x1 p q).trans ?_
  show _ = ∑ k : Fin 128, A (ix2 (i 0) k) * W (ix2 k (i 1))
  exact Finset.sum_congr rfl fun k _ => by rw [h0 k, h1 k]

/-- What point t writes back is block t of the product of the two arrays as the region finds them. -/
theorem lin2_flushed (c : Dev nD) (t : Fin cfg2.N) :
    (Gen.dat2 (F := Ideal) V c).flushed 2 t
      = ((cfg2.win 2).blk t).view.read (Elt Ideal)
          (GcnSpec.matProd 100000 128 128 (V c (Pipeline.arrRef spec2 0)) (V c (Pipeline.arrRef spec2 1))) := by
  show (cfg2.win 2).cut (grid2.coords t) ((Gen.dat2 (F := Ideal) V c).after 2 t) = _
  rw [after2_2]
  unfold out2_2
  rw [View.canon_unit_zero zero_offsets2]
  simp only [View.ld_unit_zero (S := S10000x128) zero_offsets2, View.ld_unit_zero (S := S128x128) zero_offsets2]
  obtain ⟨e0, e1, e2, e3, e4, e5⟩ := block_indices2 t
  funext j
  obtain ⟨p, q, rfl⟩ : ∃ (p : Fin 10000) (q : Fin 128), j = ix2 p q := ⟨j 0, j 1, eq_ix2 j⟩
  show k2_pay1 (iblk2 V c 0 t) (iblk2 V c 1 t) (ix2 p q)
    = GcnSpec.matProd 100000 128 128 (V c (Pipeline.arrRef spec2 0)) (V c (Pipeline.arrRef spec2 1))
        (((cfg2.win 2).blk t).view.emb (ix2 p q))
  refine block_entry2 (V c (Pipeline.arrRef spec2 0)) (V c (Pipeline.arrRef spec2 1))
    (iblk2 V c 0 t) (iblk2 V c 1 t) p q (((cfg2.win 2).blk t).view.emb (ix2 p q)) (fun k => ?_) (fun k => ?_)
  · show V c (Pipeline.arrRef spec2 0) (((cfg2.win 0).blk t).view.emb (ix2 p k)) = _
    refine congrArg (V c (Pipeline.arrRef spec2 0)) (funext fun a => Fin.ext ?_)
    match a with
    | ⟨0, _⟩ =>
      show win2_0.index t (0 : Fin 2) * 10000 + 1 * p.val = win2_2.index t (0 : Fin 2) * 10000 + 1 * p.val
      omega
    | ⟨1, _⟩ =>
      show win2_0.index t (1 : Fin 2) * 128 + 1 * k.val = k.val
      omega
  · show V c (Pipeline.arrRef spec2 1) (((cfg2.win 1).blk t).view.emb (ix2 k q)) = _
    refine congrArg (V c (Pipeline.arrRef spec2 1)) (funext fun a => Fin.ext ?_)
    match a with
    | ⟨0, _⟩ =>
      show win2_1.index t (0 : Fin 2) * 128 + 1 * k.val = k.val
      omega
    | ⟨1, _⟩ =>
      show win2_1.index t (1 : Fin 2) * 128 + 1 * q.val = win2_2.index t (1 : Fin 2) * 128 + 1 * q.val
      omega

/-- An index of the output array is in point t's block exactly when, on each axis, it lies in the block's range. -/
theorem lin2_mem_block (t : Fin cfg2.N) (i : S100000x128.Idx) :
    i ∈ ((cfg2.win 2).blk t).view.set
      ↔ ∀ a : Fin 2, win2_2.index t a * S10000x128.size a ≤ (i a).val
          ∧ (i a).val < win2_2.index t a * S10000x128.size a + S10000x128.size a := by
  show i ∈ ((View.whole main_v60).slice (win2_2.rect t)).set ↔ _
  rw [View.set_slice_whole, Rect.mem_set_unit]
  exact Iff.rfl

/-- Every index of the output array is in the block of the point whose row-block index is (row / 10000), and every
    point writes its block back. -/
theorem lin2_cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := row_block_onto2 ⟨(i 0).val / 10000, by omega⟩
  have hrow : win2_2.index t (0 : Fin 2) = (i 0).val / 10000 := ht
  obtain ⟨e0, e1, e2, e3, e4, e5⟩ := block_indices2 t
  refine ⟨t, flush2_2 t, ?_⟩
  rw [lin2_mem_block]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 128 ≤ (i 1).val ∧ (i 1).val < win2_2.index t (1 : Fin 2) * 128 + 128
    omega

/-- The output array after the region: the matrix product of the input array and the weight array as the region
    finds them. -/
theorem lin2_arr (c : Dev nD) :
    (Gen.dat2 (F := Ideal) V c).arrAt 2 cfg2.N
      = GcnSpec.matProd 100000 128 128 (V c (Pipeline.arrRef spec2 0)) (V c (Pipeline.arrRef spec2 1)) :=
  (Gen.dat2 (F := Ideal) V c).arrAt_eq_of_cover 2 _ (fun t _ => lin2_flushed V c t) (lin2_cover)

end Cert.KernelIdeal.RegionVal

end
-- ==== Proof.RegionPn3.lean ====
/-
  Region 3: centre every row, scale, and clamp at zero, one block of rows at a time.

  The input array has 100000 rows of 128 entries; beside it the region reads one row vector of 128 entries (a
  1 × 128 array) and a single number (a 1 × 1 array).  The run visits ten points; at point t the body sees rows
  10000·t … 10000·t + 9999 of the input (all 128 columns), the whole row vector and the single number, and leaves
  in the output's block, at (p, q), the larger of 0 and (input[10000·t + p, q] − row[0, q]) · number[0, 0]: the row
  vector is repeated down the rows, the number is repeated everywhere, and the casts to the same shape change
  nothing.  That block is written back to rows 10000·t … 10000·t + 9999 of the output array, all 128 columns.  Row
  r of the output lies in the block of point r / 10000, so the ten blocks fill the whole 100000 × 128 array, and
  every entry (r, q) ends as max ((input[r, q] − row[0, q]) · number[0, 0]) 0 of the three arrays as the region
  finds them.
-/
import proofs.«163474_j52115133170062_1_alg».proof.Proof.Gen.KernelIdeal.Frame
import proofs.«163474_j52115133170062_1_alg».proof.Proof.GcnSpec
import Idealize.ShloMosaic.PureOps.Ideal.Laws
import Idealize.ShloMosaic.Lib.Pipeline.Value
import Idealize.ShloMosaic.Lib.ValueIdx
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.KernelIdeal.RegionVal

open Cert.KernelIdeal Cert.KernelIdeal.Gen

variable (V : (c : Dev nD) → (b : Ref sig .tc) → Buf (Elt Ideal) ((c : Thread nD τ).loc b))

/-- The body's whole-buffer accesses start at offset zero on both axes. -/
theorem zero_offsets3 : (![0, 0] : Fin 2 → Nat) = fun _ => 0 := funext fun a => by fin_cases a <;> rfl

/-- Where the blocks sit, decided over the ten points: the input block and the output block of a point have the same
    row-block index and column-block index 0, the row vector's and the single number's blocks are always block
    (0, 0), and row-block indices stay below 10. -/
theorem block_indices3 : ∀ t : Fin cfg3.N,
    win3_0.index t (0 : Fin 2) = win3_3.index t (0 : Fin 2)
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (1 : Fin 2) = 0
    ∧ win3_3.index t (0 : Fin 2) ≤ 9 :=
  (by decide +kernel : ∀ t : Fin grid3.N, _)

/-- Each of the ten row blocks of the output is some point's. -/
theorem row_block_onto3 : ∀ b : Fin 10, ∃ t : Fin cfg3.N, win3_3.index t (0 : Fin 2) = b.val :=
  (by decide +kernel : ∀ b : Fin 10, ∃ t : Fin grid3.N, win3_3.index t (0 : Fin 2) = b.val)

/-- Entry (p, q) of what the body computes from an input block, the row vector and the single number:
    the larger of 0 and (input[p, q] − row[0, q]) · number[0, 0]. -/
theorem clamp_entry3 (x0 : Vec Ideal S10000x128 .f32) (x1 : Vec Ideal S1x128 .f32) (x2 : Vec Ideal S1x1 .f32)
    (p : Fin 10000) (q : Fin 128) :
    k3_pay1 x0 x1 x2 (ix2 p q) = max ((x0 (ix2 p q) - x1 (ix2 0 q)) * x2 (ix2 0 0)) 0 := by
  have hx : shapeCast S10000x128 x0 shapeCasts_S10000x128_S10000x128 (ix2 p q) = x0 (ix2 p q) := by
    rw [shapeCast_self]
  have hrow : broadcastTo S10000x128 (shapeCast S1x128 x1 shapeCasts_S1x128_S1x128) broadcasts_S1x128_S10000x128 (ix2 p q)
      = x1 (ix2 0 q) := by
    rw [shapeCast_self]
    exact broadcastTo_1b_ab_apply x1 broadcasts_S1x128_S10000x128 p q
  have hone : broadcastTo S10000x128 (shapeCast S1x1 x2 shapeCasts_S1x1_S1x1) broadcasts_S1x1_S10000x128 (ix2 p q)
      = x2 (ix2 0 0) := by
    rw [shapeCast_self]
    exact broadcastTo_apply x2 broadcasts_S1x1_S10000x128 (ix2 p q) (ix2 (0 : Fin 1) (0 : Fin 1)) fun ax => by
      match ax with
      | ⟨0, _⟩ => rfl
      | ⟨1, _⟩ => rfl
  unfold k3_pay1
  show max ((shapeCast S10000x128 x0 shapeCasts_S10000x128_S10000x128 (ix2 p q)
        - broadcastTo S10000x128 (shapeCast S1x128 x1 shapeCasts_S1x128_S1x128) broadcasts_S1x128_S10000x128 (ix2 p q))
      * broadcastTo S10000x128 (shapeCast S1x1 x2 shapeCasts_S1x1_S1x1) broadcasts_S1x1_S10000x128 (ix2 p q))
      (Ideal.ofBits .f32 0x00000000#32) = _
  rw [hx, hrow, hone, Ideal.ofBits_zero_f32]

/-- If entry (p, q) of the input block is entry i of the array A, and the row vector's and the single number's blocks
    are the arrays M and S themselves, the body's entry (p, q) is entry i of A centred by M, scaled by S and
    clamped at zero. -/
theorem block_entry3 (A : S100000x128.Idx → EReal) (M : S1x128.Idx → EReal) (S : S1x1.Idx → EReal)
    (x0 : Vec Ideal S10000x128 .f32) (x1 : Vec Ideal S1x128 .f32) (x2 : Vec Ideal S1x1 .f32)
    (p : Fin 10000) (q : Fin 128) (i : S100000x128.Idx)
    (h0 : x0 (ix2 p q) = A i) (h1 : x1 (ix2 0 q) = M (ix2 0 (i 1))) (h2 : x2 (ix2 0 0) = S (ix2 0 0)) :
    k3_pay1 x0 x1 x2 (ix2 p q) = GcnSpec.centreScaleClamp 100000 128 A M S i := by
  refine (clamp_entry3 x0 x1 x2 p q).trans ?_
  show _ = max ((A i - M (ix2 0 (i 1))) * S (ix2 0 0)) 0
  rw [h0, h1, h2]

/-- Entry (p, q) of the input block of point t is the input array's entry under entry (p, q) of the output block:
    the two blocks sit at the same rows and columns. -/
theorem pn3_input_block (c : Dev nD) (t : Fin cfg3.N) (p : Fin 10000) (q : Fin 128) :
    iblk3 V c 0 t (ix2 p q)
      = V c (Pipeline.arrRef spec3 0) (((cfg3.win 3).blk t).view.emb (ix2 p q)) := by
  obtain ⟨e0, e1, e2, e3, e4, e5, e6, e7⟩ := block_indices3 t
  show V c (Pipeline.arrRef spec3 0) (((cfg3.win 0).blk t).view.emb (ix2 p q)) = _
  refine congrArg (V c (Pipeline.arrRef spec3 0)) (funext fun a => Fin.ext ?_)
  match a with
  | ⟨0, _⟩ =>
    show win3_0.index t (0 : Fin 2) * 10000 + 1 * p.val = win3_3.index t (0 : Fin 2) * 10000 + 1 * p.val
    omega
  | ⟨1, _⟩ =>
    show win3_0.index t (1 : Fin 2) * 128 + 1 * q.val = win3_3.index t (1 : Fin 2) * 128 + 1 * q.val
    omega

/-- The row vector's block at any point is the whole 1 × 128 array: its entry (0, q) is the array's entry (0, q'),
    q' the column of entry (p, q) of the output block. -/
theorem pn3_row_block (c : Dev nD) (t : Fin cfg3.N) (p : Fin 10000) (q : Fin 128) :
    iblk3 V c 1 t (ix2 (0 : Fin 1) q)
      = V c (Pipeline.arrRef spec3 1) (ix2 (0 : Fin 1) ((((cfg3.win 3).blk t).view.emb (ix2 p q)) 1)) := by
  obtain ⟨e0, e1, e2, e3, e4, e5, e6, e7⟩ := block_indices3 t
  show V c (Pipeline.arrRef spec3 1) (((cfg3.win 1).blk t).view.emb (ix2 (0 : Fin 1) q)) = _
  refine congrArg (V c (Pipeline.arrRef spec3 1)) (funext fun a => Fin.ext ?_)
  match a with
  | ⟨0, _⟩ =>
    show win3_1.index t (0 : Fin 2) * 1 + 1 * 0 = 0
    omega
  | ⟨1, _⟩ =>
    show win3_1.index t (1 : Fin 2) * 128 + 1 * q.val = win3_3.index t (1 : Fin 2) * 128 + 1 * q.val
    omega

/-- The single number's block at any point is the whole 1 × 1 array. -/
theorem pn3_number_block (c : Dev nD) (t : Fin cfg3.N) :
    iblk3 V c 2 t (ix2 (0 : Fin 1) (0 : Fin 1))
      = V c (Pipeline.arrRef spec3 2) (ix2 (0 : Fin 1) (0 : Fin 1)) := by
  obtain ⟨e0, e1, e2, e3, e4, e5, e6, e7⟩ := block_indices3 t
  show V c (Pipeline.arrRef spec3 2) (((cfg3.win 2).blk t).view.emb (ix2 (0 : Fin 1) (0 : Fin 1))) = _
  refine congrArg (V c (Pipeline.arrRef spec3 2)) (funext fun a => Fin.ext ?_)
  match a with
  | ⟨0, _⟩ =>
    show win3_2.index t (0 : Fin 2) * 1 + 1 * 0 = 0
    omega
  | ⟨1, _⟩ =>
    show win3_2.index t (1 : Fin 2) * 1 + 1 * 0 = 0
    omega

/-- What point t writes back is block t of the centred, scaled and clamped array of the three arrays as the region
    finds them. -/
theorem pn3_flushed (c : Dev nD) (t : Fin cfg3.N) :
    (Gen.dat3 (F := Ideal) V c).flushed 3 t
      = ((cfg3.win 3).blk t).view.read (Elt Ideal)
          (GcnSpec.centreScaleClamp 100000 128 (V c (Pipeline.arrRef spec3 0)) (V c (Pipeline.arrRef spec3 1))
            (V c (Pipeline.arrRef spec3 2))) := by
  show (cfg3.win 3).cut (grid3.coords t) ((Gen.dat3 (F := Ideal) V c).after 3 t) = _
  rw [after3_3]
  unfold out3_3
  rw [View.canon_unit_zero zero_offsets3]
  simp only [View.ld_unit_zero (S := S10000x128) zero_offsets3, View.ld_unit_zero (S := S1x128) zero_offsets3,
    View.ld_unit_zero (S := S1x1) zero_offsets3]
  funext j
  obtain ⟨p, q, rfl⟩ : ∃ (p : Fin 10000) (q : Fin 128), j = ix2 p q := ⟨j 0, j 1, eq_ix2 j⟩
  exact block_entry3 (V c (Pipeline.arrRef spec3 0)) (V c (Pipeline.arrRef spec3 1)) (V c (Pipeline.arrRef spec3 2))
    (iblk3 V c 0 t) (iblk3 V c 1 t) (iblk3 V c 2 t) p q (((cfg3.win 3).blk t).view.emb (ix2 p q))
    (pn3_input_block V c t p q) (pn3_row_block V c t p q) (pn3_number_block V c t)

/-- An index of the output array is in point t's block exactly when, on each axis, it lies in the block's range. -/
theorem pn3_mem_block (t : Fin cfg3.N) (i : S100000x128.Idx) :
    i ∈ ((cfg3.win 3).blk t).view.set
      ↔ ∀ a : Fin 2, win3_3.index t a * S10000x128.size a ≤ (i a).val
          ∧ (i a).val < win3_3.index t a * S10000x128.size a + S10000x128.size a := by
  show i ∈ ((View.whole main_v91).slice (win3_3.rect t)).set ↔ _
  rw [View.set_slice_whole, Rect.mem_set_unit]
  exact Iff.rfl

/-- Every index of the output array is in the block of the point whose row-block index is (row / 10000), and every
    point writes its block back. -/
theorem pn3_cover (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ := row_block_onto3 ⟨(i 0).val / 10000, by omega⟩
  have hrow : win3_3.index t (0 : Fin 2) = (i 0).val / 10000 := ht
  obtain ⟨e0, e1, e2, e3, e4, e5, e6, e7⟩ := block_indices3 t
  refine ⟨t, flush3_3 t, ?_⟩
  rw [pn3_mem_block]
  intro a
  match a with
  | ⟨0, _⟩ =>
    show win3_3.index t (0 : Fin 2) * 10000 ≤ (i 0).val ∧ (i 0).val < win3_3.index t (0 : Fin 2) * 10000 + 10000
    omega
  | ⟨1, _⟩ =>
    show win3_3.index t (1 : Fin 2) * 128 ≤ (i 1).val ∧ (i 1).val < win3_3.index t (1 : Fin 2) * 128 + 128
    omega

/-- The output array after the region: the input array centred by the row vector, scaled by the single number and
    clamped at zero, of the three arrays as the region finds them. -/
theorem pn3_arr (c : Dev nD) :
    (Gen.dat3 (F := Ideal) V c).arrAt 3 cfg3.N
      = GcnSpec.centreScaleClamp 100000 128 (V c (Pipeline.arrRef spec3 0)) (V c (Pipeline.arrRef spec3 1))
          (V c (Pipeline.arrRef spec3 2)) :=
  (Gen.dat3 (F := Ideal) V c).arrAt_eq_of_cover 3 _ (fun t _ => pn3_flushed V c t) (pn3_cover)

end Cert.KernelIdeal.RegionVal

end
-- ==== Proof.RegionLin4.lean ====
/-
  Region 4: a dense layer's matrix product, one block of rows at a time.

  The input array has 100000 rows of 128 entries and the weight array is 128 × 128.  The run visits ten points; at
  point t the body sees rows 10000·t … 10000·t + 9999 of the input (all 128 columns) and the whole weight array,
  and leaves in the output's block the product of the two: entry (p, q) of the block is the sum over k of
  input[10000·t + p, k] · weight[k, q] (the cast to the same shape and the change of float format in front of the
  product are the identity on the extended reals, and the accumulator starts at zero).  That block is written back to rows
  10000·t … 10000·t + 9999 of the output array, all 128 columns.  Row r of the output lies in the block of point
  r / 10000, so the ten blocks fill the whole 100000 × 128 array, and every entry (r, q) ends as the sum over k of
  input[r, k] · weight[k, q]: the matrix product of the two arrays as the region finds them.
-/
import proofs.«163474_j52115133170062_1_alg».proof.Proof.Gen.KernelIdeal.Frame
import proofs.«163474_j52115133170062_1_alg».proof.Proof.GcnSpec
import proofs.«163474_j52115133170062_1_alg».proof.Proof.LibMatmulNN
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.RegionVal

open Cert.KernelIdeal Cert.KernelIdeal.Gen

variable (V : (c : Dev nD) → (b : Ref sig .tc) → Buf (Elt Ideal) ((c : Thread nD τ).loc b))

/-- The body's whole-buffer accesses start at offset zero on both axes. -/
theorem zero_offsets4 : (![0, 0] : Fin 2 → Nat) = fun _ => 0 := funext fun a => by fin_cases a <;> rfl

/-- Where the blocks sit, decided over the ten points: the input block and the output block of a point have the same
    row-block index and column-block index 0, the weight block is always block (0, 0), and row-block indices stay
    below 10. -/
theorem block_indices4 : ∀ t : Fin cfg4.N,
    win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 9 :=
  (by decide +kernel : ∀ t : Fin grid4.N, _)

/-- Each of the ten row blocks of the output is some point's. -/
theorem row_block_onto4 : ∀ b : Fin 10, ∃ t : Fin cfg4.N, win4_2.index t (0 : Fin 2) = b.val :=
  (by decide +kernel : ∀ b : Fin 10, ∃ t : Fin grid4.N, win4_2.index t (0 : Fin 2) = b.val)

/-- Entry (p, q) of what the body computes from an input block and the weight block: the sum over k of
    input[p, k] · weight[k, q]. -/
theorem product_entry4 (x0 : Vec Ideal S10000x128 .f32) (x1 : Vec Ideal S128x128 .f32) (p : Fin 10000) (q : Fin 128) :
    k4_pay1 x0 x1 (ix2 p q) = ∑ k : Fin 128, x0 (ix2 p k) * x1 (ix2 k q) := by
  have hx : shapeCast S10000x128 x0 shapeCasts_S10000x128_S10000x128 = x0 := shapeCast_self x0 _
  unfold k4_pay1
  refine (LibMatmulNN.matmul_zero_apply 10000 128 128 none
    (truncf .bf16 (shapeCast S10000x128 x0 shapeCasts_S10000x128_S10000x128) bitsLt_bf16_f32)
    (truncf .bf16 x1 bitsLt_bf16_f32) p q).trans ?_
  exact Finset.sum_congr rfl fun k _ =>
    congrArg (fun v : Vec Ideal S10000x128 .f32 => v (ix2 p k) * x1 (ix2 k q)) hx

/-- If row p of the input block is row (i 0) of the array A and column q of the weight block is column (i 1) of the
    array W, the body's entry (p, q) is entry i of the product of A and W. -/
theorem block_entry4 (A : S100000x128.Idx → EReal) (W : S128x128.Idx → EReal)
    (x0 : Vec Ideal S10000x128 .f32) (x1 : Vec Ideal S128x128 .f32) (p : Fin 10000) (q : Fin 128) (i : S100000x128.Idx)
    (h0 : ∀ k : Fin 128, x0 (ix2 p k) = A (ix2 (i 0) k))
    (h1 : ∀ k : Fin 128, x1 (ix2 k q) = W (ix2 k (i 1))) :
    k4_pay1 x0 x1 (ix2 p q) = GcnSpec.matProd 100000 128 128 A W i := by
  refine (product_entry4 x0 x1 p q).trans ?_
  show _ = ∑ k : Fin 128, A (ix2 (i 0) k) * W (ix2 k (i 1))
  exact Finset.sum_congr rfl fun k _ => by rw [h0 k, h1 k]

/-- What point t writes back is block t of the product of the two arrays as the region finds them. -/
theorem lin4_flushed (c : Dev nD) (t : Fin cfg4.N) :
    (Gen.dat4 (F := Ideal) V c).flushed 2 t
      = ((cfg4.win 2).blk t).view.read (Elt Ideal)
          (GcnSpec.matProd 100000 128 128 (V c (Pipeline.arrRef spec4 0)) (V c (Pipeline.arrRef spec4 1))) := by
  show (cfg4.win 2).cut (grid4.coords t) ((Gen.dat4 (F := Ideal) V c).after 2 t) = _
  rw [after4_2]
  unfold out4_2
  rw [View.canon_unit_zero zero_offsets4]
  simp only [View.ld_unit_zero (S := S10000x128) zero_offsets4, View.ld_unit_zero (S := S128x128) zero_offsets4]
  obtain ⟨e0, e1, e2, e3, e4, e5⟩ := block_indices4 t
  funext j
  obtain ⟨p, q, rfl⟩ : ∃ (p : Fin 10000) (q : Fin 128), j = ix2 p q := ⟨j 0, j 1, eq_ix2 j⟩
  show k4_pay1 (iblk4 V c 0 t) (iblk4 V c 1 t) (ix2 p q)
    = GcnSpec.matProd 100000 128 128 (V c (Pipeline.arrRef spec4 0)) (V c (Pipeline.arrRef spec4 1))
        (((cfg4.win 2).blk t).view.emb (ix2 p q))
  refine block_entry4 (V c (Pipeline.arrRef spec4 0)) (V c (Pipeline.arrRef spec4 1))
    (iblk4 V c 0 t) (iblk4 V c 1 t) p q (((cfg4.win 2).blk t).view.emb (ix2 p q)) (fun k => ?_) (fun k => ?_)
  · show V c (Pipeline.arrRef spec4 0) (((cfg4.win 0).blk t).view.emb (ix2 p k)) = _
    refine congrArg (V c (Pipeline.arrRef spec4 0)) (funext fun a => Fin.ext ?_)
    match a with
    | ⟨0, _⟩ =>
      show win4_0.index t (0 : Fin 2) * 10000 + 1 * p.val = win4_2.index t (0 : Fin 2) * 10000 + 1 * p.val
      omega
    | ⟨1, _⟩ =>
      show win4_0.index t (1 : Fin 2) * 128 + 1 * k.val = k.val
      omega
  · show V c (Pipeline.arrRef spec4 1) (((cfg4.win 1).blk t).view.emb (ix2 k q)) = _
    refine congrArg (V c (Pipeline.arrRef spec4 1)) (funext fun a => Fin.ext ?_)
    match a with
    | ⟨0, _⟩ =>
      show win4_1.index t (0 : Fin 2) * 128 + 1 * k.val = k.val
      omega
    | ⟨1, _⟩ =>
      show win4_1.index t (1 : Fin 2) * 128 + 1 * q.val = win4_2.index t (1 : Fin 2) * 128 + 1 * q.val
      omega

/-- An index of the output array is in point t's block exactly when, on each axis, it lies in the block's range. -/
theorem lin4_mem_block (t : Fin cfg4.N) (i : S100000x128.Idx) :
    i ∈ ((cfg4.win 2).blk t).view.set
      ↔ ∀ a : Fin 2, win4_2.index t a * S10000x128.size a ≤ (i a).val
          ∧ (i a).val < win4_2.index t a * S10000x128.size a + S10000x128.size a := by
  show i ∈ ((View.whole main_v92).slice (win4_2.rect t)).set ↔ _
  rw [View.set_slice_whole, Rect.mem_set_unit]
  exact Iff.rfl

/-- Every index of the output array is in the block of the point whose row-block index is (row / 10000), and every
    point writes its block back. -/
theorem lin4_cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := row_block_onto4 ⟨(i 0).val / 10000, by omega⟩
  have hrow : win4_2.index t (0 : Fin 2) = (i 0).val / 10000 := ht
  obtain ⟨e0, e1, e2, e3, e4, e5⟩ := block_indices4 t
  refine ⟨t, flush4_2 t, ?_⟩
  rw [lin4_mem_block]
  intro a
  match a with
  | ⟨0, _⟩ =>
    show win4_2.index t (0 : Fin 2) * 10000 ≤ (i 0).val ∧ (i 0).val < win4_2.index t (0 : Fin 2) * 10000 + 10000
    omega
  | ⟨1, _⟩ =>
    show win4_2.index t (1 : Fin 2) * 128 ≤ (i 1).val ∧ (i 1).val < win4_2.index t (1 : Fin 2) * 128 + 128
    omega

/-- The output array after the region: the matrix product of the input array and the weight array as the region
    finds them. -/
theorem lin4_arr (c : Dev nD) :
    (Gen.dat4 (F := Ideal) V c).arrAt 2 cfg4.N
      = GcnSpec.matProd 100000 128 128 (V c (Pipeline.arrRef spec4 0)) (V c (Pipeline.arrRef spec4 1)) :=
  (Gen.dat4 (F := Ideal) V c).arrAt_eq_of_cover 2 _ (fun t _ => lin4_flushed V c t) (lin4_cover)

end Cert.KernelIdeal.RegionVal

end
-- ==== Proof.RegionPn5.lean ====
/-
  Region 5: centre every row, scale, and clamp at zero, one block of rows at a time.

  The input array has 100000 rows of 128 entries; beside it the region reads one row vector of 128 entries (a
  1 × 128 array) and a single number (a 1 × 1 array).  The run visits ten points; at point t the body sees rows
  10000·t … 10000·t + 9999 of the input (all 128 columns), the whole row vector and the single number, and leaves
  in the output's block, at (p, q), the larger of 0 and (input[10000·t + p, q] − row[0, q]) · number[0, 0]: the row
  vector is repeated down the rows, the number is repeated everywhere, and the casts to the same shape change
  nothing.  That block is written back to rows 10000·t … 10000·t + 9999 of the output array, all 128 columns.  Row
  r of the output lies in the block of point r / 10000, so the ten blocks fill the whole 100000 × 128 array, and
  every entry (r, q) ends as max ((input[r, q] − row[0, q]) · number[0, 0]) 0 of the three arrays as the region
  finds them.
-/
import proofs.«163474_j52115133170062_1_alg».proof.Proof.Gen.KernelIdeal.Frame
import proofs.«163474_j52115133170062_1_alg».proof.Proof.GcnSpec
import Idealize.ShloMosaic.PureOps.Ideal.Laws
import Idealize.ShloMosaic.Lib.Pipeline.Value
import Idealize.ShloMosaic.Lib.ValueIdx
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.KernelIdeal.RegionVal

open Cert.KernelIdeal Cert.KernelIdeal.Gen

variable (V : (c : Dev nD) → (b : Ref sig .tc) → Buf (Elt Ideal) ((c : Thread nD τ).loc b))

/-- The body's whole-buffer accesses start at offset zero on both axes. -/
theorem zero_offsets5 : (![0, 0] : Fin 2 → Nat) = fun _ => 0 := funext fun a => by fin_cases a <;> rfl

/-- Where the blocks sit, decided over the ten points: the input block and the output block of a point have the same
    row-block index and column-block index 0, the row vector's and the single number's blocks are always block
    (0, 0), and row-block indices stay below 10. -/
theorem block_indices5 : ∀ t : Fin cfg5.N,
    win5_0.index t (0 : Fin 2) = win5_3.index t (0 : Fin 2)
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (1 : Fin 2) = 0
    ∧ win5_3.index t (0 : Fin 2) ≤ 9 :=
  (by decide +kernel : ∀ t : Fin grid5.N, _)

/-- Each of the ten row blocks of the output is some point's. -/
theorem row_block_onto5 : ∀ b : Fin 10, ∃ t : Fin cfg5.N, win5_3.index t (0 : Fin 2) = b.val :=
  (by decide +kernel : ∀ b : Fin 10, ∃ t : Fin grid5.N, win5_3.index t (0 : Fin 2) = b.val)

/-- Entry (p, q) of what the body computes from an input block, the row vector and the single number:
    the larger of 0 and (input[p, q] − row[0, q]) · number[0, 0]. -/
theorem clamp_entry5 (x0 : Vec Ideal S10000x128 .f32) (x1 : Vec Ideal S1x128 .f32) (x2 : Vec Ideal S1x1 .f32)
    (p : Fin 10000) (q : Fin 128) :
    k5_pay1 x0 x1 x2 (ix2 p q) = max ((x0 (ix2 p q) - x1 (ix2 0 q)) * x2 (ix2 0 0)) 0 := by
  have hx : shapeCast S10000x128 x0 shapeCasts_S10000x128_S10000x128 (ix2 p q) = x0 (ix2 p q) := by
    rw [shapeCast_self]
  have hrow : broadcastTo S10000x128 (shapeCast S1x128 x1 shapeCasts_S1x128_S1x128) broadcasts_S1x128_S10000x128 (ix2 p q)
      = x1 (ix2 0 q) := by
    rw [shapeCast_self]
    exact broadcastTo_1b_ab_apply x1 broadcasts_S1x128_S10000x128 p q
  have hone : broadcastTo S10000x128 (shapeCast S1x1 x2 shapeCasts_S1x1_S1x1) broadcasts_S1x1_S10000x128 (ix2 p q)
      = x2 (ix2 0 0) := by
    rw [shapeCast_self]
    exact broadcastTo_apply x2 broadcasts_S1x1_S10000x128 (ix2 p q) (ix2 (0 : Fin 1) (0 : Fin 1)) fun ax => by
      match ax with
      | ⟨0, _⟩ => rfl
      | ⟨1, _⟩ => rfl
  unfold k5_pay1
  show max ((shapeCast S10000x128 x0 shapeCasts_S10000x128_S10000x128 (ix2 p q)
        - broadcastTo S10000x128 (shapeCast S1x128 x1 shapeCasts_S1x128_S1x128) broadcasts_S1x128_S10000x128 (ix2 p q))
      * broadcastTo S10000x128 (shapeCast S1x1 x2 shapeCasts_S1x1_S1x1) broadcasts_S1x1_S10000x128 (ix2 p q))
      (Ideal.ofBits .f32 0x00000000#32) = _
  rw [hx, hrow, hone, Ideal.ofBits_zero_f32]

/-- If entry (p, q) of the input block is entry i of the array A, and the row vector's and the single number's blocks
    are the arrays M and S themselves, the body's entry (p, q) is entry i of A centred by M, scaled by S and
    clamped at zero. -/
theorem block_entry5 (A : S100000x128.Idx → EReal) (M : S1x128.Idx → EReal) (S : S1x1.Idx → EReal)
    (x0 : Vec Ideal S10000x128 .f32) (x1 : Vec Ideal S1x128 .f32) (x2 : Vec Ideal S1x1 .f32)
    (p : Fin 10000) (q : Fin 128) (i : S100000x128.Idx)
    (h0 : x0 (ix2 p q) = A i) (h1 : x1 (ix2 0 q) = M (ix2 0 (i 1))) (h2 : x2 (ix2 0 0) = S (ix2 0 0)) :
    k5_pay1 x0 x1 x2 (ix2 p q) = GcnSpec.centreScaleClamp 100000 128 A M S i := by
  refine (clamp_entry5 x0 x1 x2 p q).trans ?_
  show _ = max ((A i - M (ix2 0 (i 1))) * S (ix2 0 0)) 0
  rw [h0, h1, h2]

/-- Entry (p, q) of the input block of point t is the input array's entry under entry (p, q) of the output block:
    the two blocks sit at the same rows and columns. -/
theorem pn5_input_block (c : Dev nD) (t : Fin cfg5.N) (p : Fin 10000) (q : Fin 128) :
    iblk5 V c 0 t (ix2 p q)
      = V c (Pipeline.arrRef spec5 0) (((cfg5.win 3).blk t).view.emb (ix2 p q)) := by
  obtain ⟨e0, e1, e2, e3, e4, e5, e6, e7⟩ := block_indices5 t
  show V c (Pipeline.arrRef spec5 0) (((cfg5.win 0).blk t).view.emb (ix2 p q)) = _
  refine congrArg (V c (Pipeline.arrRef spec5 0)) (funext fun a => Fin.ext ?_)
  match a with
  | ⟨0, _⟩ =>
    show win5_0.index t (0 : Fin 2) * 10000 + 1 * p.val = win5_3.index t (0 : Fin 2) * 10000 + 1 * p.val
    omega
  | ⟨1, _⟩ =>
    show win5_0.index t (1 : Fin 2) * 128 + 1 * q.val = win5_3.index t (1 : Fin 2) * 128 + 1 * q.val
    omega

/-- The row vector's block at any point is the whole 1 × 128 array: its entry (0, q) is the array's entry (0, q'),
    q' the column of entry (p, q) of the output block. -/
theorem pn5_row_block (c : Dev nD) (t : Fin cfg5.N) (p : Fin 10000) (q : Fin 128) :
    iblk5 V c 1 t (ix2 (0 : Fin 1) q)
      = V c (Pipeline.arrRef spec5 1) (ix2 (0 : Fin 1) ((((cfg5.win 3).blk t).view.emb (ix2 p q)) 1)) := by
  obtain ⟨e0, e1, e2, e3, e4, e5, e6, e7⟩ := block_indices5 t
  show V c (Pipeline.arrRef spec5 1) (((cfg5.win 1).blk t).view.emb (ix2 (0 : Fin 1) q)) = _
  refine congrArg (V c (Pipeline.arrRef spec5 1)) (funext fun a => Fin.ext ?_)
  match a with
  | ⟨0, _⟩ =>
    show win5_1.index t (0 : Fin 2) * 1 + 1 * 0 = 0
    omega
  | ⟨1, _⟩ =>
    show win5_1.index t (1 : Fin 2) * 128 + 1 * q.val = win5_3.index t (1 : Fin 2) * 128 + 1 * q.val
    omega

/-- The single number's block at any point is the whole 1 × 1 array. -/
theorem pn5_number_block (c : Dev nD) (t : Fin cfg5.N) :
    iblk5 V c 2 t (ix2 (0 : Fin 1) (0 : Fin 1))
      = V c (Pipeline.arrRef spec5 2) (ix2 (0 : Fin 1) (0 : Fin 1)) := by
  obtain ⟨e0, e1, e2, e3, e4, e5, e6, e7⟩ := block_indices5 t
  show V c (Pipeline.arrRef spec5 2) (((cfg5.win 2).blk t).view.emb (ix2 (0 : Fin 1) (0 : Fin 1))) = _
  refine congrArg (V c (Pipeline.arrRef spec5 2)) (funext fun a => Fin.ext ?_)
  match a with
  | ⟨0, _⟩ =>
    show win5_2.index t (0 : Fin 2) * 1 + 1 * 0 = 0
    omega
  | ⟨1, _⟩ =>
    show win5_2.index t (1 : Fin 2) * 1 + 1 * 0 = 0
    omega

/-- What point t writes back is block t of the centred, scaled and clamped array of the three arrays as the region
    finds them. -/
theorem pn5_flushed (c : Dev nD) (t : Fin cfg5.N) :
    (Gen.dat5 (F := Ideal) V c).flushed 3 t
      = ((cfg5.win 3).blk t).view.read (Elt Ideal)
          (GcnSpec.centreScaleClamp 100000 128 (V c (Pipeline.arrRef spec5 0)) (V c (Pipeline.arrRef spec5 1))
            (V c (Pipeline.arrRef spec5 2))) := by
  show (cfg5.win 3).cut (grid5.coords t) ((Gen.dat5 (F := Ideal) V c).after 3 t) = _
  rw [after5_3]
  unfold out5_3
  rw [View.canon_unit_zero zero_offsets5]
  simp only [View.ld_unit_zero (S := S10000x128) zero_offsets5, View.ld_unit_zero (S := S1x128) zero_offsets5,
    View.ld_unit_zero (S := S1x1) zero_offsets5]
  funext j
  obtain ⟨p, q, rfl⟩ : ∃ (p : Fin 10000) (q : Fin 128), j = ix2 p q := ⟨j 0, j 1, eq_ix2 j⟩
  exact block_entry5 (V c (Pipeline.arrRef spec5 0)) (V c (Pipeline.arrRef spec5 1)) (V c (Pipeline.arrRef spec5 2))
    (iblk5 V c 0 t) (iblk5 V c 1 t) (iblk5 V c 2 t) p q (((cfg5.win 3).blk t).view.emb (ix2 p q))
    (pn5_input_block V c t p q) (pn5_row_block V c t p q) (pn5_number_block V c t)

/-- An index of the output array is in point t's block exactly when, on each axis, it lies in the block's range. -/
theorem pn5_mem_block (t : Fin cfg5.N) (i : S100000x128.Idx) :
    i ∈ ((cfg5.win 3).blk t).view.set
      ↔ ∀ a : Fin 2, win5_3.index t a * S10000x128.size a ≤ (i a).val
          ∧ (i a).val < win5_3.index t a * S10000x128.size a + S10000x128.size a := by
  show i ∈ ((View.whole main_v123).slice (win5_3.rect t)).set ↔ _
  rw [View.set_slice_whole, Rect.mem_set_unit]
  exact Iff.rfl

/-- Every index of the output array is in the block of the point whose row-block index is (row / 10000), and every
    point writes its block back. -/
theorem pn5_cover (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  obtain ⟨t, ht⟩ := row_block_onto5 ⟨(i 0).val / 10000, by omega⟩
  have hrow : win5_3.index t (0 : Fin 2) = (i 0).val / 10000 := ht
  obtain ⟨e0, e1, e2, e3, e4, e5, e6, e7⟩ := block_indices5 t
  refine ⟨t, flush5_3 t, ?_⟩
  rw [pn5_mem_block]
  intro a
  match a with
  | ⟨0, _⟩ =>
    show win5_3.index t (0 : Fin 2) * 10000 ≤ (i 0).val ∧ (i 0).val < win5_3.index t (0 : Fin 2) * 10000 + 10000
    omega
  | ⟨1, _⟩ =>
    show win5_3.index t (1 : Fin 2) * 128 ≤ (i 1).val ∧ (i 1).val < win5_3.index t (1 : Fin 2) * 128 + 128
    omega

/-- The output array after the region: the input array centred by the row vector, scaled by the single number and
    clamped at zero, of the three arrays as the region finds them. -/
theorem pn5_arr (c : Dev nD) :
    (Gen.dat5 (F := Ideal) V c).arrAt 3 cfg5.N
      = GcnSpec.centreScaleClamp 100000 128 (V c (Pipeline.arrRef spec5 0)) (V c (Pipeline.arrRef spec5 1))
          (V c (Pipeline.arrRef spec5 2)) :=
  (Gen.dat5 (F := Ideal) V c).arrAt_eq_of_cover 3 _ (fun t _ => pn5_flushed V c t) (pn5_cover)

end Cert.KernelIdeal.RegionVal

end
-- ==== Proof.RegionLin6.lean ====
/-
  Region 6: a dense layer's matrix product, one block of rows at a time.

  The input array has 100000 rows of 128 entries and the weight array is 128 × 40.  The run visits ten points; at
  point t the body sees rows 10000·t … 10000·t + 9999 of the input (all 128 columns) and the whole weight array,
  and leaves in the output's block the product of the two: entry (p, q) of the block is the sum over k of
  input[10000·t + p, k] · weight[k, q] (the cast to the same shape and the change of float format in front of the
  product are the identity on the extended reals, and the accumulator starts at zero).  That block is written back to rows
  10000·t … 10000·t + 9999 of the output array, all 40 columns.  Row r of the output lies in the block of point
  r / 10000, so the ten blocks fill the whole 100000 × 40 array, and every entry (r, q) ends as the sum over k of
  input[r, k] · weight[k, q]: the matrix product of the two arrays as the region finds them.
-/
import proofs.«163474_j52115133170062_1_alg».proof.Proof.Gen.KernelIdeal.Frame
import proofs.«163474_j52115133170062_1_alg».proof.Proof.GcnSpec
import proofs.«163474_j52115133170062_1_alg».proof.Proof.LibMatmulNN
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.RegionVal

open Cert.KernelIdeal Cert.KernelIdeal.Gen

variable (V : (c : Dev nD) → (b : Ref sig .tc) → Buf (Elt Ideal) ((c : Thread nD τ).loc b))

/-- The body's whole-buffer accesses start at offset zero on both axes. -/
theorem zero_offsets6 : (![0, 0] : Fin 2 → Nat) = fun _ => 0 := funext fun a => by fin_cases a <;> rfl

/-- Where the blocks sit, decided over the ten points: the input block and the output block of a point have the same
    row-block index and column-block index 0, the weight block is always block (0, 0), and row-block indices stay
    below 10. -/
theorem block_indices6 : ∀ t : Fin cfg6.N,
    win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (1 : Fin 2) = 0
    ∧ win6_2.index t (0 : Fin 2) ≤ 9 :=
  (by decide +kernel : ∀ t : Fin grid6.N, _)

/-- Each of the ten row blocks of the output is some point's. -/
theorem row_block_onto6 : ∀ b : Fin 10, ∃ t : Fin cfg6.N, win6_2.index t (0 : Fin 2) = b.val :=
  (by decide +kernel : ∀ b : Fin 10, ∃ t : Fin grid6.N, win6_2.index t (0 : Fin 2) = b.val)

/-- Entry (p, q) of what the body computes from an input block and the weight block: the sum over k of
    input[p, k] · weight[k, q]. -/
theorem product_entry6 (x0 : Vec Ideal S10000x128 .f32) (x1 : Vec Ideal S128x40 .f32) (p : Fin 10000) (q : Fin 40) :
    k6_pay1 x0 x1 (ix2 p q) = ∑ k : Fin 128, x0 (ix2 p k) * x1 (ix2 k q) := by
  have hx : shapeCast S10000x128 x0 shapeCasts_S10000x128_S10000x128 = x0 := shapeCast_self x0 _
  unfold k6_pay1
  refine (LibMatmulNN.matmul_zero_apply 10000 128 40 none
    (truncf .bf16 (shapeCast S10000x128 x0 shapeCasts_S10000x128_S10000x128) bitsLt_bf16_f32)
    (truncf .bf16 x1 bitsLt_bf16_f32) p q).trans ?_
  exact Finset.sum_congr rfl fun k _ =>
    congrArg (fun v : Vec Ideal S10000x128 .f32 => v (ix2 p k) * x1 (ix2 k q)) hx

/-- If row p of the input block is row (i 0) of the array A and column q of the weight block is column (i 1) of the
    array W, the body's entry (p, q) is entry i of the product of A and W. -/
theorem block_entry6 (A : S100000x128.Idx → EReal) (W : S128x40.Idx → EReal)
    (x0 : Vec Ideal S10000x128 .f32) (x1 : Vec Ideal S128x40 .f32) (p : Fin 10000) (q : Fin 40) (i : S100000x40.Idx)
    (h0 : ∀ k : Fin 128, x0 (ix2 p k) = A (ix2 (i 0) k))
    (h1 : ∀ k : Fin 128, x1 (ix2 k q) = W (ix2 k (i 1))) :
    k6_pay1 x0 x1 (ix2 p q) = GcnSpec.matProd 100000 128 40 A W i := by
  refine (product_entry6 x0 x1 p q).trans ?_
  show _ = ∑ k : Fin 128, A (ix2 (i 0) k) * W (ix2 k (i 1))
  exact Finset.sum_congr rfl fun k _ => by rw [h0 k, h1 k]

/-- What point t writes back is block t of the product of the two arrays as the region finds them. -/
theorem lin6_flushed (c : Dev nD) (t : Fin cfg6.N) :
    (Gen.dat6 (F := Ideal) V c).flushed 2 t
      = ((cfg6.win 2).blk t).view.read (Elt Ideal)
          (GcnSpec.matProd 100000 128 40 (V c (Pipeline.arrRef spec6 0)) (V c (Pipeline.arrRef spec6 1))) := by
  show (cfg6.win 2).cut (grid6.coords t) ((Gen.dat6 (F := Ideal) V c).after 2 t) = _
  rw [after6_2]
  unfold out6_2
  rw [View.canon_unit_zero zero_offsets6]
  simp only [View.ld_unit_zero (S := S10000x128) zero_offsets6, View.ld_unit_zero (S := S128x40) zero_offsets6]
  obtain ⟨e0, e1, e2, e3, e4, e5⟩ := block_indices6 t
  funext j
  obtain ⟨p, q, rfl⟩ : ∃ (p : Fin 10000) (q : Fin 40), j = ix2 p q := ⟨j 0, j 1, eq_ix2 j⟩
  show k6_pay1 (iblk6 V c 0 t) (iblk6 V c 1 t) (ix2 p q)
    = GcnSpec.matProd 100000 128 40 (V c (Pipeline.arrRef spec6 0)) (V c (Pipeline.arrRef spec6 1))
        (((cfg6.win 2).blk t).view.emb (ix2 p q))
  refine block_entry6 (V c (Pipeline.arrRef spec6 0)) (V c (Pipeline.arrRef spec6 1))
    (iblk6 V c 0 t) (iblk6 V c 1 t) p q (((cfg6.win 2).blk t).view.emb (ix2 p q)) (fun k => ?_) (fun k => ?_)
  · show V c (Pipeline.arrRef spec6 0) (((cfg6.win 0).blk t).view.emb (ix2 p k)) = _
    refine congrArg (V c (Pipeline.arrRef spec6 0)) (funext fun a => Fin.ext ?_)
    match a with
    | ⟨0, _⟩ =>
      show win6_0.index t (0 : Fin 2) * 10000 + 1 * p.val = win6_2.index t (0 : Fin 2) * 10000 + 1 * p.val
      omega
    | ⟨1, _⟩ =>
      show win6_0.index t (1 : Fin 2) * 128 + 1 * k.val = k.val
      omega
  · show V c (Pipeline.arrRef spec6 1) (((cfg6.win 1).blk t).view.emb (ix2 k q)) = _
    refine congrArg (V c (Pipeline.arrRef spec6 1)) (funext fun a => Fin.ext ?_)
    match a with
    | ⟨0, _⟩ =>
      show win6_1.index t (0 : Fin 2) * 128 + 1 * k.val = k.val
      omega
    | ⟨1, _⟩ =>
      show win6_1.index t (1 : Fin 2) * 40 + 1 * q.val = win6_2.index t (1 : Fin 2) * 40 + 1 * q.val
      omega

/-- An index of the output array is in point t's block exactly when, on each axis, it lies in the block's range. -/
theorem lin6_mem_block (t : Fin cfg6.N) (i : S100000x40.Idx) :
    i ∈ ((cfg6.win 2).blk t).view.set
      ↔ ∀ a : Fin 2, win6_2.index t a * S10000x40.size a ≤ (i a).val
          ∧ (i a).val < win6_2.index t a * S10000x40.size a + S10000x40.size a := by
  show i ∈ ((View.whole main_v151).slice (win6_2.rect t)).set ↔ _
  rw [View.set_slice_whole, Rect.mem_set_unit]
  exact Iff.rfl

/-- Every index of the output array is in the block of the point whose row-block index is (row / 10000), and every
    point writes its block back. -/
theorem lin6_cover (i : S100000x40.Idx) :
    ∃ t : Fin cfg6.N, (cfg6.win 2).flush t = true ∧ i ∈ ((cfg6.win 2).blk t).view.set := by
  have hi0 : (i 0).val < 100000 := (i 0).isLt
  have hi1 : (i 1).val < 40 := (i 1).isLt
  obtain ⟨t, ht⟩ := row_block_onto6 ⟨(i 0).val / 10000, by omega⟩
  have hrow : win6_2.index t (0 : Fin 2) = (i 0).val / 10000 := ht
  obtain ⟨e0, e1, e2, e3, e4, e5⟩ := block_indices6 t
  refine ⟨t, flush6_2 t, ?_⟩
  rw [lin6_mem_block]
  intro a
  match a with
  | ⟨0, _⟩ =>
    show win6_2.index t (0 : Fin 2) * 10000 ≤ (i 0).val ∧ (i 0).val < win6_2.index t (0 : Fin 2) * 10000 + 10000
    omega
  | ⟨1, _⟩ =>
    show win6_2.index t (1 : Fin 2) * 40 ≤ (i 1).val ∧ (i 1).val < win6_2.index t (1 : Fin 2) * 40 + 40
    omega

/-- The output array after the region: the matrix product of the input array and the weight array as the region
    finds them. -/
theorem lin6_arr (c : Dev nD) :
    (Gen.dat6 (F := Ideal) V c).arrAt 2 cfg6.N
      = GcnSpec.matProd 100000 128 40 (V c (Pipeline.arrRef spec6 0)) (V c (Pipeline.arrRef spec6 1)) :=
  (Gen.dat6 (F := Ideal) V c).arrAt_eq_of_cover 2 _ (fun t _ => lin6_flushed V c t) (lin6_cover)

end Cert.KernelIdeal.RegionVal

end
-- ==== Proof.KernelChain.lean ====
/-
  The idealized kernel program's buffer contents, boundary by boundary, named by the layer specification.

  `a0 … a9` are the launch contents of the ten arguments.  The edge endpoints `sE`, `dE` and the per-edge normaliser
  `nE` are computed once, before the first launch, and are still in their buffers when each later stretch reads them,
  since no stretch and no launch in between writes those buffers.  A linear launch leaves the dense product of its two
  input arrays (the region's closed form, then `GcnBridge.matProd_eq_dense`); the host stretch after it leaves the
  convolution output `o`, the row of its column means and its reciprocal scale; the pair-norm launch leaves
  `centreScaleClamp o (mean o) (scale o)`, which is the layer's output `pairNormRelu o` (`GcnBridge.centreScaleClamp_eq`).
  Three such layers, then the self-loop edges and their normaliser, the last dense product and the last convolution:
  the result buffer ends at `GcnLayers.gcn a0 … a9`.
-/
import proofs.«163474_j52115133170062_1_alg».proof.Proof.Gen.KernelIdeal.Frame
import proofs.«163474_j52115133170062_1_alg».proof.Proof.KernelStretches
import proofs.«163474_j52115133170062_1_alg».proof.Proof.DenseBridge
import proofs.«163474_j52115133170062_1_alg».proof.Proof.RegionLin0
import proofs.«163474_j52115133170062_1_alg».proof.Proof.RegionPn1
import proofs.«163474_j52115133170062_1_alg».proof.Proof.RegionLin2
import proofs.«163474_j52115133170062_1_alg».proof.Proof.RegionPn3
import proofs.«163474_j52115133170062_1_alg».proof.Proof.RegionLin4
import proofs.«163474_j52115133170062_1_alg».proof.Proof.RegionPn5
import proofs.«163474_j52115133170062_1_alg».proof.Proof.RegionLin6

set_option maxRecDepth 16384
-- the shorthands below mention the section's variables through a projection
set_option quotPrecheck false

noncomputable section

namespace Cert.KernelIdeal.ChainVal

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "sE" => GcnLayers.src a1
local notation "dE" => GcnLayers.dst a1
local notation "nE" => GcnLayers.norm sE dE
local notation "o1" => GcnLayers.conv (GcnLayers.dense a0 a2) sE dE nE a6
local notation "x1" => GcnLayers.layer a0 a2 a6 a1
local notation "o2" => GcnLayers.conv (GcnLayers.dense x1 a3) sE dE nE a7
local notation "x2" => GcnLayers.layer x1 a3 a7 a1
local notation "o3" => GcnLayers.conv (GcnLayers.dense x2 a4) sE dE nE a8
local notation "x3" => GcnLayers.layer x2 a4 a8 a1
local notation "sL" => GcnLayers.srcL sE
local notation "dL" => GcnLayers.srcL dE
local notation "nL" => GcnLayers.normL sL dL

/-! ## A buffer a host stretch does not write comes out of it as it went in -/

theorem K0_1 (r : Ref sig .tc) (h : r ∉ wr0) : W1 m ρ c (Proc.devRef .tc r) = W0 m ρ c (Proc.devRef .tc r) := keep0 (W0 m ρ c) r h
theorem K1_2 (r : Ref sig .tc) (h : r ∉ wr01) : W2 m ρ c (Proc.devRef .tc r) = W1 m ρ c (Proc.devRef .tc r) := keep01 (W1 m ρ c) r h
theorem K2_3 (r : Ref sig .tc) (h : r ∉ wr02) : W3 m ρ c (Proc.devRef .tc r) = W2 m ρ c (Proc.devRef .tc r) := keep02 (W2 m ρ c) r h
theorem K0_3 (r : Ref sig .tc) (h0 : r ∉ wr0) (h1 : r ∉ wr01) (h2 : r ∉ wr02) : W3 m ρ c (Proc.devRef .tc r) = W0 m ρ c (Proc.devRef .tc r) :=
  (K2_3 m ρ c r h2).trans ((K1_2 m ρ c r h1).trans (K0_1 m ρ c r h0))
theorem K4_5 (r : Ref sig .tc) (h : r ∉ wr1) : W5 m ρ c (Proc.devRef .tc r) = W4 m ρ c (Proc.devRef .tc r) := keep1 (W4 m ρ c) r h
theorem K7_8 (r : Ref sig .tc) (h : r ∉ wr3) : W8 m ρ c (Proc.devRef .tc r) = W7 m ρ c (Proc.devRef .tc r) := keep3 (W7 m ρ c) r h
theorem K10_11 (r : Ref sig .tc) (h : r ∉ wr5) : W11 m ρ c (Proc.devRef .tc r) = W10 m ρ c (Proc.devRef .tc r) := keep5 (W10 m ρ c) r h
theorem K12_13 (r : Ref sig .tc) (h : r ∉ wr6) : W13 m ρ c (Proc.devRef .tc r) = W12 m ρ c (Proc.devRef .tc r) := keep6 (W12 m ρ c) r h
theorem K13_14 (r : Ref sig .tc) (h : r ∉ wr61) : W14 m ρ c (Proc.devRef .tc r) = W13 m ρ c (Proc.devRef .tc r) := keep61 (W13 m ρ c) r h
theorem K14_15 (r : Ref sig .tc) (h : r ∉ wr62) : W15 m ρ c (Proc.devRef .tc r) = W14 m ρ c (Proc.devRef .tc r) := keep62 (W14 m ρ c) r h
theorem K12_15 (r : Ref sig .tc) (h0 : r ∉ wr6) (h1 : r ∉ wr61) (h2 : r ∉ wr62) : W15 m ρ c (Proc.devRef .tc r) = W12 m ρ c (Proc.devRef .tc r) :=
  (K14_15 m ρ c r h2).trans ((K13_14 m ρ c r h1).trans (K12_13 m ρ c r h0))
theorem K16_17 (r : Ref sig .tc) (h : r ∉ wr7) : W17 m ρ c (Proc.devRef .tc r) = W16 m ρ c (Proc.devRef .tc r) := keep7 (W16 m ρ c) r h

/-! ## Before the first launch: the edges and their normaliser -/

theorem W1_v1 : W1 m ρ c (Proc.devRef .tc main_v1) = sE := s0_v1 (W0 m ρ c)
theorem W1_v3 : W1 m ρ c (Proc.devRef .tc main_v3) = dE := s0_v3 (W0 m ρ c)
theorem W1_v4 : W1 m ρ c (Proc.devRef .tc main_v4) = GcnLayers.ones := s0_v4 (W0 m ρ c)
theorem W1_v9 : W1 m ρ c (Proc.devRef .tc main_v9) = cmpf .ogt (GcnLayers.deg dE) GcnLayers.zeros := s0_v9 (W0 m ρ c)
theorem W1_v10 : W1 m ρ c (Proc.devRef .tc main_v10) = Host.rsqrt (F := Ideal) (GcnLayers.deg dE) := s0_v10 (W0 m ρ c)
theorem W1_cst2 : W1 m ρ c (Proc.devRef .tc main_cst_2) = constant (F := Ideal) Cert.ReferenceIdeal.S_ .f32 0x00000000#32 := s0_cst2 (W0 m ρ c)

theorem W2_v11 : W2 m ρ c (Proc.devRef .tc main_v11) = GcnLayers.dinv dE := by
  refine (s01_v11 (W1 m ρ c)).trans ?_
  rw [W1_v9 m ρ c, W1_v10 m ρ c, W1_cst2 m ρ c]
  rfl
theorem W2_v1 : W2 m ρ c (Proc.devRef .tc main_v1) = sE := (K1_2 m ρ c main_v1 (by decide)).trans (W1_v1 m ρ c)
theorem W2_v3 : W2 m ρ c (Proc.devRef .tc main_v3) = dE := (K1_2 m ρ c main_v3 (by decide)).trans (W1_v3 m ρ c)
theorem W2_v4 : W2 m ρ c (Proc.devRef .tc main_v4) = GcnLayers.ones := (K1_2 m ρ c main_v4 (by decide)).trans (W1_v4 m ρ c)

theorem W3_v27 : W3 m ρ c (Proc.devRef .tc main_v27) = nE := by
  refine (s02_v27 (W2 m ρ c)).trans ?_
  rw [W2_v11 m ρ c, W2_v1 m ρ c, W2_v3 m ρ c, W2_v4 m ρ c]
  rfl
theorem W3_v1 : W3 m ρ c (Proc.devRef .tc main_v1) = sE := (K2_3 m ρ c main_v1 (by decide)).trans (W2_v1 m ρ c)
theorem W3_v3 : W3 m ρ c (Proc.devRef .tc main_v3) = dE := (K2_3 m ρ c main_v3 (by decide)).trans (W2_v3 m ρ c)

/-- An argument read at any boundary holds its launch contents. -/
theorem W3_arg0 : W3 m ρ c (Proc.devRef .tc main_arg0) = a0 := ((K0_3 m ρ c main_arg0 (by decide) (by decide) (by decide))).trans rfl
theorem W3_arg2 : W3 m ρ c (Proc.devRef .tc main_arg2) = a2 := ((K0_3 m ρ c main_arg2 (by decide) (by decide) (by decide))).trans rfl
theorem W6_arg3 : W6 m ρ c (Proc.devRef .tc main_arg3) = a3 := ((W6_of_ne m ρ c main_arg3 (by decide)).trans ((K4_5 m ρ c main_arg3 (by decide)).trans ((W4_of_ne m ρ c main_arg3 (by decide)).trans ((K0_3 m ρ c main_arg3 (by decide) (by decide) (by decide)))))).trans rfl
theorem W9_arg4 : W9 m ρ c (Proc.devRef .tc main_arg4) = a4 := ((W9_of_ne m ρ c main_arg4 (by decide)).trans ((K7_8 m ρ c main_arg4 (by decide)).trans ((W7_of_ne m ρ c main_arg4 (by decide)).trans ((W6_of_ne m ρ c main_arg4 (by decide)).trans ((K4_5 m ρ c main_arg4 (by decide)).trans ((W4_of_ne m ρ c main_arg4 (by decide)).trans ((K0_3 m ρ c main_arg4 (by decide) (by decide) (by decide))))))))).trans rfl
theorem W15_arg5 : W15 m ρ c (Proc.devRef .tc main_arg5) = a5 := ((K12_15 m ρ c main_arg5 (by decide) (by decide) (by decide)).trans ((W12_of_ne m ρ c main_arg5 (by decide)).trans ((K10_11 m ρ c main_arg5 (by decide)).trans ((W10_of_ne m ρ c main_arg5 (by decide)).trans ((W9_of_ne m ρ c main_arg5 (by decide)).trans ((K7_8 m ρ c main_arg5 (by decide)).trans ((W7_of_ne m ρ c main_arg5 (by decide)).trans ((W6_of_ne m ρ c main_arg5 (by decide)).trans ((K4_5 m ρ c main_arg5 (by decide)).trans ((W4_of_ne m ρ c main_arg5 (by decide)).trans ((K0_3 m ρ c main_arg5 (by decide) (by decide) (by decide))))))))))))).trans rfl
theorem W4_arg6 : W4 m ρ c (Proc.devRef .tc main_arg6) = a6 := ((W4_of_ne m ρ c main_arg6 (by decide)).trans ((K0_3 m ρ c main_arg6 (by decide) (by decide) (by decide)))).trans rfl
theorem W7_arg7 : W7 m ρ c (Proc.devRef .tc main_arg7) = a7 := ((W7_of_ne m ρ c main_arg7 (by decide)).trans ((W6_of_ne m ρ c main_arg7 (by decide)).trans ((K4_5 m ρ c main_arg7 (by decide)).trans ((W4_of_ne m ρ c main_arg7 (by decide)).trans ((K0_3 m ρ c main_arg7 (by decide) (by decide) (by decide))))))).trans rfl
theorem W10_arg8 : W10 m ρ c (Proc.devRef .tc main_arg8) = a8 := ((W10_of_ne m ρ c main_arg8 (by decide)).trans ((W9_of_ne m ρ c main_arg8 (by decide)).trans ((K7_8 m ρ c main_arg8 (by decide)).trans ((W7_of_ne m ρ c main_arg8 (by decide)).trans ((W6_of_ne m ρ c main_arg8 (by decide)).trans ((K4_5 m ρ c main_arg8 (by decide)).trans ((W4_of_ne m ρ c main_arg8 (by decide)).trans ((K0_3 m ρ c main_arg8 (by decide) (by decide) (by decide)))))))))).trans rfl
theorem W16_arg9 : W16 m ρ c (Proc.devRef .tc main_arg9) = a9 := ((W16_of_ne m ρ c main_arg9 (by decide)).trans ((K12_15 m ρ c main_arg9 (by decide) (by decide) (by decide)).trans ((W12_of_ne m ρ c main_arg9 (by decide)).trans ((K10_11 m ρ c main_arg9 (by decide)).trans ((W10_of_ne m ρ c main_arg9 (by decide)).trans ((W9_of_ne m ρ c main_arg9 (by decide)).trans ((K7_8 m ρ c main_arg9 (by decide)).trans ((W7_of_ne m ρ c main_arg9 (by decide)).trans ((W6_of_ne m ρ c main_arg9 (by decide)).trans ((K4_5 m ρ c main_arg9 (by decide)).trans ((W4_of_ne m ρ c main_arg9 (by decide)).trans ((K0_3 m ρ c main_arg9 (by decide) (by decide) (by decide)))))))))))))).trans rfl

/-- The edge buffers, read later. -/
theorem W4_v1 : W4 m ρ c (Proc.devRef .tc main_v1) = sE := ((W4_of_ne m ρ c main_v1 (by decide))).trans (W3_v1 m ρ c)
theorem W4_v3 : W4 m ρ c (Proc.devRef .tc main_v3) = dE := ((W4_of_ne m ρ c main_v3 (by decide))).trans (W3_v3 m ρ c)
theorem W7_v1 : W7 m ρ c (Proc.devRef .tc main_v1) = sE := ((W7_of_ne m ρ c main_v1 (by decide)).trans ((W6_of_ne m ρ c main_v1 (by decide)).trans ((K4_5 m ρ c main_v1 (by decide)).trans ((W4_of_ne m ρ c main_v1 (by decide)))))).trans (W3_v1 m ρ c)
theorem W7_v3 : W7 m ρ c (Proc.devRef .tc main_v3) = dE := ((W7_of_ne m ρ c main_v3 (by decide)).trans ((W6_of_ne m ρ c main_v3 (by decide)).trans ((K4_5 m ρ c main_v3 (by decide)).trans ((W4_of_ne m ρ c main_v3 (by decide)))))).trans (W3_v3 m ρ c)
theorem W10_v1 : W10 m ρ c (Proc.devRef .tc main_v1) = sE := ((W10_of_ne m ρ c main_v1 (by decide)).trans ((W9_of_ne m ρ c main_v1 (by decide)).trans ((K7_8 m ρ c main_v1 (by decide)).trans ((W7_of_ne m ρ c main_v1 (by decide)).trans ((W6_of_ne m ρ c main_v1 (by decide)).trans ((K4_5 m ρ c main_v1 (by decide)).trans ((W4_of_ne m ρ c main_v1 (by decide))))))))).trans (W3_v1 m ρ c)
theorem W10_v3 : W10 m ρ c (Proc.devRef .tc main_v3) = dE := ((W10_of_ne m ρ c main_v3 (by decide)).trans ((W9_of_ne m ρ c main_v3 (by decide)).trans ((K7_8 m ρ c main_v3 (by decide)).trans ((W7_of_ne m ρ c main_v3 (by decide)).trans ((W6_of_ne m ρ c main_v3 (by decide)).trans ((K4_5 m ρ c main_v3 (by decide)).trans ((W4_of_ne m ρ c main_v3 (by decide))))))))).trans (W3_v3 m ρ c)
theorem W12_v1 : W12 m ρ c (Proc.devRef .tc main_v1) = sE := ((W12_of_ne m ρ c main_v1 (by decide)).trans ((K10_11 m ρ c main_v1 (by decide)).trans ((W10_of_ne m ρ c main_v1 (by decide)).trans ((W9_of_ne m ρ c main_v1 (by decide)).trans ((K7_8 m ρ c main_v1 (by decide)).trans ((W7_of_ne m ρ c main_v1 (by decide)).trans ((W6_of_ne m ρ c main_v1 (by decide)).trans ((K4_5 m ρ c main_v1 (by decide)).trans ((W4_of_ne m ρ c main_v1 (by decide))))))))))).trans (W3_v1 m ρ c)
theorem W12_v3 : W12 m ρ c (Proc.devRef .tc main_v3) = dE := ((W12_of_ne m ρ c main_v3 (by decide)).trans ((K10_11 m ρ c main_v3 (by decide)).trans ((W10_of_ne m ρ c main_v3 (by decide)).trans ((W9_of_ne m ρ c main_v3 (by decide)).trans ((K7_8 m ρ c main_v3 (by decide)).trans ((W7_of_ne m ρ c main_v3 (by decide)).trans ((W6_of_ne m ρ c main_v3 (by decide)).trans ((K4_5 m ρ c main_v3 (by decide)).trans ((W4_of_ne m ρ c main_v3 (by decide))))))))))).trans (W3_v3 m ρ c)
theorem W4_v27 : W4 m ρ c (Proc.devRef .tc main_v27) = nE := ((W4_of_ne m ρ c main_v27 (by decide))).trans (W3_v27 m ρ c)
theorem W7_v27 : W7 m ρ c (Proc.devRef .tc main_v27) = nE := ((W7_of_ne m ρ c main_v27 (by decide)).trans ((W6_of_ne m ρ c main_v27 (by decide)).trans ((K4_5 m ρ c main_v27 (by decide)).trans ((W4_of_ne m ρ c main_v27 (by decide)))))).trans (W3_v27 m ρ c)
theorem W10_v27 : W10 m ρ c (Proc.devRef .tc main_v27) = nE := ((W10_of_ne m ρ c main_v27 (by decide)).trans ((W9_of_ne m ρ c main_v27 (by decide)).trans ((K7_8 m ρ c main_v27 (by decide)).trans ((W7_of_ne m ρ c main_v27 (by decide)).trans ((W6_of_ne m ρ c main_v27 (by decide)).trans ((K4_5 m ρ c main_v27 (by decide)).trans ((W4_of_ne m ρ c main_v27 (by decide))))))))).trans (W3_v27 m ρ c)

/-! ## The first hidden layer -/

theorem W4_h : W4 m ρ c (Proc.devRef .tc main_v28) = GcnLayers.dense a0 a2 := by
  refine (W4_arr m ρ c 2).trans ?_
  rw [RegionVal.lin0_arr (V3 m ρ) c]
  have e0 : V3 m ρ c (Pipeline.arrRef spec0 0) = _ := W3_arg0 m ρ c
  have e1 : V3 m ρ c (Pipeline.arrRef spec0 1) = _ := W3_arg2 m ρ c
  rw [e0, e1]
  exact GcnBridge.matProd_eq_dense _ _

theorem W5_out : W5 m ρ c (Proc.devRef .tc main_v44) = o1 := by
  refine (s1_out (W4 m ρ c)).trans ?_
  rw [W4_h m ρ c, W4_v1 m ρ c, W4_v3 m ρ c, W4_v27 m ρ c, W4_arg6 m ρ c]
theorem W5_mean : W5 m ρ c (Proc.devRef .tc main_v48) = GcnBridge.Ker.mean o1 := by
  refine (s1_mean (W4 m ρ c)).trans ?_
  rw [W4_h m ρ c, W4_v1 m ρ c, W4_v3 m ρ c, W4_v27 m ρ c, W4_arg6 m ρ c]
theorem W5_scale : W5 m ρ c (Proc.devRef .tc main_v58) = GcnBridge.Ker.scale o1 := by
  refine (s1_scale (W4 m ρ c)).trans ?_
  rw [W4_h m ρ c, W4_v1 m ρ c, W4_v3 m ρ c, W4_v27 m ρ c, W4_arg6 m ρ c]

theorem W6_x : W6 m ρ c (Proc.devRef .tc main_v59) = x1 := by
  refine (W6_arr m ρ c 3).trans ?_
  rw [RegionVal.pn1_arr (V5 m ρ) c]
  have e0 : V5 m ρ c (Pipeline.arrRef spec1 0) = _ := W5_out m ρ c
  have e1 : V5 m ρ c (Pipeline.arrRef spec1 1) = _ := W5_mean m ρ c
  have e2 : V5 m ρ c (Pipeline.arrRef spec1 2) = _ := W5_scale m ρ c
  rw [e0, e1, e2]
  exact GcnBridge.centreScaleClamp_eq _

/-! ## The second hidden layer -/

theorem W7_h : W7 m ρ c (Proc.devRef .tc main_v60) = GcnLayers.dense x1 a3 := by
  refine (W7_arr m ρ c 2).trans ?_
  rw [RegionVal.lin2_arr (V6 m ρ) c]
  have e0 : V6 m ρ c (Pipeline.arrRef spec2 0) = _ := W6_x m ρ c
  have e1 : V6 m ρ c (Pipeline.arrRef spec2 1) = _ := W6_arg3 m ρ c
  rw [e0, e1]
  exact GcnBridge.matProd_eq_dense _ _

theorem W8_out : W8 m ρ c (Proc.devRef .tc main_v76) = o2 := by
  refine (s3_out (W7 m ρ c)).trans ?_
  rw [W7_h m ρ c, W7_v1 m ρ c, W7_v3 m ρ c, W7_v27 m ρ c, W7_arg7 m ρ c]
theorem W8_mean : W8 m ρ c (Proc.devRef .tc main_v80) = GcnBridge.Ker.mean o2 := by
  refine (s3_mean (W7 m ρ c)).trans ?_
  rw [W7_h m ρ c, W7_v1 m ρ c, W7_v3 m ρ c, W7_v27 m ρ c, W7_arg7 m ρ c]
theorem W8_scale : W8 m ρ c (Proc.devRef .tc main_v90) = GcnBridge.Ker.scale o2 := by
  refine (s3_scale (W7 m ρ c)).trans ?_
  rw [W7_h m ρ c, W7_v1 m ρ c, W7_v3 m ρ c, W7_v27 m ρ c, W7_arg7 m ρ c]

theorem W9_x : W9 m ρ c (Proc.devRef .tc main_v91) = x2 := by
  refine (W9_arr m ρ c 3).trans ?_
  rw [RegionVal.pn3_arr (V8 m ρ) c]
  have e0 : V8 m ρ c (Pipeline.arrRef spec3 0) = _ := W8_out m ρ c
  have e1 : V8 m ρ c (Pipeline.arrRef spec3 1) = _ := W8_mean m ρ c
  have e2 : V8 m ρ c (Pipeline.arrRef spec3 2) = _ := W8_scale m ρ c
  rw [e0, e1, e2]
  exact GcnBridge.centreScaleClamp_eq _

/-! ## The third hidden layer -/

theorem W10_h : W10 m ρ c (Proc.devRef .tc main_v92) = GcnLayers.dense x2 a4 := by
  refine (W10_arr m ρ c 2).trans ?_
  rw [RegionVal.lin4_arr (V9 m ρ) c]
  have e0 : V9 m ρ c (Pipeline.arrRef spec4 0) = _ := W9_x m ρ c
  have e1 : V9 m ρ c (Pipeline.arrRef spec4 1) = _ := W9_arg4 m ρ c
  rw [e0, e1]
  exact GcnBridge.matProd_eq_dense _ _

theorem W11_out : W11 m ρ c (Proc.devRef .tc main_v108) = o3 := by
  refine (s5_out (W10 m ρ c)).trans ?_
  rw [W10_h m ρ c, W10_v1 m ρ c, W10_v3 m ρ c, W10_v27 m ρ c, W10_arg8 m ρ c]
theorem W11_mean : W11 m ρ c (Proc.devRef .tc main_v112) = GcnBridge.Ker.mean o3 := by
  refine (s5_mean (W10 m ρ c)).trans ?_
  rw [W10_h m ρ c, W10_v1 m ρ c, W10_v3 m ρ c, W10_v27 m ρ c, W10_arg8 m ρ c]
theorem W11_scale : W11 m ρ c (Proc.devRef .tc main_v122) = GcnBridge.Ker.scale o3 := by
  refine (s5_scale (W10 m ρ c)).trans ?_
  rw [W10_h m ρ c, W10_v1 m ρ c, W10_v3 m ρ c, W10_v27 m ρ c, W10_arg8 m ρ c]

theorem W12_x : W12 m ρ c (Proc.devRef .tc main_v123) = x3 := by
  refine (W12_arr m ρ c 3).trans ?_
  rw [RegionVal.pn5_arr (V11 m ρ) c]
  have e0 : V11 m ρ c (Pipeline.arrRef spec5 0) = _ := W11_out m ρ c
  have e1 : V11 m ρ c (Pipeline.arrRef spec5 1) = _ := W11_mean m ρ c
  have e2 : V11 m ρ c (Pipeline.arrRef spec5 2) = _ := W11_scale m ρ c
  rw [e0, e1, e2]
  exact GcnBridge.centreScaleClamp_eq _

/-! ## The last layer: self loops, their normaliser, the dense product, the convolution -/

theorem W13_v125 : W13 m ρ c (Proc.devRef .tc main_v125) = sL := (s6_v125 (W12 m ρ c)).trans (by rw [W12_v1 m ρ c])
theorem W13_v126 : W13 m ρ c (Proc.devRef .tc main_v126) = dL := (s6_v126 (W12 m ρ c)).trans (by rw [W12_v3 m ρ c])
theorem W13_v127 : W13 m ρ c (Proc.devRef .tc main_v127) = GcnLayers.onesL := s6_v127 (W12 m ρ c)
theorem W13_v132 : W13 m ρ c (Proc.devRef .tc main_v132) = cmpf .ogt (GcnLayers.degL dL) GcnLayers.zeros := (s6_v132 (W12 m ρ c)).trans (by rw [W12_v3 m ρ c])
theorem W13_v133 : W13 m ρ c (Proc.devRef .tc main_v133) = Host.rsqrt (F := Ideal) (GcnLayers.degL dL) := (s6_v133 (W12 m ρ c)).trans (by rw [W12_v3 m ρ c])
theorem W13_cst39 : W13 m ρ c (Proc.devRef .tc main_cst_39) = constant (F := Ideal) Cert.ReferenceIdeal.S_ .f32 0x00000000#32 := s6_cst39 (W12 m ρ c)

theorem W14_v134 : W14 m ρ c (Proc.devRef .tc main_v134) = GcnLayers.dinvL dL := by
  refine (s61_v134 (W13 m ρ c)).trans ?_
  rw [W13_v132 m ρ c, W13_v133 m ρ c, W13_cst39 m ρ c]
  rfl
theorem W14_v125 : W14 m ρ c (Proc.devRef .tc main_v125) = sL := (K13_14 m ρ c main_v125 (by decide)).trans (W13_v125 m ρ c)
theorem W14_v126 : W14 m ρ c (Proc.devRef .tc main_v126) = dL := (K13_14 m ρ c main_v126 (by decide)).trans (W13_v126 m ρ c)
theorem W14_v127 : W14 m ρ c (Proc.devRef .tc main_v127) = GcnLayers.onesL := (K13_14 m ρ c main_v127 (by decide)).trans (W13_v127 m ρ c)

theorem W15_v150 : W15 m ρ c (Proc.devRef .tc main_v150) = nL := by
  refine (s62_v150 (W14 m ρ c)).trans ?_
  rw [W14_v134 m ρ c, W14_v125 m ρ c, W14_v126 m ρ c, W14_v127 m ρ c]
  rfl
theorem W15_v125 : W15 m ρ c (Proc.devRef .tc main_v125) = sL := (K14_15 m ρ c main_v125 (by decide)).trans (W14_v125 m ρ c)
theorem W15_v126 : W15 m ρ c (Proc.devRef .tc main_v126) = dL := (K14_15 m ρ c main_v126 (by decide)).trans (W14_v126 m ρ c)
theorem W15_x : W15 m ρ c (Proc.devRef .tc main_v123) = x3 := (K12_15 m ρ c main_v123 (by decide) (by decide) (by decide)).trans (W12_x m ρ c)

theorem W16_h : W16 m ρ c (Proc.devRef .tc main_v151) = GcnLayers.denseL x3 a5 := by
  refine (W16_arr m ρ c 2).trans ?_
  rw [RegionVal.lin6_arr (V15 m ρ) c]
  have e0 : V15 m ρ c (Pipeline.arrRef spec6 0) = _ := W15_x m ρ c
  have e1 : V15 m ρ c (Pipeline.arrRef spec6 1) = _ := W15_arg5 m ρ c
  rw [e0, e1]
  exact GcnBridge.matProd_eq_denseL _ _

theorem W16_v125 : W16 m ρ c (Proc.devRef .tc main_v125) = sL := (W16_of_ne m ρ c main_v125 (by decide)).trans (W15_v125 m ρ c)
theorem W16_v126 : W16 m ρ c (Proc.devRef .tc main_v126) = dL := (W16_of_ne m ρ c main_v126 (by decide)).trans (W15_v126 m ρ c)
theorem W16_v150 : W16 m ρ c (Proc.devRef .tc main_v150) = nL := (W16_of_ne m ρ c main_v150 (by decide)).trans (W15_v150 m ρ c)

/-- The result buffer at the last boundary is the network's value at the launch contents of the arguments. -/
theorem result : W17 m ρ c (Proc.devRef .tc main_v167) = GcnLayers.gcn a0 a1 a2 a3 a4 a5 a6 a7 a8 a9 := by
  refine (s7_v167 (W16 m ρ c)).trans ?_
  rw [W16_h m ρ c, W16_v125 m ρ c, W16_v126 m ρ c, W16_v150 m ρ c, W16_arg9 m ρ c]
  rfl

end Cert.KernelIdeal.ChainVal

end
-- ==== Proof.RefChunks.lean ====
/-
  The reference program is a straight line of 288 host operations, each writing one buffer that no other operation
  writes.  Read in stretches, the line is the graph convolution network of GcnLayers, piece by piece:

  * operations 0–37 cut the source and destination indices out of the edge array and compute the edge factors
    (the in-degree of every node as a sum of ones scattered onto the destinations, its reciprocal square root where
    positive and zero elsewhere, and per edge the product of that node factor at the two ends);
  * then, three times over: one dense product, one convolution (gather at the sources, scale by the edge factors, add
    up at the destinations, add the bias), the centring and scaling of the columns, the clamp at zero, and the edge
    factors computed afresh for the next layer;
  * last, the self loops are appended to the edges, the edge factors are computed over the 1700000 extended edges, and
    one more dense product and convolution give the 40 output columns.

  This module states, for each stretch and each buffer the rest of the line reads, what the stretch leaves in that
  buffer as a function of what it finds in its input buffers (the contents before the stretch are a variable), and
  that a stretch leaves every buffer it does not write as it found it.  A prefix of the line run from given contents is
  its first part run and then the remainder of the prefix, so these facts chain.
-/
import proofs.«163474_j52115133170062_1_alg».proof.Proof.RefOps
import proofs.«163474_j52115133170062_1_alg».proof.Proof.GcnLayers

set_option maxRecDepth 16384

noncomputable section

namespace Cert.ReferenceIdeal.RunVal

open Cert.ReferenceIdeal Cert.ReferenceIdeal.Gen Cert.ReferenceIdeal.RunOps
open Idealize.ShloMosaic Idealize.ShloMosaic.TcCoe Idealize.ShloMosaic.StableHlo Idealize.SL.Sem

/-! ## Prefixes, and buffers a stretch does not write -/

/-- A prefix of a line, run, is its first part run and then the rest of the prefix. -/
theorem after_take_add (V : Valuation τ sig (Elt Ideal)) (l : List (HloOp τ sig (Elt Ideal))) (k j : Nat) :
    after (l.take (k + j)) V = after ((l.drop k).take j) (after (l.take k) V) := by
  rw [List.take_add, after_append]

/-- A line whose operations write, one each and in order, the buffers of a list of references leaves the buffer of
    any reference outside the list as it was. -/
theorem after_of_forall₂_writes : ∀ {l : List (HloOp τ sig (Elt Ideal))} {ws : List (Ref sig .tc)},
    List.Forall₂ (fun op w => op.writes = {Proc.devRef (τ := τ) .tc w}) l ws →
    ∀ (V : Valuation τ sig (Elt Ideal)) {r : Ref sig .tc}, r ∉ ws → after l V (Proc.devRef .tc r) = V (Proc.devRef .tc r)
  | _, _, .nil, _, _, _ => rfl
  | _, _, @List.Forall₂.cons _ _ _ op w _ _ hw h, V, r, hr => by
    rw [after_cons, after_of_forall₂_writes h _ (fun hm => hr (List.mem_cons_of_mem _ hm)),
      op.result_of_not_mem V (by
        rw [hw, Finset.mem_singleton]
        exact devRef_ne_of_ne fun e => hr (e ▸ List.mem_cons_self))]

/-- The buffer each of the 288 operations writes, in order. -/
noncomputable def written : List (Ref sig .tc) :=
  [
    main_v0, main_v1, main_v2, main_v3, main_cst, main_v4, main_cst_0, main_v5,
    main_v6, main_v7, main_cst_1, main_v8, main_v9, main_v10, main_cst_2, main_call0_v0,
    main_call0_v1, main_v11, main_c, main_v12, main_v13, main_c_3, main_v14, main_v15,
    main_v16, main_v17, main_v18, main_v19, main_c_4, main_v20, main_v21, main_c_5,
    main_v22, main_v23, main_v24, main_v25, main_v26, main_v27, main_v28, main_c_6,
    main_v29, main_v30, main_c_7, main_v31, main_v32, main_v33, main_v34, main_v35,
    main_v36, main_v37, main_v38, main_cst_8, main_v39, main_v40, main_v41, main_v42,
    main_v43, main_v44, main_cst_9, main_v45, main_cst_10, main_v46, main_v47, main_v48,
    main_v49, main_v50, main_v51, main_cst_11, main_v52, main_cst_12, main_v53, main_cst_13,
    main_v54, main_cst_14, main_v55, main_v56, main_v57, main_v58, main_call1_cst, main_call1_v0,
    main_v59, main_cst_15, main_v60, main_v61, main_v62, main_cst_16, main_v63, main_v64,
    main_v65, main_cst_17, main_call2_v0, main_call2_v1, main_v66, main_c_18, main_v67, main_v68,
    main_c_19, main_v69, main_v70, main_v71, main_v72, main_v73, main_v74, main_c_20,
    main_v75, main_v76, main_c_21, main_v77, main_v78, main_v79, main_v80, main_v81,
    main_v82, main_v83, main_c_22, main_v84, main_v85, main_c_23, main_v86, main_v87,
    main_v88, main_v89, main_v90, main_v91, main_v92, main_v93, main_cst_24, main_v94,
    main_v95, main_v96, main_v97, main_v98, main_v99, main_cst_25, main_v100, main_cst_26,
    main_v101, main_v102, main_v103, main_v104, main_v105, main_v106, main_cst_27, main_v107,
    main_cst_28, main_v108, main_cst_29, main_v109, main_cst_30, main_v110, main_v111, main_v112,
    main_v113, main_call3_cst, main_call3_v0, main_v114, main_cst_31, main_v115, main_v116, main_v117,
    main_cst_32, main_v118, main_v119, main_v120, main_cst_33, main_call4_v0, main_call4_v1, main_v121,
    main_c_34, main_v122, main_v123, main_c_35, main_v124, main_v125, main_v126, main_v127,
    main_v128, main_v129, main_c_36, main_v130, main_v131, main_c_37, main_v132, main_v133,
    main_v134, main_v135, main_v136, main_v137, main_v138, main_c_38, main_v139, main_v140,
    main_c_39, main_v141, main_v142, main_v143, main_v144, main_v145, main_v146, main_v147,
    main_v148, main_cst_40, main_v149, main_v150, main_v151, main_v152, main_v153, main_v154,
    main_cst_41, main_v155, main_cst_42, main_v156, main_v157, main_v158, main_v159, main_v160,
    main_v161, main_cst_43, main_v162, main_cst_44, main_v163, main_cst_45, main_v164, main_cst_46,
    main_v165, main_v166, main_v167, main_v168, main_call5_cst, main_call5_v0, main_v169, main_v170,
    main_v171, main_v172, main_cst_47, main_v173, main_cst_48, main_v174, main_v175, main_v176,
    main_cst_49, main_v177, main_v178, main_v179, main_cst_50, main_call6_v0, main_call6_v1, main_v180,
    main_c_51, main_v181, main_v182, main_c_52, main_v183, main_v184, main_v185, main_v186,
    main_v187, main_v188, main_c_53, main_v189, main_v190, main_c_54, main_v191, main_v192,
    main_v193, main_v194, main_v195, main_v196, main_v197, main_c_55, main_v198, main_v199,
    main_c_56, main_v200, main_v201, main_v202, main_v203, main_v204, main_v205, main_v206,
    main_v207, main_cst_57, main_v208, main_v209, main_v210, main_v211, main_v212, main_v213 ]

/-- Operation number n writes exactly the n-th buffer of that list. -/
theorem ops_written : List.Forall₂ (fun op w => op.writes = {Proc.devRef (τ := τ) .tc w}) (ops (F := Ideal)) written := by
  unfold written
  repeat (first | exact List.Forall₂.nil | refine List.Forall₂.cons rfl ?_)

/-- The stretch of j operations from position k leaves every buffer it does not write. -/
theorem keep (V : Valuation τ sig (Elt Ideal)) (k j : Nat) {r : Ref sig .tc} (hr : r ∉ (written.drop k).take j) :
    after (((ops (F := Ideal)).drop k).take j) V (Proc.devRef .tc r) = V (Proc.devRef .tc r) :=
  after_of_forall₂_writes (List.forall₂_take j (List.forall₂_drop k ops_written)) V hr

/-- The in-degree count with the vector of ones read from a buffer: one scattered onto each edge's destination. -/
def degWith (d : GcnLayers.I S1600000) (w : GcnLayers.R S1600000) : GcnLayers.R S100000 :=
  Host.scatterAdd scatter_S100000_S1600000x1_S1600000_n_0_0_1 GcnLayers.zeros
    (broadcastInDim S1600000x1 ![0] Facts₀.bcast_S1600000_S1600000x1_0 d) w

theorem degWith_ones (d : GcnLayers.I S1600000) : degWith d GcnLayers.ones = GcnLayers.deg d := rfl

/-! ## What each stretch computes -/

variable (V : Valuation τ sig (Elt Ideal))

/-- Operations 0–3 cut the two rows out of the edge array: the first row, as a vector, is the source indices. -/
theorem src_v1 : after (((ops (F := Ideal)).drop 0).take 4) V (Proc.devRef .tc main_v1)
    = GcnLayers.src (V (Proc.devRef .tc main_arg1)) := by
  simp only [ops, List.drop_succ_cons, List.drop_zero, List.take_succ_cons, List.take_zero]
  after_results_simp
  rfl

/-- … and the second row is the destination indices. -/
theorem dst_v3 : after (((ops (F := Ideal)).drop 0).take 4) V (Proc.devRef .tc main_v3)
    = GcnLayers.dst (V (Proc.devRef .tc main_arg1)) := by
  simp only [ops, List.drop_succ_cons, List.drop_zero, List.take_succ_cons, List.take_zero]
  after_results_simp
  rfl

/-- Operations 4–14 count the edges arriving at each node: first the vector of ones, one per edge. -/
theorem ones_v4 : after (((ops (F := Ideal)).drop 4).take 11) V (Proc.devRef .tc main_v4)
    = GcnLayers.ones := by
  simp only [ops, List.drop_succ_cons, List.drop_zero, List.take_succ_cons, List.take_zero]
  after_results_simp
  rfl

/-- … the mask of the nodes whose degree is positive, -/
theorem mask_v9 : after (((ops (F := Ideal)).drop 4).take 11) V (Proc.devRef .tc main_v9)
    = cmpf .ogt (GcnLayers.deg (V (Proc.devRef .tc main_v3))) GcnLayers.zeros := by
  simp only [ops, List.drop_succ_cons, List.drop_zero, List.take_succ_cons, List.take_zero]
  after_results_simp
  rfl

/-- … the reciprocal square root of every degree, -/
theorem rsqrt_v10 : after (((ops (F := Ideal)).drop 4).take 11) V (Proc.devRef .tc main_v10)
    = Host.rsqrt (F := Ideal) (GcnLayers.deg (V (Proc.devRef .tc main_v3))) := by
  simp only [ops, List.drop_succ_cons, List.drop_zero, List.take_succ_cons, List.take_zero]
  after_results_simp
  rfl

/-- … and the number zero. -/
theorem zero_cst2 : after (((ops (F := Ideal)).drop 4).take 11) V (Proc.devRef .tc main_cst_2)
    = constant (F := Ideal) S_ .f32 0x00000000#32 := by
  simp only [ops, List.drop_succ_cons, List.drop_zero, List.take_succ_cons, List.take_zero]
  after_results_simp

/-- Operations 15–17 choose, per node, the reciprocal square root where the mask holds and zero elsewhere. -/
theorem where_v11 : after (((ops (F := Ideal)).drop 15).take 3) V (Proc.devRef .tc main_v11)
    = GcnLayers.whereSel (V (Proc.devRef .tc main_v9)) (V (Proc.devRef .tc main_v10)) (V (Proc.devRef .tc main_cst_2)) := by
  simp only [ops, List.drop_succ_cons, List.drop_zero, List.take_succ_cons, List.take_zero]
  after_results_simp
  rfl

/-- Operations 18–37 form, per edge, the product of the node factor at the source, the edge's weight and the node factor at the destination. -/
theorem edge_v27 : after (((ops (F := Ideal)).drop 18).take 20) V (Proc.devRef .tc main_v27)
    = GcnLayers.edgeNorm (V (Proc.devRef .tc main_v11)) (V (Proc.devRef .tc main_v1)) (V (Proc.devRef .tc main_v3)) (V (Proc.devRef .tc main_v4)) := by
  simp only [ops, List.drop_succ_cons, List.drop_zero, List.take_succ_cons, List.take_zero]
  after_results_simp
  rfl

/-- Operation 38 is the first layer's dense product. -/
theorem dense_v28 : after (((ops (F := Ideal)).drop 38).take 1) V (Proc.devRef .tc main_v28)
    = GcnLayers.dense (V (Proc.devRef .tc main_arg0)) (V (Proc.devRef .tc main_arg2)) := by
  simp only [ops, List.drop_succ_cons, List.drop_zero, List.take_succ_cons, List.take_zero]
  after_results_simp
  rfl

/-- Operations 39–57 are the first layer's convolution: gather at the sources, scale by the edge factors, add up at the destinations, add the bias row. -/
theorem conv_v44 : after (((ops (F := Ideal)).drop 39).take 19) V (Proc.devRef .tc main_v44)
    = GcnLayers.conv (V (Proc.devRef .tc main_v28)) (V (Proc.devRef .tc main_v1)) (V (Proc.devRef .tc main_v3)) (V (Proc.devRef .tc main_v27)) (V (Proc.devRef .tc main_arg6)) := by
  simp only [ops, List.drop_succ_cons, List.drop_zero, List.take_succ_cons, List.take_zero]
  after_results_simp
  rfl

/-- Operations 58–77 centre the columns and divide by the root mean squared row norm. -/
theorem scaled_v58 : after (((ops (F := Ideal)).drop 58).take 20) V (Proc.devRef .tc main_v58)
    = GcnBridge.Ref.scaled (V (Proc.devRef .tc main_v44)) := by
  simp only [ops, List.drop_succ_cons, List.drop_zero, List.take_succ_cons, List.take_zero]
  after_results_simp
  rfl

/-- Operations 78–80 clamp at zero. -/
theorem relu_v59 : after (((ops (F := Ideal)).drop 78).take 3) V (Proc.devRef .tc main_v59)
    = GcnBridge.Ref.reluOf (V (Proc.devRef .tc main_v58)) := by
  simp only [ops, List.drop_succ_cons, List.drop_zero, List.take_succ_cons, List.take_zero]
  after_results_simp
  rfl

/-- Operations 81–89 count the arriving edges again, from the vector of ones made at the start: the mask of positive degrees, -/
theorem mask_v64 : after (((ops (F := Ideal)).drop 81).take 9) V (Proc.devRef .tc main_v64)
    = cmpf .ogt (degWith (V (Proc.devRef .tc main_v3)) (V (Proc.devRef .tc main_v4))) GcnLayers.zeros := by
  simp only [ops, List.drop_succ_cons, List.drop_zero, List.take_succ_cons, List.take_zero]
  after_results_simp
  rfl

/-- … the reciprocal square roots, -/
theorem rsqrt_v65 : after (((ops (F := Ideal)).drop 81).take 9) V (Proc.devRef .tc main_v65)
    = Host.rsqrt (F := Ideal) (degWith (V (Proc.devRef .tc main_v3)) (V (Proc.devRef .tc main_v4))) := by
  simp only [ops, List.drop_succ_cons, List.drop_zero, List.take_succ_cons, List.take_zero]
  after_results_simp
  rfl

/-- … and the number zero. -/
theorem zero_cst17 : after (((ops (F := Ideal)).drop 81).take 9) V (Proc.devRef .tc main_cst_17)
    = constant (F := Ideal) S_ .f32 0x00000000#32 := by
  simp only [ops, List.drop_succ_cons, List.drop_zero, List.take_succ_cons, List.take_zero]
  after_results_simp

/-- Operations 90–92: the node factors of the second layer. -/
theorem where_v66 : after (((ops (F := Ideal)).drop 90).take 3) V (Proc.devRef .tc main_v66)
    = GcnLayers.whereSel (V (Proc.devRef .tc main_v64)) (V (Proc.devRef .tc main_v65)) (V (Proc.devRef .tc main_cst_17)) := by
  simp only [ops, List.drop_succ_cons, List.drop_zero, List.take_succ_cons, List.take_zero]
  after_results_simp
  rfl

/-- Operations 93–112: the edge factors of the second layer. -/
theorem edge_v82 : after (((ops (F := Ideal)).drop 93).take 20) V (Proc.devRef .tc main_v82)
    = GcnLayers.edgeNorm (V (Proc.devRef .tc main_v66)) (V (Proc.devRef .tc main_v1)) (V (Proc.devRef .tc main_v3)) (V (Proc.devRef .tc main_v4)) := by
  simp only [ops, List.drop_succ_cons, List.drop_zero, List.take_succ_cons, List.take_zero]
  after_results_simp
  rfl

/-- Operation 113 is the second layer's dense product. -/
theorem dense_v83 : after (((ops (F := Ideal)).drop 113).take 1) V (Proc.devRef .tc main_v83)
    = GcnLayers.dense (V (Proc.devRef .tc main_v59)) (V (Proc.devRef .tc main_arg3)) := by
  simp only [ops, List.drop_succ_cons, List.drop_zero, List.take_succ_cons, List.take_zero]
  after_results_simp
  rfl

/-- Operations 114–132 are the second layer's convolution. -/
theorem conv_v99 : after (((ops (F := Ideal)).drop 114).take 19) V (Proc.devRef .tc main_v99)
    = GcnLayers.conv (V (Proc.devRef .tc main_v83)) (V (Proc.devRef .tc main_v1)) (V (Proc.devRef .tc main_v3)) (V (Proc.devRef .tc main_v82)) (V (Proc.devRef .tc main_arg7)) := by
  simp only [ops, List.drop_succ_cons, List.drop_zero, List.take_succ_cons, List.take_zero]
  after_results_simp
  rfl

/-- Operations 133–152 centre and scale the second layer's array. -/
theorem scaled_v113 : after (((ops (F := Ideal)).drop 133).take 20) V (Proc.devRef .tc main_v113)
    = GcnBridge.Ref.scaled (V (Proc.devRef .tc main_v99)) := by
  simp only [ops, List.drop_succ_cons, List.drop_zero, List.take_succ_cons, List.take_zero]
  after_results_simp
  rfl

/-- Operations 153–155 clamp it at zero. -/
theorem relu_v114 : after (((ops (F := Ideal)).drop 153).take 3) V (Proc.devRef .tc main_v114)
    = GcnBridge.Ref.reluOf (V (Proc.devRef .tc main_v113)) := by
  simp only [ops, List.drop_succ_cons, List.drop_zero, List.take_succ_cons, List.take_zero]
  after_results_simp
  rfl

/-- Operations 156–164 count the arriving edges a third time: the mask of positive degrees, -/
theorem mask_v119 : after (((ops (F := Ideal)).drop 156).take 9) V (Proc.devRef .tc main_v119)
    = cmpf .ogt (degWith (V (Proc.devRef .tc main_v3)) (V (Proc.devRef .tc main_v4))) GcnLayers.zeros := by
  simp only [ops, List.drop_succ_cons, List.drop_zero, List.take_succ_cons, List.take_zero]
  after_results_simp
  rfl

/-- … the reciprocal square roots, -/
theorem rsqrt_v120 : after (((ops (F := Ideal)).drop 156).take 9) V (Proc.devRef .tc main_v120)
    = Host.rsqrt (F := Ideal) (degWith (V (Proc.devRef .tc main_v3)) (V (Proc.devRef .tc main_v4))) := by
  simp only [ops, List.drop_succ_cons, List.drop_zero, List.take_succ_cons, List.take_zero]
  after_results_simp
  rfl

/-- … and the number zero. -/
theorem zero_cst33 : after (((ops (F := Ideal)).drop 156).take 9) V (Proc.devRef .tc main_cst_33)
    = constant (F := Ideal) S_ .f32 0x00000000#32 := by
  simp only [ops, List.drop_succ_cons, List.drop_zero, List.take_succ_cons, List.take_zero]
  after_results_simp

/-- Operations 165–167: the node factors of the third layer. -/
theorem where_v121 : after (((ops (F := Ideal)).drop 165).take 3) V (Proc.devRef .tc main_v121)
    = GcnLayers.whereSel (V (Proc.devRef .tc main_v119)) (V (Proc.devRef .tc main_v120)) (V (Proc.devRef .tc main_cst_33)) := by
  simp only [ops, List.drop_succ_cons, List.drop_zero, List.take_succ_cons, List.take_zero]
  after_results_simp
  rfl

/-- Operations 168–187: the edge factors of the third layer. -/
theorem edge_v137 : after (((ops (F := Ideal)).drop 168).take 20) V (Proc.devRef .tc main_v137)
    = GcnLayers.edgeNorm (V (Proc.devRef .tc main_v121)) (V (Proc.devRef .tc main_v1)) (V (Proc.devRef .tc main_v3)) (V (Proc.devRef .tc main_v4)) := by
  simp only [ops, List.drop_succ_cons, List.drop_zero, List.take_succ_cons, List.take_zero]
  after_results_simp
  rfl

/-- Operation 188 is the third layer's dense product. -/
theorem dense_v138 : after (((ops (F := Ideal)).drop 188).take 1) V (Proc.devRef .tc main_v138)
    = GcnLayers.dense (V (Proc.devRef .tc main_v114)) (V (Proc.devRef .tc main_arg4)) := by
  simp only [ops, List.drop_succ_cons, List.drop_zero, List.take_succ_cons, List.take_zero]
  after_results_simp
  rfl

/-- Operations 189–207 are the third layer's convolution. -/
theorem conv_v154 : after (((ops (F := Ideal)).drop 189).take 19) V (Proc.devRef .tc main_v154)
    = GcnLayers.conv (V (Proc.devRef .tc main_v138)) (V (Proc.devRef .tc main_v1)) (V (Proc.devRef .tc main_v3)) (V (Proc.devRef .tc main_v137)) (V (Proc.devRef .tc main_arg8)) := by
  simp only [ops, List.drop_succ_cons, List.drop_zero, List.take_succ_cons, List.take_zero]
  after_results_simp
  rfl

/-- Operations 208–227 centre and scale the third layer's array. -/
theorem scaled_v168 : after (((ops (F := Ideal)).drop 208).take 20) V (Proc.devRef .tc main_v168)
    = GcnBridge.Ref.scaled (V (Proc.devRef .tc main_v154)) := by
  simp only [ops, List.drop_succ_cons, List.drop_zero, List.take_succ_cons, List.take_zero]
  after_results_simp
  rfl

/-- Operations 228–230 clamp it at zero. -/
theorem relu_v169 : after (((ops (F := Ideal)).drop 228).take 3) V (Proc.devRef .tc main_v169)
    = GcnBridge.Ref.reluOf (V (Proc.devRef .tc main_v168)) := by
  simp only [ops, List.drop_succ_cons, List.drop_zero, List.take_succ_cons, List.take_zero]
  after_results_simp
  rfl

/-- Operations 231–233 append the node numbers to the source indices: a self loop at every node, -/
theorem srcL_v171 : after (((ops (F := Ideal)).drop 231).take 3) V (Proc.devRef .tc main_v171)
    = GcnLayers.srcL (V (Proc.devRef .tc main_v1)) := by
  simp only [ops, List.drop_succ_cons, List.drop_zero, List.take_succ_cons, List.take_zero]
  after_results_simp
  rfl

/-- … and to the destination indices. -/
theorem srcL_v172 : after (((ops (F := Ideal)).drop 231).take 3) V (Proc.devRef .tc main_v172)
    = GcnLayers.srcL (V (Proc.devRef .tc main_v3)) := by
  simp only [ops, List.drop_succ_cons, List.drop_zero, List.take_succ_cons, List.take_zero]
  after_results_simp
  rfl

/-- Operations 234–244 count the arriving edges over the extended edge list: the vector of ones, -/
theorem onesL_v173 : after (((ops (F := Ideal)).drop 234).take 11) V (Proc.devRef .tc main_v173)
    = GcnLayers.onesL := by
  simp only [ops, List.drop_succ_cons, List.drop_zero, List.take_succ_cons, List.take_zero]
  after_results_simp
  rfl

/-- … the mask of positive degrees, -/
theorem mask_v178 : after (((ops (F := Ideal)).drop 234).take 11) V (Proc.devRef .tc main_v178)
    = cmpf .ogt (GcnLayers.degL (V (Proc.devRef .tc main_v172))) GcnLayers.zeros := by
  simp only [ops, List.drop_succ_cons, List.drop_zero, List.take_succ_cons, List.take_zero]
  after_results_simp
  rfl

/-- … the reciprocal square roots, -/
theorem rsqrt_v179 : after (((ops (F := Ideal)).drop 234).take 11) V (Proc.devRef .tc main_v179)
    = Host.rsqrt (F := Ideal) (GcnLayers.degL (V (Proc.devRef .tc main_v172))) := by
  simp only [ops, List.drop_succ_cons, List.drop_zero, List.take_succ_cons, List.take_zero]
  after_results_simp
  rfl

/-- … and the number zero. -/
theorem zero_cst50 : after (((ops (F := Ideal)).drop 234).take 11) V (Proc.devRef .tc main_cst_50)
    = constant (F := Ideal) S_ .f32 0x00000000#32 := by
  simp only [ops, List.drop_succ_cons, List.drop_zero, List.take_succ_cons, List.take_zero]
  after_results_simp

/-- Operations 245–247: the node factors of the last layer. -/
theorem where_v180 : after (((ops (F := Ideal)).drop 245).take 3) V (Proc.devRef .tc main_v180)
    = GcnLayers.whereSel (V (Proc.devRef .tc main_v178)) (V (Proc.devRef .tc main_v179)) (V (Proc.devRef .tc main_cst_50)) := by
  simp only [ops, List.drop_succ_cons, List.drop_zero, List.take_succ_cons, List.take_zero]
  after_results_simp
  rfl

/-- Operations 248–267: the edge factors of the last layer. -/
theorem edge_v196 : after (((ops (F := Ideal)).drop 248).take 20) V (Proc.devRef .tc main_v196)
    = GcnLayers.edgeNormL (V (Proc.devRef .tc main_v180)) (V (Proc.devRef .tc main_v171)) (V (Proc.devRef .tc main_v172)) (V (Proc.devRef .tc main_v173)) := by
  simp only [ops, List.drop_succ_cons, List.drop_zero, List.take_succ_cons, List.take_zero]
  after_results_simp
  rfl

/-- Operation 268 is the last layer's dense product, into 40 columns. -/
theorem dense_v197 : after (((ops (F := Ideal)).drop 268).take 1) V (Proc.devRef .tc main_v197)
    = GcnLayers.denseL (V (Proc.devRef .tc main_v169)) (V (Proc.devRef .tc main_arg5)) := by
  simp only [ops, List.drop_succ_cons, List.drop_zero, List.take_succ_cons, List.take_zero]
  after_results_simp
  rfl

/-- Operations 269–287 are the last layer's convolution over the extended edge list. -/
theorem conv_v213 : after (((ops (F := Ideal)).drop 269).take 19) V (Proc.devRef .tc main_v213)
    = GcnLayers.convL (V (Proc.devRef .tc main_v197)) (V (Proc.devRef .tc main_v171)) (V (Proc.devRef .tc main_v172)) (V (Proc.devRef .tc main_v196)) (V (Proc.devRef .tc main_arg9)) := by
  simp only [ops, List.drop_succ_cons, List.drop_zero, List.take_succ_cons, List.take_zero]
  after_results_simp
  rfl

end Cert.ReferenceIdeal.RunVal

end
-- ==== Proof.RefRun.lean ====
/-
  The reference program's run, with its result named by the network of GcnLayers.

  The line of 288 operations writes each buffer once.  Following it from the launch contents, stretch by stretch:
  the source and destination indices are the two rows of the edge array and stay in place to the end; each of the
  three hidden layers recomputes the same edge factors (from the destination indices and the vector of ones) and
  turns the previous layer's array h into  clamp (scale (centre (conv (h · W) …)));  the last layer appends the self
  loops and convolves once more.  Every stretch reads buffers that earlier stretches wrote and that nothing in between
  writes, so what it reads is what those stretches computed; composing the stretches gives  gcn  of the ten argument
  arrays, and no operation writes an argument's buffer.
-/
import proofs.«163474_j52115133170062_1_alg».proof.Proof.RefChunks

set_option maxRecDepth 16384

noncomputable section

namespace Cert.ReferenceIdeal.RunVal

open Cert.ReferenceIdeal Cert.ReferenceIdeal.Gen Cert.ReferenceIdeal.RunOps
open Idealize.ShloMosaic Idealize.ShloMosaic.TcCoe Idealize.ShloMosaic.StableHlo Idealize.SL.Sem

variable (V0 : Valuation τ sig (Elt Ideal))

/-! ## The contents after a prefix of the line -/

/-- The buffers' contents after the first k operations, from the contents V0. -/
def upTo (k : Nat) : Valuation τ sig (Elt Ideal) := after ((ops (F := Ideal)).take k) V0

/-- Running j more operations from position k. -/
theorem upTo_add (k j : Nat) (b : DevRef τ sig) :
    upTo V0 (k + j) b = after (((ops (F := Ideal)).drop k).take j) (upTo V0 k) b :=
  congrFun (after_take_add V0 ops k j) b

/-- A buffer that operations k … k' − 1 do not write holds after k' operations what it held after k. -/
theorem kept (k k' : Nat) (hk : k ≤ k') {r : Ref sig .tc} (hr : r ∉ (written.drop k).take (k' - k)) :
    upTo V0 k' (Proc.devRef .tc r) = upTo V0 k (Proc.devRef .tc r) := by
  obtain ⟨j, rfl⟩ := Nat.exists_eq_add_of_le hk
  rw [Nat.add_sub_cancel_left] at hr
  exact (upTo_add V0 k j _).trans (keep (upTo V0 k) k j hr)

/-- A buffer none of the first k operations writes holds its first contents. -/
theorem arg_at (k : Nat) {r : Ref sig .tc} (hr : r ∉ (written.drop 0).take (k - 0)) :
    upTo V0 k (Proc.devRef .tc r) = V0 (Proc.devRef .tc r) :=
  kept V0 0 k (Nat.zero_le k) hr

/-- The ten argument arrays as the line finds them: the node features, the edge array, the four weight arrays and
    the four bias rows. -/
abbrev argX := V0 (Proc.devRef .tc main_arg0)
abbrev argE := V0 (Proc.devRef .tc main_arg1)
abbrev argW0 := V0 (Proc.devRef .tc main_arg2)
abbrev argW1 := V0 (Proc.devRef .tc main_arg3)
abbrev argW2 := V0 (Proc.devRef .tc main_arg4)
abbrev argW3 := V0 (Proc.devRef .tc main_arg5)
abbrev argB0 := V0 (Proc.devRef .tc main_arg6)
abbrev argB1 := V0 (Proc.devRef .tc main_arg7)
abbrev argB2 := V0 (Proc.devRef .tc main_arg8)
abbrev argB3 := V0 (Proc.devRef .tc main_arg9)

/-! ## The line, stretch by stretch -/

/-- After operation 3 the source indices are in place, -/
theorem src_at : upTo V0 4 (Proc.devRef .tc main_v1) = GcnLayers.src (argE V0) := by
  have h := upTo_add V0 0 4 (Proc.devRef .tc main_v1)
  rw [src_v1] at h
  exact h

/-- … and the destination indices. -/
theorem dst_at : upTo V0 4 (Proc.devRef .tc main_v3) = GcnLayers.dst (argE V0) := by
  have h := upTo_add V0 0 4 (Proc.devRef .tc main_v3)
  rw [dst_v3] at h
  exact h

/-- No later operation writes the source indices. -/
theorem src_from (k : Nat) (hk : 4 ≤ k) (hr : main_v1 ∉ (written.drop 4).take (k - 4)) :
    upTo V0 k (Proc.devRef .tc main_v1) = GcnLayers.src (argE V0) :=
  (kept V0 4 k hk hr).trans (src_at V0)

/-- No later operation writes the destination indices. -/
theorem dst_from (k : Nat) (hk : 4 ≤ k) (hr : main_v3 ∉ (written.drop 4).take (k - 4)) :
    upTo V0 k (Proc.devRef .tc main_v3) = GcnLayers.dst (argE V0) :=
  (kept V0 4 k hk hr).trans (dst_at V0)

/-- The vector of ones, one per edge. -/
theorem ones_at : upTo V0 15 (Proc.devRef .tc main_v4) = GcnLayers.ones := by
  have h := upTo_add V0 4 11 (Proc.devRef .tc main_v4)
  rw [ones_v4] at h
  exact h

/-- No later operation writes the vector of ones. -/
theorem ones_from (k : Nat) (hk : 15 ≤ k) (hr : main_v4 ∉ (written.drop 15).take (k - 15)) :
    upTo V0 k (Proc.devRef .tc main_v4) = GcnLayers.ones :=
  (kept V0 15 k hk hr).trans (ones_at V0)

/-- First layer: the mask of the nodes of positive in-degree, -/
theorem mask1 : upTo V0 15 (Proc.devRef .tc main_v9) = cmpf .ogt (GcnLayers.deg (GcnLayers.dst (argE V0))) GcnLayers.zeros := by
  have h := upTo_add V0 4 11 (Proc.devRef .tc main_v9)
  rw [mask_v9, dst_at] at h
  exact h

/-- … the reciprocal square roots of the in-degrees, -/
theorem rsqrt1 : upTo V0 15 (Proc.devRef .tc main_v10) = Host.rsqrt (F := Ideal) (GcnLayers.deg (GcnLayers.dst (argE V0))) := by
  have h := upTo_add V0 4 11 (Proc.devRef .tc main_v10)
  rw [rsqrt_v10, dst_at] at h
  exact h

/-- … and zero. -/
theorem zero1 : upTo V0 15 (Proc.devRef .tc main_cst_2) = constant (F := Ideal) S_ .f32 0x00000000#32 := by
  have h := upTo_add V0 4 11 (Proc.devRef .tc main_cst_2)
  rw [zero_cst2] at h
  exact h

/-- The node factors: the reciprocal square root of the in-degree where it is positive, zero elsewhere. -/
theorem nodes1 : upTo V0 18 (Proc.devRef .tc main_v11) = GcnLayers.dinv (GcnLayers.dst (argE V0)) := by
  have h := upTo_add V0 15 3 (Proc.devRef .tc main_v11)
  rw [where_v11, mask1, rsqrt1, zero1] at h
  exact h

/-- The edge factors of the first layer. -/
theorem norm1 : upTo V0 38 (Proc.devRef .tc main_v27) = GcnLayers.norm (GcnLayers.src (argE V0)) (GcnLayers.dst (argE V0)) := by
  have h := upTo_add V0 18 20 (Proc.devRef .tc main_v27)
  rw [edge_v27, nodes1, src_from V0 18 (by decide) (by decide), dst_from V0 18 (by decide) (by decide), ones_from V0 18 (by decide) (by decide)] at h
  exact h

/-- The first dense product. -/
theorem dense1 : upTo V0 39 (Proc.devRef .tc main_v28) = GcnLayers.dense (argX V0) (argW0 V0) := by
  have h := upTo_add V0 38 1 (Proc.devRef .tc main_v28)
  rw [dense_v28, arg_at V0 38 (r := main_arg0) (by decide), arg_at V0 38 (r := main_arg2) (by decide)] at h
  exact h

/-- The first convolution. -/
theorem conv1 : upTo V0 58 (Proc.devRef .tc main_v44) = GcnLayers.conv (GcnLayers.dense (argX V0) (argW0 V0)) (GcnLayers.src (argE V0)) (GcnLayers.dst (argE V0)) (GcnLayers.norm (GcnLayers.src (argE V0)) (GcnLayers.dst (argE V0))) (argB0 V0) := by
  have h := upTo_add V0 39 19 (Proc.devRef .tc main_v44)
  rw [conv_v44, dense1, src_from V0 39 (by decide) (by decide), dst_from V0 39 (by decide) (by decide), kept V0 38 39 (by decide) (r := main_v27) (by decide), norm1, arg_at V0 39 (r := main_arg6) (by decide)] at h
  exact h

/-- Centred and scaled. -/
theorem scaled1 : upTo V0 78 (Proc.devRef .tc main_v58) = GcnBridge.Ref.scaled (GcnLayers.conv (GcnLayers.dense (argX V0) (argW0 V0)) (GcnLayers.src (argE V0)) (GcnLayers.dst (argE V0)) (GcnLayers.norm (GcnLayers.src (argE V0)) (GcnLayers.dst (argE V0))) (argB0 V0)) := by
  have h := upTo_add V0 58 20 (Proc.devRef .tc main_v58)
  rw [scaled_v58, conv1] at h
  exact h

/-- The first hidden layer's output. -/
theorem layer1 : upTo V0 81 (Proc.devRef .tc main_v59) = GcnLayers.layer (argX V0) (argW0 V0) (argB0 V0) (argE V0) := by
  have h := upTo_add V0 78 3 (Proc.devRef .tc main_v59)
  rw [relu_v59, scaled1] at h
  exact h

/-- Second layer: the mask of positive in-degrees, counted from the vector of ones made at the start, -/
theorem mask2 : upTo V0 90 (Proc.devRef .tc main_v64) = cmpf .ogt (GcnLayers.deg (GcnLayers.dst (argE V0))) GcnLayers.zeros := by
  have h := upTo_add V0 81 9 (Proc.devRef .tc main_v64)
  rw [mask_v64, dst_from V0 81 (by decide) (by decide), ones_from V0 81 (by decide) (by decide), degWith_ones] at h
  exact h

/-- … the reciprocal square roots, -/
theorem rsqrt2 : upTo V0 90 (Proc.devRef .tc main_v65) = Host.rsqrt (F := Ideal) (GcnLayers.deg (GcnLayers.dst (argE V0))) := by
  have h := upTo_add V0 81 9 (Proc.devRef .tc main_v65)
  rw [rsqrt_v65, dst_from V0 81 (by decide) (by decide), ones_from V0 81 (by decide) (by decide), degWith_ones] at h
  exact h

/-- … and zero. -/
theorem zero2 : upTo V0 90 (Proc.devRef .tc main_cst_17) = constant (F := Ideal) S_ .f32 0x00000000#32 := by
  have h := upTo_add V0 81 9 (Proc.devRef .tc main_cst_17)
  rw [zero_cst17] at h
  exact h

/-- The node factors again. -/
theorem nodes2 : upTo V0 93 (Proc.devRef .tc main_v66) = GcnLayers.dinv (GcnLayers.dst (argE V0)) := by
  have h := upTo_add V0 90 3 (Proc.devRef .tc main_v66)
  rw [where_v66, mask2, rsqrt2, zero2] at h
  exact h

/-- The edge factors of the second layer: the same as the first's. -/
theorem norm2 : upTo V0 113 (Proc.devRef .tc main_v82) = GcnLayers.norm (GcnLayers.src (argE V0)) (GcnLayers.dst (argE V0)) := by
  have h := upTo_add V0 93 20 (Proc.devRef .tc main_v82)
  rw [edge_v82, nodes2, src_from V0 93 (by decide) (by decide), dst_from V0 93 (by decide) (by decide), ones_from V0 93 (by decide) (by decide)] at h
  exact h

/-- The second dense product. -/
theorem dense2 : upTo V0 114 (Proc.devRef .tc main_v83) = GcnLayers.dense (GcnLayers.layer (argX V0) (argW0 V0) (argB0 V0) (argE V0)) (argW1 V0) := by
  have h := upTo_add V0 113 1 (Proc.devRef .tc main_v83)
  rw [dense_v83, kept V0 81 113 (by decide) (r := main_v59) (by decide), layer1, arg_at V0 113 (r := main_arg3) (by decide)] at h
  exact h

/-- The second convolution. -/
theorem conv2 : upTo V0 133 (Proc.devRef .tc main_v99) = GcnLayers.conv (GcnLayers.dense (GcnLayers.layer (argX V0) (argW0 V0) (argB0 V0) (argE V0)) (argW1 V0)) (GcnLayers.src (argE V0)) (GcnLayers.dst (argE V0)) (GcnLayers.norm (GcnLayers.src (argE V0)) (GcnLayers.dst (argE V0))) (argB1 V0) := by
  have h := upTo_add V0 114 19 (Proc.devRef .tc main_v99)
  rw [conv_v99, dense2, src_from V0 114 (by decide) (by decide), dst_from V0 114 (by decide) (by decide), kept V0 113 114 (by decide) (r := main_v82) (by decide), norm2, arg_at V0 114 (r := main_arg7) (by decide)] at h
  exact h

/-- Centred and scaled. -/
theorem scaled2 : upTo V0 153 (Proc.devRef .tc main_v113) = GcnBridge.Ref.scaled (GcnLayers.conv (GcnLayers.dense (GcnLayers.layer (argX V0) (argW0 V0) (argB0 V0) (argE V0)) (argW1 V0)) (GcnLayers.src (argE V0)) (GcnLayers.dst (argE V0)) (GcnLayers.norm (GcnLayers.src (argE V0)) (GcnLayers.dst (argE V0))) (argB1 V0)) := by
  have h := upTo_add V0 133 20 (Proc.devRef .tc main_v113)
  rw [scaled_v113, conv2] at h
  exact h

/-- The second hidden layer's output. -/
theorem layer2 : upTo V0 156 (Proc.devRef .tc main_v114) = GcnLayers.layer (GcnLayers.layer (argX V0) (argW0 V0) (argB0 V0) (argE V0)) (argW1 V0) (argB1 V0) (argE V0) := by
  have h := upTo_add V0 153 3 (Proc.devRef .tc main_v114)
  rw [relu_v114, scaled2] at h
  exact h

/-- Third layer: the mask of positive in-degrees, counted from the vector of ones made at the start, -/
theorem mask3 : upTo V0 165 (Proc.devRef .tc main_v119) = cmpf .ogt (GcnLayers.deg (GcnLayers.dst (argE V0))) GcnLayers.zeros := by
  have h := upTo_add V0 156 9 (Proc.devRef .tc main_v119)
  rw [mask_v119, dst_from V0 156 (by decide) (by decide), ones_from V0 156 (by decide) (by decide), degWith_ones] at h
  exact h

/-- … the reciprocal square roots, -/
theorem rsqrt3 : upTo V0 165 (Proc.devRef .tc main_v120) = Host.rsqrt (F := Ideal) (GcnLayers.deg (GcnLayers.dst (argE V0))) := by
  have h := upTo_add V0 156 9 (Proc.devRef .tc main_v120)
  rw [rsqrt_v120, dst_from V0 156 (by decide) (by decide), ones_from V0 156 (by decide) (by decide), degWith_ones] at h
  exact h

/-- … and zero. -/
theorem zero3 : upTo V0 165 (Proc.devRef .tc main_cst_33) = constant (F := Ideal) S_ .f32 0x00000000#32 := by
  have h := upTo_add V0 156 9 (Proc.devRef .tc main_cst_33)
  rw [zero_cst33] at h
  exact h

/-- The node factors again. -/
theorem nodes3 : upTo V0 168 (Proc.devRef .tc main_v121) = GcnLayers.dinv (GcnLayers.dst (argE V0)) := by
  have h := upTo_add V0 165 3 (Proc.devRef .tc main_v121)
  rw [where_v121, mask3, rsqrt3, zero3] at h
  exact h

/-- The edge factors of the third layer. -/
theorem norm3 : upTo V0 188 (Proc.devRef .tc main_v137) = GcnLayers.norm (GcnLayers.src (argE V0)) (GcnLayers.dst (argE V0)) := by
  have h := upTo_add V0 168 20 (Proc.devRef .tc main_v137)
  rw [edge_v137, nodes3, src_from V0 168 (by decide) (by decide), dst_from V0 168 (by decide) (by decide), ones_from V0 168 (by decide) (by decide)] at h
  exact h

/-- The third dense product. -/
theorem dense3 : upTo V0 189 (Proc.devRef .tc main_v138) = GcnLayers.dense (GcnLayers.layer (GcnLayers.layer (argX V0) (argW0 V0) (argB0 V0) (argE V0)) (argW1 V0) (argB1 V0) (argE V0)) (argW2 V0) := by
  have h := upTo_add V0 188 1 (Proc.devRef .tc main_v138)
  rw [dense_v138, kept V0 156 188 (by decide) (r := main_v114) (by decide), layer2, arg_at V0 188 (r := main_arg4) (by decide)] at h
  exact h

/-- The third convolution. -/
theorem conv3 : upTo V0 208 (Proc.devRef .tc main_v154) = GcnLayers.conv (GcnLayers.dense (GcnLayers.layer (GcnLayers.layer (argX V0) (argW0 V0) (argB0 V0) (argE V0)) (argW1 V0) (argB1 V0) (argE V0)) (argW2 V0)) (GcnLayers.src (argE V0)) (GcnLayers.dst (argE V0)) (GcnLayers.norm (GcnLayers.src (argE V0)) (GcnLayers.dst (argE V0))) (argB2 V0) := by
  have h := upTo_add V0 189 19 (Proc.devRef .tc main_v154)
  rw [conv_v154, dense3, src_from V0 189 (by decide) (by decide), dst_from V0 189 (by decide) (by decide), kept V0 188 189 (by decide) (r := main_v137) (by decide), norm3, arg_at V0 189 (r := main_arg8) (by decide)] at h
  exact h

/-- Centred and scaled. -/
theorem scaled3 : upTo V0 228 (Proc.devRef .tc main_v168) = GcnBridge.Ref.scaled (GcnLayers.conv (GcnLayers.dense (GcnLayers.layer (GcnLayers.layer (argX V0) (argW0 V0) (argB0 V0) (argE V0)) (argW1 V0) (argB1 V0) (argE V0)) (argW2 V0)) (GcnLayers.src (argE V0)) (GcnLayers.dst (argE V0)) (GcnLayers.norm (GcnLayers.src (argE V0)) (GcnLayers.dst (argE V0))) (argB2 V0)) := by
  have h := upTo_add V0 208 20 (Proc.devRef .tc main_v168)
  rw [scaled_v168, conv3] at h
  exact h

/-- The third hidden layer's output. -/
theorem layer3 : upTo V0 231 (Proc.devRef .tc main_v169) = GcnLayers.layer (GcnLayers.layer (GcnLayers.layer (argX V0) (argW0 V0) (argB0 V0) (argE V0)) (argW1 V0) (argB1 V0) (argE V0)) (argW2 V0) (argB2 V0) (argE V0) := by
  have h := upTo_add V0 228 3 (Proc.devRef .tc main_v169)
  rw [relu_v169, scaled3] at h
  exact h

/-- The source indices with the self loops appended, -/
theorem srcL_at : upTo V0 234 (Proc.devRef .tc main_v171) = GcnLayers.srcL (GcnLayers.src (argE V0)) := by
  have h := upTo_add V0 231 3 (Proc.devRef .tc main_v171)
  rw [srcL_v171, src_from V0 231 (by decide) (by decide)] at h
  exact h

/-- … and the destination indices. -/
theorem dstL_at : upTo V0 234 (Proc.devRef .tc main_v172) = GcnLayers.srcL (GcnLayers.dst (argE V0)) := by
  have h := upTo_add V0 231 3 (Proc.devRef .tc main_v172)
  rw [srcL_v172, dst_from V0 231 (by decide) (by decide)] at h
  exact h

/-- The vector of ones over the extended edges. -/
theorem onesL_at : upTo V0 245 (Proc.devRef .tc main_v173) = GcnLayers.onesL := by
  have h := upTo_add V0 234 11 (Proc.devRef .tc main_v173)
  rw [onesL_v173] at h
  exact h

/-- Last layer: the mask of positive in-degrees over the extended edges, -/
theorem maskL : upTo V0 245 (Proc.devRef .tc main_v178) = cmpf .ogt (GcnLayers.degL (GcnLayers.srcL (GcnLayers.dst (argE V0)))) GcnLayers.zeros := by
  have h := upTo_add V0 234 11 (Proc.devRef .tc main_v178)
  rw [mask_v178, dstL_at] at h
  exact h

/-- … the reciprocal square roots, -/
theorem rsqrtL : upTo V0 245 (Proc.devRef .tc main_v179) = Host.rsqrt (F := Ideal) (GcnLayers.degL (GcnLayers.srcL (GcnLayers.dst (argE V0)))) := by
  have h := upTo_add V0 234 11 (Proc.devRef .tc main_v179)
  rw [rsqrt_v179, dstL_at] at h
  exact h

/-- … and zero. -/
theorem zeroL : upTo V0 245 (Proc.devRef .tc main_cst_50) = constant (F := Ideal) S_ .f32 0x00000000#32 := by
  have h := upTo_add V0 234 11 (Proc.devRef .tc main_cst_50)
  rw [zero_cst50] at h
  exact h

/-- The node factors over the extended edges. -/
theorem nodesL : upTo V0 248 (Proc.devRef .tc main_v180) = GcnLayers.dinvL (GcnLayers.srcL (GcnLayers.dst (argE V0))) := by
  have h := upTo_add V0 245 3 (Proc.devRef .tc main_v180)
  rw [where_v180, maskL, rsqrtL, zeroL] at h
  exact h

/-- The edge factors of the last layer. -/
theorem normL_at : upTo V0 268 (Proc.devRef .tc main_v196) = GcnLayers.normL (GcnLayers.srcL (GcnLayers.src (argE V0))) (GcnLayers.srcL (GcnLayers.dst (argE V0))) := by
  have h := upTo_add V0 248 20 (Proc.devRef .tc main_v196)
  rw [edge_v196, nodesL, kept V0 234 248 (by decide) (r := main_v171) (by decide), srcL_at, kept V0 234 248 (by decide) (r := main_v172) (by decide), dstL_at, kept V0 245 248 (by decide) (r := main_v173) (by decide), onesL_at] at h
  exact h

/-- The last dense product. -/
theorem denseL_at : upTo V0 269 (Proc.devRef .tc main_v197) = GcnLayers.denseL (GcnLayers.layer (GcnLayers.layer (GcnLayers.layer (argX V0) (argW0 V0) (argB0 V0) (argE V0)) (argW1 V0) (argB1 V0) (argE V0)) (argW2 V0) (argB2 V0) (argE V0)) (argW3 V0) := by
  have h := upTo_add V0 268 1 (Proc.devRef .tc main_v197)
  rw [dense_v197, kept V0 231 268 (by decide) (r := main_v169) (by decide), layer3, arg_at V0 268 (r := main_arg5) (by decide)] at h
  exact h

/-- The last convolution: the network's output. -/
theorem result_at : upTo V0 288 (Proc.devRef .tc main_v213) = GcnLayers.gcn (argX V0) (argE V0) (argW0 V0) (argW1 V0) (argW2 V0) (argW3 V0) (argB0 V0) (argB1 V0) (argB2 V0) (argB3 V0) := by
  have h := upTo_add V0 269 19 (Proc.devRef .tc main_v213)
  rw [conv_v213, denseL_at, kept V0 234 269 (by decide) (r := main_v171) (by decide), srcL_at, kept V0 234 269 (by decide) (r := main_v172) (by decide), dstL_at, kept V0 268 269 (by decide) (r := main_v196) (by decide), normL_at, arg_at V0 269 (r := main_arg9) (by decide)] at h
  exact h

/-! ## The whole line -/

/-- All 288 operations are the prefix of length 288. -/
theorem upTo_all (b : DevRef τ sig) : upTo V0 288 b = after (ops (F := Ideal)) V0 b := by
  unfold upTo
  rw [List.take_of_length_le (show (ops (F := Ideal)).length ≤ 288 by decide)]

/-- After the whole line the result buffer holds the network's output of the ten argument arrays. -/
theorem after_result : after (ops (F := Ideal)) V0 (Proc.devRef .tc main_v213)
    = GcnLayers.gcn (argX V0) (argE V0) (argW0 V0) (argW1 V0) (argW2 V0) (argW3 V0) (argB0 V0) (argB1 V0) (argB2 V0) (argB3 V0) :=
  (upTo_all V0 _).symm.trans (result_at V0)

/-- No operation writes an argument's buffer. -/
theorem after_arg {r : Ref sig .tc} (hr : r ∉ written) :
    after (ops (F := Ideal)) V0 (Proc.devRef .tc r) = V0 (Proc.devRef .tc r) :=
  after_of_forall₂_writes ops_written V0 hr

/-! ## The run -/

/-- On every device, from any memory with zero counters, every weakly fair execution of the reference program
    terminates with the result array at the network's output of the argument arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v213)
        = GcnLayers.gcn (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v213).trans (after_result (launchContents m c)),
      (h c main_arg0).trans (after_arg (launchContents m c) (by decide)),
      (h c main_arg1).trans (after_arg (launchContents m c) (by decide)),
      (h c main_arg2).trans (after_arg (launchContents m c) (by decide)),
      (h c main_arg3).trans (after_arg (launchContents m c) (by decide)),
      (h c main_arg4).trans (after_arg (launchContents m c) (by decide)),
      (h c main_arg5).trans (after_arg (launchContents m c) (by decide)),
      (h c main_arg6).trans (after_arg (launchContents m c) (by decide)),
      (h c main_arg7).trans (after_arg (launchContents m c) (by decide)),
      (h c main_arg8).trans (after_arg (launchContents m c) (by decide)),
      (h c main_arg9).trans (after_arg (launchContents m c) (by decide))⟩)
    (run_seq scopedRefs_eq scopedSems_eq defs main (fun _ => ops) main_eq (fun _ => ops_sub) m ρ)

end Cert.ReferenceIdeal.RunVal

end
-- ==== Proof.lean ====
/-
  The certificate: a four-layer graph convolution network whose dense passes run as seven kernel launches, against
  the same network written with plain array operations.

  At the extended reals both programs end with the one function `GcnLayers.gcn` of their ten argument arrays in their
  result buffer.  For the kernel program this is read off its run (`Cert.KernelIdeal.RunVal.run`) boundary by boundary
  (`Cert.KernelIdeal.ChainVal.result`): every linear launch leaves the dense product of its inputs, every pair-norm
  launch leaves `max ((out - mean) · (1 / r)) 0`, and that is the reference's `max ((out - mean) / r) 0` for every
  extended real `r` (`GcnBridge.centreScaleClamp_eq`), so no finiteness of the inputs is used.  For the reference it is
  its host operations composed (`Cert.ReferenceIdeal.RunVal.run`).  The word-level kernel program needs only its frame;
  the idealization rewrote nothing, so there is nothing to preserve.
-/
import proofs.«163474_j52115133170062_1_alg».proof.Defs
import proofs.«163474_j52115133170062_1_alg».proof.Proof.Gen.Kernel
import proofs.«163474_j52115133170062_1_alg».proof.Proof.Gen.Kernel.Skeleton
import proofs.«163474_j52115133170062_1_alg».proof.Proof.Gen.Kernel.Launch
import proofs.«163474_j52115133170062_1_alg».proof.Proof.Gen.Kernel.Points
import proofs.«163474_j52115133170062_1_alg».proof.Proof.Gen.Kernel.Frame
import proofs.«163474_j52115133170062_1_alg».proof.Proof.Gen.KernelIdeal
import proofs.«163474_j52115133170062_1_alg».proof.Proof.Gen.KernelIdeal.Skeleton
import proofs.«163474_j52115133170062_1_alg».proof.Proof.Gen.KernelIdeal.Launch
import proofs.«163474_j52115133170062_1_alg».proof.Proof.Gen.KernelIdeal.Points
import proofs.«163474_j52115133170062_1_alg».proof.Proof.Gen.KernelIdeal.Frame
import proofs.«163474_j52115133170062_1_alg».proof.Proof.Gen.ReferenceIdeal
import proofs.«163474_j52115133170062_1_alg».proof.Proof.Gen.Pre_finite_inputs
import proofs.«163474_j52115133170062_1_alg».proof.Proof.KernelRun
import proofs.«163474_j52115133170062_1_alg».proof.Proof.KernelChain
import proofs.«163474_j52115133170062_1_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.RunVal.run m ρ)

/-- Both programs end at the network's value of their arguments, and the arguments agree. -/
theorem algebraic : Cert.algebraic_KernelIdeal_ReferenceIdeal := by
  intro m ρ m' ρ' _ hagree
  refine ⟨fun c => GcnLayers.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.ChainVal.result m ρ c), (h c).2⟩) (Cert.KernelIdeal.RunVal.run m ρ)
  · refine (θ_run Cert.ReferenceIdeal.defs _ _).mono (fun _ h c => ⟨(h c).1.trans ?_, (h c).2⟩) (Cert.ReferenceIdeal.RunVal.run m' ρ')
    obtain ⟨e0, e1, e2, e3, e4, e5, e6, e7, e8, e9⟩ := hagree c
    rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
